-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x2048x1 : Shape := ⟨3, ![16, 2048, 1]⟩
abbrev S256 : Shape := ⟨1, ![256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S16x2048x256 .f32) (main_arg1 : IVec S16x2048x1 1) (main_arg2 : FVec F S256 .f32) (main_arg3 : FVec F S256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x2048x256 : Shape := ⟨3, ![16, 2048, 256]⟩
abbrev S16x2048x1 : Shape := ⟨3, ![16, 2048, 1]⟩
abbrev S256 : Shape := ⟨1, ![256]⟩
abbrev S16x512x256 : Shape := ⟨3, ![16, 512, 256]⟩
abbrev S16x512 : Shape := ⟨2, ![16, 512]⟩
abbrev S16x512x1 : Shape := ⟨3, ![16, 512, 1]⟩
abbrev S1x1x256 : Shape := ⟨3, ![1, 1, 256]⟩
abbrev S8x16x256 : Shape := ⟨3, ![8, 16, 256]⟩
abbrev S16x256x256 : Shape := ⟨3, ![16, 256, 256]⟩
abbrev S16x256x1 : Shape := ⟨3, ![16, 256, 1]⟩
abbrev S1x16x256 : Shape := ⟨3, ![1, 16, 256]⟩
abbrev S16x1x256 : Shape := ⟨3, ![16, 1, 256]⟩
abbrev S16x256 : Shape := ⟨2, ![16, 256]⟩
abbrev S_ : Shape := ⟨0, ![]⟩
abbrev S16 : Shape := ⟨1, ![16]⟩
abbrev S16x1 : Shape := ⟨2, ![16, 1]⟩

abbrev nBuf : Space → Nat
  | .hbm => 16
  | .vmem => 21
  | .smem => 0
  | _ => 0

abbrev bufTy : (tb : Table) → Fin (tcTables nBuf tb) → BufTy
  | .hbm, ⟨0, _⟩ => ⟨S16x2048x256, .f32⟩
  | .hbm, ⟨1, _⟩ => ⟨S16x2048x1, .i1⟩
  | .hbm, ⟨2, _⟩ => ⟨S256, .f32⟩
  | .hbm, ⟨3, _⟩ => ⟨S256, .f32⟩
  | .hbm, ⟨4, _⟩ => ⟨S16x2048x1, .f32⟩
  | .hbm, ⟨5, _⟩ => ⟨S16x2048x256, .bf16⟩
  | .hbm, ⟨6, _⟩ => ⟨S8x16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S_, .f32⟩
  | .hbm, ⟨11, _⟩ => ⟨S16, .f32⟩
  | .hbm, ⟨12, _⟩ => ⟨S16x1, .f32⟩
  | .hbm, ⟨13, _⟩ => ⟨S16x1, .f32⟩
  | .hbm, ⟨14, _⟩ => ⟨S16x256, .f32⟩
  | .hbm, ⟨15, _⟩ => ⟨S16x256, .f32⟩
  | .local _ .vmem, ⟨0, _⟩ => ⟨S16x512x256, .f32⟩
  | .local _ .vmem, ⟨1, _⟩ => ⟨S16x512x256, .f32⟩
  | .local _ .vmem, ⟨2, _⟩ => ⟨S256, .f32⟩
  | .local _ .vmem, ⟨3, _⟩ => ⟨S256, .f32⟩
  | .local _ .vmem, ⟨4, _⟩ => ⟨S16x512x256, .bf16⟩
  | .local _ .vmem, ⟨5, _⟩ => ⟨S16x512x256, .bf16⟩
  | .local _ .vmem, ⟨6, _⟩ => ⟨S16x256x256, .bf16⟩
  | .local _ .vmem, ⟨7, _⟩ => ⟨S16x256x256, .bf16⟩
  | .local _ .vmem, ⟨8, _⟩ => ⟨S16x256x256, .bf16⟩
  | .local _ .vmem, ⟨9, _⟩ => ⟨S16x256x256, .bf16⟩
  | .local _ .vmem, ⟨10, _⟩ => ⟨S16x256x256, .f32⟩
  | .local _ .vmem, ⟨11, _⟩ => ⟨S16x256x256, .f32⟩
  | .local _ .vmem, ⟨12, _⟩ => ⟨S16x256x1, .f32⟩
  | .local _ .vmem, ⟨13, _⟩ => ⟨S16x256x1, .f32⟩
  | .local _ .vmem, ⟨14, _⟩ => ⟨S16x256x1, .f32⟩
  | .local _ .vmem, ⟨15, _⟩ => ⟨S16x256x1, .f32⟩
  | .local _ .vmem, ⟨16, _⟩ => ⟨S1x16x256, .f32⟩
  | .local _ .vmem, ⟨17, _⟩ => ⟨S1x16x256, .f32⟩
  | .local _ .vmem, ⟨18, _⟩ => ⟨S16x256x1, .f32⟩
  | .local _ .vmem, ⟨19, _⟩ => ⟨S16x256x1, .f32⟩
  | .local _ .vmem, ⟨20, _⟩ => ⟨S16x256x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_39 : BitVec 32 := 0#32
  let v54 : BitVec 1 := Scalar.cmpi .ne v53 c0_i32_39
  v54

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S16x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x16x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S16x512x256_S16x512x256_0_0_0 : ∀ a, (![0, 0, 0] : Fin 3 → Nat) a + S16x512x256.size a ≤ S16x512x256.size a
  h_S16x512x256 : 0 < S16x512x256.numel
  reduces_S16x512x256_S16x512 : S16x512x256.Reduces [2] S16x512
  shapeCasts_S16x512_S16x512x1 : S16x512.ShapeCasts S16x512x1
  broadcasts_S16x512x1_S16x512x256 : S16x512x1.Broadcasts S16x512x256
  inb_S256_S256_0 : ∀ a, (![0] : Fin 1 → Nat) a + S256.size a ≤ S256.size a
  h_S256 : 0 < S256.numel
  shapeCasts_S256_S1x1x256 : S256.ShapeCasts S1x1x256
  broadcasts_S1x1x256_S16x512x256 : S1x1x256.Broadcasts S16x512x256
  bitsLt_bf16_f32 : FTy.bits .bf16 < FTy.bits .f32
  packedbf16_S16x512x256_S16x512x256_0_0_0 : (Rect.unit (s := S16x512x256) ![0, 0, 0] S16x512x256.size inb_S16x512x256_S16x512x256_0_0_0).PackedRows (EltTy.packing .bf16)
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  transposes_S16x256x1_p0_2_1_S16x1x256 : S16x256x1.Transposes [0, 2, 1] S16x1x256
  broadcasts_S16x256x1_S16x256x256 : S16x256x1.Broadcasts S16x256x256
  broadcasts_S16x1x256_S16x256x256 : S16x1x256.Broadcasts S16x256x256
  reduces_S16x256x256_S16x256 : S16x256x256.Reduces [2] S16x256
  shapeCasts_S16x256_S16x256x1 : S16x256.ShapeCasts S16x256x1
  reduces_S16x256x256_S16x256_2 : S16x256x256.Reduces [1] S16x256
  shapeCasts_S16x256_S1x16x256 : S16x256.ShapeCasts S1x16x256
  inb_S1x16x256_S1x16x256_0_0_0 : ∀ a, (![0, 0, 0] : Fin 3 → Nat) a + S1x16x256.size a ≤ S1x16x256.size a
  h_S1x16x256 : 0 < S1x16x256.numel
  reducesTo_S8x16x256_S16x256_d0 : S8x16x256.ReducesTo [0] S16x256
  h_S_ : 0 < S_.numel
  reducesTo_S16x256_S16_d1 : S16x256.ReducesTo [1] S16
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  dot_S16x256x256_S16x256x256_S16x256x256_2_2_1_1_0_0_wf : DotDims.WF S16x256x256 S16x256x256 S16x256x256 [2] [2] [1] [1] [0] [0]
  dot_S16x256x256_S16x256x256_S16x256x256_2_1_1_2_0_0_wf : DotDims.WF S16x256x256 S16x256x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S16x2048x256.size a
  hwx0_0 : ∀ i : grid0.Coords, EltTy.bits .f32 = 32 ∨ (Rect.block (s := S16x2048x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x256.size a ≤ S16x2048x256.size a
  hwx0_3 : ∀ i : grid0.Coords, EltTy.bits .bf16 = 32 ∨ (Rect.block (s := S16x2048x256) S16x512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S16x2048x256.size a
  hwx1_0 : ∀ i : grid1.Coords, EltTy.bits .bf16 = 32 ∨ (Rect.block (s := S16x2048x256) S16x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x256.size a ≤ S16x2048x256.size a
  hwx1_1 : ∀ i : grid1.Coords, EltTy.bits .bf16 = 32 ∨ (Rect.block (s := S16x2048x256) S16x256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x256.size a ≤ S16x2048x256.size a
  hwx1_2 : ∀ i : grid1.Coords, EltTy.bits .f32 = 32 ∨ (Rect.block (s := S16x2048x256) S16x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x1.size a ≤ S16x2048x1.size a
  hwx1_3 : ∀ i : grid1.Coords, EltTy.bits .f32 = 32 ∨ (Rect.block (s := S16x2048x1) S16x256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x256x1.size a ≤ S16x2048x1.size a
  hwx1_4 : ∀ i : grid1.Coords, EltTy.bits .f32 = 32 ∨ (Rect.block (s := S16x2048x1) S16x256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x256.size a ≤ S8x16x256.size a
  hwx1_5 : ∀ i : grid1.Coords, EltTy.bits .f32 = 32 ∨ (Rect.block (s := S8x16x256) S1x16x256.size (cc1_transform_5 i) (hinb1_5 i)).WholeWords (EltTy.packing .f32)

variable [Facts₀]

def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S16x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S16x256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S16x256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x16x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16x2048x256 : Shape := ⟨3, ![16, 2048, 256]⟩
abbrev S16x2048x1 : Shape := ⟨3, ![16, 2048, 1]⟩
abbrev S256 : Shape := ⟨1, ![256]⟩
abbrev S_ : Shape := ⟨0, ![]⟩
abbrev S16x2048 : Shape := ⟨2, ![16, 2048]⟩
abbrev S1x1x256 : Shape := ⟨3, ![1, 1, 256]⟩
abbrev S16x2048x2048 : Shape := ⟨3, ![16, 2048, 2048]⟩
abbrev S16x1x2048 : Shape := ⟨3, ![16, 1, 2048]⟩
abbrev S16x256 : Shape := ⟨2, ![16, 256]⟩
abbrev S16 : Shape := ⟨1, ![16]⟩
abbrev S16x1 : Shape := ⟨2, ![16, 1]⟩

abbrev nBuf : Space → Nat
  | .hbm => 76
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x1, .i1⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S16x2048x256, .f32⟩
  | .hbm, ⟨11, _⟩ => ⟨S16x2048x256, .f32⟩
  | .hbm, ⟨12, _⟩ => ⟨S16x2048x256, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x256, .f32⟩
  | .hbm, ⟨20, _⟩ => ⟨S16x2048x256, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x256, .f32⟩
  | .hbm, ⟨26, _⟩ => ⟨S16x2048x256, .f32⟩
  | .hbm, ⟨27, _⟩ => ⟨S1x1x256, .f32⟩
  | .hbm, ⟨28, _⟩ => ⟨S16x2048x256, .f32⟩
  | .hbm, ⟨29, _⟩ => ⟨S16x2048x256, .f32⟩
  | .hbm, ⟨30, _⟩ => ⟨S1x1x256, .f32⟩
  | .hbm, ⟨31, _⟩ => ⟨S16x2048x256, .f32⟩
  | .hbm, ⟨32, _⟩ => ⟨S16x2048x256, .f32⟩
  | .hbm, ⟨33, _⟩ => ⟨S16x2048x2048, .f32⟩
  | .hbm, ⟨34, _⟩ => ⟨S_, .f32⟩
  | .hbm, ⟨35, _⟩ => ⟨S16x2048x2048, .f32⟩
  | .hbm, ⟨36, _⟩ => ⟨S16x2048x2048, .f32⟩
  | .hbm, ⟨37, _⟩ => ⟨S16x2048x1, .f32⟩
  | .hbm, ⟨38, _⟩ => ⟨S16x2048x2048, .f32⟩
  | .hbm, ⟨39, _⟩ => ⟨S_, .f32⟩
  | .hbm, ⟨40, _⟩ => ⟨S16x2048x2048, .f32⟩
  | .hbm, ⟨41, _⟩ => ⟨S16x2048x2048, .i1⟩
  | .hbm, ⟨42, _⟩ => ⟨S_, .f32⟩
  | .hbm, ⟨43, _⟩ => ⟨S_, .f32⟩
  | .hbm, ⟨44, _⟩ => ⟨S16x2048x2048, .f32⟩
  | .hbm, ⟨45, _⟩ => ⟨S16x2048x2048, .f32⟩
  | .hbm, ⟨46, _⟩ => ⟨S_, .f32⟩
  | .hbm, ⟨47, _⟩ => ⟨S16x2048, .f32⟩
  | .hbm, ⟨48, _⟩ => ⟨S_, .f32⟩
  | .hbm, ⟨49, _⟩ => ⟨S16x2048, .f32⟩
  | .hbm, ⟨50, _⟩ => ⟨S16x2048, .f32⟩
  | .hbm, ⟨51, _⟩ => ⟨S16x1x2048, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048, .f32⟩
  | .hbm, ⟨57, _⟩ => ⟨S16x1x2048, .f32⟩
  | .hbm, ⟨58, _⟩ => ⟨S16x2048x2048, .f32⟩
  | .hbm, ⟨59, _⟩ => ⟨S16x2048x2048, .f32⟩
  | .hbm, ⟨60, _⟩ => ⟨S16x2048x256, .f32⟩
  | .hbm, ⟨61, _⟩ => ⟨S16x2048x256, .f32⟩
  | .hbm, ⟨62, _⟩ => ⟨S_, .f32⟩
  | .hbm, ⟨63, _⟩ => ⟨S_, .f32⟩
  | .hbm, ⟨64, _⟩ => ⟨S16x2048x256, .i1⟩
  | .hbm, ⟨65, _⟩ => ⟨S16x2048x256, .f32⟩
  | .hbm, ⟨66, _⟩ => ⟨S16x2048x256, .f32⟩
  | .hbm, ⟨67, _⟩ => ⟨S_, .f32⟩
  | .hbm, ⟨68, _⟩ => ⟨S16x256, .f32⟩
  | .hbm, ⟨69, _⟩ => ⟨S16x256, .f32⟩
  | .hbm, ⟨70, _⟩ => ⟨S_, .f32⟩
  | .hbm, ⟨71, _⟩ => ⟨S16, .f32⟩
  | .hbm, ⟨72, _⟩ => ⟨S16x1, .f32⟩
  | .hbm, ⟨73, _⟩ => ⟨S16x1, .f32⟩
  | .hbm, ⟨74, _⟩ => ⟨S16x256, .f32⟩
  | .hbm, ⟨75, _⟩ => ⟨S16x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x256_0_1_2 : S16x2048x1.BroadcastsInDim S16x2048x256 (![0, 1, 2] : Fin 3 → Fin S16x2048x256.rank)
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  bcast_S_S16x2048x2048 : S_.BroadcastsInDim S16x2048x2048 (![] : Fin 0 → Fin S16x2048x2048.rank)
  reducesTo_S16x2048x2048_S16x2048_d1 : S16x2048x2048.ReducesTo [1] S16x2048
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S16x2048x256 : S_.BroadcastsInDim S16x2048x256 (![] : Fin 0 → Fin S16x2048x256.rank)
  reducesTo_S16x2048x256_S16x256_d1 : S16x2048x256.ReducesTo [1] S16x256
  reducesTo_S16x256_S16_d1 : S16x256.ReducesTo [1] S16
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  dot_S16x2048x256_S16x2048x256_S16x2048x2048_2_2_1_1_0_0_wf : DotDims.WF S16x2048x256 S16x2048x256 S16x2048x2048 [2] [2] [1] [1] [0] [0]
  dot_S16x2048x1_S16x2048x1_S16x2048x2048_2_2_1_1_0_0_wf : DotDims.WF S16x2048x1 S16x2048x1 S16x2048x2048 [2] [2] [1] [1] [0] [0]
  dot_S16x2048x2048_S16x2048x256_S16x2048x256_1_1_2_2_0_0_wf : DotDims.WF S16x2048x2048 S16x2048x256 S16x2048x256 [1] [1] [2] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x1_S16x2048x1_S16x2048x2048_2_2_1_1_0_0 : DotDims S16x2048x1 S16x2048x1 S16x2048x2048 where
  lhsContracting := [2]
  rhsContracting := [2]
  lhsNonContracting := [1]
  rhsNonContracting := [1]
  lhsBatch := [0]
  rhsBatch := [0]
  wf := dot_S16x2048x1_S16x2048x1_S16x2048x2048_2_2_1_1_0_0_wf
def dot_S16x2048x2048_S16x2048x256_S16x2048x256_1_1_2_2_0_0 : DotDims S16x2048x2048 S16x2048x256 S16x2048x256 where
  lhsContracting := [1]
  rhsContracting := [1]
  lhsNonContracting := [2]
  rhsNonContracting := [2]
  lhsBatch := [0]
  rhsBatch := [0]
  wf := dot_S16x2048x2048_S16x2048x256_S16x2048x256_1_1_2_2_0_0_wf

class Facts : Prop extends Facts₀ where

variable [Facts]
-- ==== Proof.Bits.LnRegion.lean ====
/-
  The first kernel region: LayerNorm over the last axis, one block of 512 sequence positions (all 16 batch rows,
  all 256 features) per grid point, four points.  Stated at any float instance and at a PARAMETER `V`, the contents
  of the TensorCore's buffers when the region is entered.

  * `lnOut x g b` is what the body leaves in the output block: the one whole-block store of the payload
    `k0_pay1` — (x − mean) · rsqrt(var + ε) · g + b, rounded to bf16 — of the three input blocks.
  * `sound_ln` is the body's triple: from the three input buffers at known contents and the output buffer at
    anything, the body returns the inputs untouched and the output at `lnOut`.
  * `dat` is the pipeline's proof data (inputs stay at their blocks, the output at `lnOut` of the blocks), and
    `body_obligation` the library's obligation at every grid point.  The scale and shift vectors are fetched at
    the first point only; their block never moves, so the buffer still holds it at the later points.
-/
import proofs.«128383_j11819749998990_2_alg».proof.Proof.Gen.Kernel.Launch
import proofs.«128383_j11819749998990_2_alg».proof.Proof.Gen.Kernel.Skeleton
import proofs.«128383_j11819749998990_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: unfetched, the block
    index has not moved since the last fetch and the body left the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_g_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 16×512×256 block and the whole length-256 vector, as the rectangles the body loads and stores through. -/
abbrev rBlk : Rect S16x512x256 := Rect.unit (s := S16x512x256) ![0, 0, 0] S16x512x256.size inb_S16x512x256_S16x512x256_0_0_0
abbrev rVec : Rect S256 := Rect.unit (s := S256) ![0] S256.size inb_S256_S256_0

/-- The output block after the body: its one whole-block store, of the normalised, scaled and shifted block. -/
def lnOut (x : Vec F S16x512x256 .f32) (g b : Vec F S256 .f32) : Vec F S16x512x256 .bf16 :=
  View.canon [⟨rBlk, k0_pay1 (View.ld x rBlk) (View.ld g rVec) (View.ld b rVec)⟩]

/-- That store covers the block. -/
theorem lnCover (p0 : Vec F S16x512x256 .bf16) (y : S16x512x256.Idx) :
    ∃ pc ∈ ([⟨rBlk, p0⟩] : List (View.Piece (Elt F) S16x512x256 .bf16)), y ∈ pc.1.set :=
  View.cover_of_tiled [⟨rBlk, p0⟩] S16x512x256.size (by rfl) y

set_option maxHeartbeats 1000000 in
/-- The body's triple: the inputs' buffers come back as they were, the output's holds `lnOut` of the inputs. -/
theorem sound_ln (c : Dev nD) (E : Set ℕ) (i : grid0.Coords)
    (arg1 : Memref sig .tc .vmem S16x512x256 .f32) (harg1 : arg1.IsWhole) (arg2 : Memref sig .tc .vmem S256 .f32) (harg2 : arg2.IsWhole)
    (arg3 : Memref sig .tc .vmem S256 .f32) (harg3 : arg3.IsWhole) (arg4 : Memref sig .tc .vmem S16x512x256 .bf16) (harg4 : arg4.IsWhole)
    (x : Vec F S16x512x256 .f32) (g b : Vec F S256 .f32) (K : PUnit → sProp 𝕄) :
    iprop(owns (c : Thread nD τ) arg1 fullShare x ∗ owns (c : Thread nD τ) arg2 fullShare g ∗ owns (c : Thread nD τ) arg3 fullShare b
        ∗ (∃ d, owns (c : Thread nD τ) arg4 fullShare d)
        ∗ (iprop(owns (c : Thread nD τ) arg1 fullShare x ∗ owns (c : Thread nD τ) arg2 fullShare g ∗ owns (c : Thread nD τ) arg3 fullShare b
            ∗ owns (c : Thread nD τ) arg4 fullShare (lnOut x g b)) -∗ K ⟨⟩))
      ⊢ wp frame (wpE (defs₀ (F := F)) Variants.none c none) E (cc0__ln_kernel i arg1 harg1 arg2 harg2 arg3 harg3 arg4 harg4) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lnCover _)

/-- The pipeline's proof data on core `c`: the arrays as the region finds them; after the body each input's buffer
    at its block and the output's at `lnOut` of the three blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => lnOut (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_g (c : Dev nD) (t : Fin cfg0.N) : (dat V c).after 1 t = iblk V c 1 t := by dsimp only [dat]
theorem after_b (c : Dev nD) (t : Fin cfg0.N) : (dat V c).after 2 t = iblk V c 2 t := by dsimp only [dat]
theorem after_h (c : Dev nD) (t : Fin cfg0.N) :
    (dat V c).after 3 t = lnOut (iblk V c 0 t) (iblk V c 1 t) (iblk V c 2 t) := by dsimp only [dat]

theorem before_x (c : Dev nD) (t : Fin cfg0.N) (d) : (dat V c).before 0 t d = iblk V c 0 t :=
  before_x_of V (dat V c) (A_eq V c 0) (after_x V c) t d
theorem before_g (c : Dev nD) (t : Fin cfg0.N) (d) : (dat V c).before 1 t d = iblk V c 1 t :=
  before_g_of V (dat V c) (A_eq V c 1) (after_g V c) t d
theorem before_b (c : Dev nD) (t : Fin cfg0.N) (d) : (dat V c).before 2 t d = iblk V c 2 t :=
  before_b_of V (dat V c) (A_eq V c 2) (after_b V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_ln` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_g, before_b]
  rw [show (dat V c).Φ t.succ = (dat V c).Φ t.castSucc from rfl,
    show (dat V c).owesAt () t.succ = (dat V c).owesAt () t.castSucc from rfl,
    after_x, after_g, after_b, after_h]
  iintro ⟨HΦ, Ho, ⟨%d0, H0⟩, ⟨%d1, H1⟩, ⟨%d2, H2⟩, ⟨%d3, H3⟩⟩
  iapply (sound_ln c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Ln

end
-- ==== Proof.Bits.FlashShared.lean ====
/-
  The attention kernel region (a grid of 8 query tiles × 8 key tiles, the key tile the fast axis): what its three case
  runs are stated over.  The body branches twice on the key tile's number: at the FIRST key tile it resets its three
  carried buffers — the running row maximum, the running denominator and the running weighted sum —, at the LAST it
  writes the query tile's partial sum; the output window is idle (neither stored nor written back) at every other
  point.  Here: each window's block at a point, the inputs found at their blocks, the two branch conditions decided
  over the grid, where the output window is idle, and the staging and carried buffers by name.
-/
import proofs.«128383_j11819749998990_2_alg».proof.Proof.Gen.Kernel.Launch
import proofs.«128383_j11819749998990_2_alg».proof.Proof.Gen.Kernel.Skeleton
import proofs.«128383_j11819749998990_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not (the query-side windows are
    fetched at the first key tile only: the block index does not move along a sweep and the body leaves them in place). -/
theorem before_hq_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_hk_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_xq_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_mq_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_mk_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The body's first branch: the key tile's number is zero. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The body's second branch: the key tile's number is seven, the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- The output window is idle, and not written back, away from the last key tile; live at it. -/
theorem idleOut : ∀ t : Fin cfg1.N, ¬condLast (grid1.coords t) → cfg1.idle 5 (grid1.coords t) = true := by decide +kernel
theorem noFlushOut : ∀ t : Fin cfg1.N, ¬condLast (grid1.coords t) → (cfg1.win 5).flush t = false := by decide +kernel
theorem liveOut : ∀ t : Fin cfg1.N, condLast (grid1.coords t) → cfg1.idle 5 (grid1.coords t) = false := by decide +kernel

/-- One staging buffer of the output window, through which its contents are stated. -/
abbrev VOut : View sig .tc .vmem S1x16x256 .f32 := (Memref.whole cc1_stg5_0 : Memref sig .tc .vmem S1x16x256 .f32).view

/-- The carried buffers: running maximum, running denominator, running weighted sum. -/
abbrev scMax : Memref sig .tc .vmem S16x256x1 .f32 := Memref.whole cc1_scratch0
abbrev scDen : Memref sig .tc .vmem S16x256x1 .f32 := Memref.whole cc1_scratch1
abbrev scAcc : Memref sig .tc .vmem S16x256x256 .f32 := Memref.whole cc1_scratch2
abbrev VMax : View sig .tc .vmem S16x256x1 .f32 := scMax.view
abbrev VDen : View sig .tc .vmem S16x256x1 .f32 := scDen.view
abbrev VAcc : View sig .tc .vmem S16x256x256 .f32 := scAcc.view

end Cert.Kernel.Fl

end
-- ==== Proof.Bits.FlashRunA.lean ====
/-
  The attention body at a FIRST key tile (not the last): the three carried buffers, found at anything, are reset (minus
  infinity, zero, zero) and then advanced by this key tile; the output buffer is handed back untouched.  The pieces
  each carried buffer ends with are the run's witness.
-/
import proofs.«128383_j11819749998990_2_alg».proof.Proof.Bits.FlashShared

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (xi5 : Vec F S1x16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fl

end
-- ==== Proof.Bits.FlashRunB.lean ====
/-
  The attention body at a MIDDLE key tile: the three carried buffers, found at what the point before left, are advanced
  by this key tile; the output buffer is handed back untouched.
-/
import proofs.«128383_j11819749998990_2_alg».proof.Proof.Bits.FlashRunA

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (xi5 : Vec F S1x16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fl

end
-- ==== Proof.Bits.FlashRunC.lean ====
/-
  The attention body at the LAST key tile: the carried buffers are advanced once more and the query tile's partial sum
  — the weighted sum over the denominator, plus the input rows, times the mask, summed over the tile's rows — is stored
  into the output buffer.
-/
import proofs.«128383_j11819749998990_2_alg».proof.Proof.Bits.FlashRunB

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Fl

end
-- ==== Proof.Bits.FlashRegion.lean ====
/-
  The attention kernel region, point by point.  `outsAt n` is what the output block and the three carried buffers —
  running row maximum, running denominator, running weighted sum — hold after the body at grid position `n`: a first
  key tile resets and advances the carried buffers, a middle one advances them from what the position before left, the
  last one advances them and stores the query tile's partial sum.  The invariant between positions says exactly that
  (before the very first position: anything); the output window is idle away from the last key tile.  From these: the
  pipeline's proof data and the body obligation at every position.
-/
import proofs.«128383_j11819749998990_2_alg».proof.Proof.Bits.FlashRunC

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! Each window's current staging buffer at a point, as the pipeline passes it to the body. -/
abbrev ms0 (t : Fin cfg1.N) : Memref sig .tc .vmem S16x256x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x256x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x256x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x256x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x256x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x16x256 .f32 := win1_5.stage (cfg1.slots t 5)
abbrev hs5 (t : Fin cfg1.N) : (ms5 t).IsWhole := hstage1_5 ((cfg1.slots t 5).cast nbuf1_5)

/-- The input windows are never idle. -/
theorem liveIn0 : ∀ t : Fin cfg1.N, cfg1.idle 0 (grid1.coords t) = false := by decide +kernel
theorem liveIn1 : ∀ t : Fin cfg1.N, cfg1.idle 1 (grid1.coords t) = false := by decide +kernel
theorem liveIn2 : ∀ t : Fin cfg1.N, cfg1.idle 2 (grid1.coords t) = false := by decide +kernel
theorem liveIn3 : ∀ t : Fin cfg1.N, cfg1.idle 3 (grid1.coords t) = false := by decide +kernel
theorem liveIn4 : ∀ t : Fin cfg1.N, cfg1.idle 4 (grid1.coords t) = false := by decide +kernel

/-- The output block and the three carried buffers. -/
abbrev St (F : FTy → Type) : Type := Vec F S1x16x256 .f32 × Vec F S16x256x1 .f32 × Vec F S16x256x1 .f32 × Vec F S16x256x256 .f32

/-! ## The stores of each case cover their buffers -/

/-- At a first key tile the stores into the running maximum (the reset, then this tile's) cover it. -/
theorem covA0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x1.Idx) :
    ∃ pc ∈ (runA c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.1 S16x256x1.size (by sl_kernel_rfl) y

/-- Likewise the running denominator. -/
theorem covA1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x1.Idx) :
    ∃ pc ∈ (runA c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.2.1 S16x256x1.size (by sl_kernel_rfl) y

/-- Likewise the running weighted sum. -/
theorem covA2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x256.Idx) :
    ∃ pc ∈ (runA c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.2.2.1 S16x256x256.size (by sl_kernel_rfl) y

/-- At a middle key tile the store into the running maximum covers it. -/
theorem covB0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

/-- Likewise the running denominator. -/
theorem covB1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

/-- Likewise the running weighted sum. -/
theorem covB2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x256.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.2.2.1 S16x256x256.size (by sl_kernel_rfl) y

/-- At the last key tile the store into the running maximum covers it. -/
theorem covC0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

/-- Likewise the running denominator. -/
theorem covC1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

/-- Likewise the running weighted sum. -/
theorem covC2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x256.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.2.2.1 S16x256x256.size (by sl_kernel_rfl) y

/-- At the last key tile the store of the partial sum covers the output block. -/
theorem covC5 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S1x16x256.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).1 S1x16x256.size (by sl_kernel_rfl) y

/-! ## What each case leaves -/

/-- What a first key tile leaves: the output block untouched (a placeholder nothing consults: the window is idle there), the three carried buffers at their pieces read back. -/
def stA (c : Dev nD) (t : Fin cfg1.N) (hc0 : condFirst (grid1.coords t)) (hc1 : ¬condLast (grid1.coords t)) : St F :=
  (VOut.read (Elt F) (VOut.writes (Elt F) VOut.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).1),
   VMax.read (Elt F) (VMax.writes (Elt F) VMax.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.1),
   VDen.read (Elt F) (VDen.writes (Elt F) VDen.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.2.1),
   VAcc.read (Elt F) (VAcc.writes (Elt F) VAcc.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.2.2.1))

/-- What a middle key tile leaves, over what the point before left in the carried buffers. -/
def stB (c : Dev nD) (t : Fin cfg1.N) (hc0 : ¬condFirst (grid1.coords t)) (hc1 : ¬condLast (grid1.coords t)) (s : St F) : St F :=
  (VOut.read (Elt F) (VOut.writes (Elt F) VOut.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).1),
   VMax.read (Elt F) (VMax.writes (Elt F) VMax.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.1),
   VDen.read (Elt F) (VDen.writes (Elt F) VDen.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.1),
   VAcc.read (Elt F) (VAcc.writes (Elt F) VAcc.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.2.1))

/-- What the last key tile leaves: the output block at the stored partial sum, the carried buffers advanced once more. -/
def stC (c : Dev nD) (t : Fin cfg1.N) (hc0 : ¬condFirst (grid1.coords t)) (hc1 : condLast (grid1.coords t)) (s : St F) : St F :=
  (VOut.read (Elt F) (VOut.writes (Elt F) VOut.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).1),
   VMax.read (Elt F) (VMax.writes (Elt F) VMax.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.1),
   VDen.read (Elt F) (VDen.writes (Elt F) VDen.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.1),
   VAcc.read (Elt F) (VAcc.writes (Elt F) VAcc.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.2.1))

/-! ## What the buffers hold after each position -/

/-- The recursion over grid positions: the case the key tile's number selects, the carried buffers taken from the
    position before.  (No position is both a first and a last key tile.) -/
def outsAt (c : Dev nD) : (n : ℕ) → n < cfg1.N → St F
  | 0, hn => stA V c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      if h1 : (n + 1) % 8 = 7 then
        False.elim (by omega)
      else
        stA V c ⟨n + 1, hn⟩ ((hcondFirst ⟨n + 1, hn⟩).mpr h0) (fun h => h1 ((hcondLast ⟨n + 1, hn⟩).mp h))
    else
      if h1 : (n + 1) % 8 = 7 then
        stC V c ⟨n + 1, hn⟩ (fun h => h0 ((hcondFirst ⟨n + 1, hn⟩).mp h)) ((hcondLast ⟨n + 1, hn⟩).mpr h1) (outsAt c n (Nat.lt_of_succ_lt hn))
      else
        stB V c ⟨n + 1, hn⟩ (fun h => h0 ((hcondFirst ⟨n + 1, hn⟩).mp h)) (fun h => h1 ((hcondLast ⟨n + 1, hn⟩).mp h)) (outsAt c n (Nat.lt_of_succ_lt hn))

theorem outsAt_A (c : Dev nD) (t : Fin cfg1.N) (h0 : t.val % 8 = 0) (h1 : ¬t.val % 8 = 7) :
    outsAt V c t.val t.isLt = stA V c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = stB V c t (fun h => h0 ((hcondFirst t).mp h)) (fun h => h1 ((hcondLast t).mp h)) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = stC V c t (fun h => h0 ((hcondFirst t).mp h)) ((hcondLast t).mpr h1) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between positions -/

/-- Before the first position: the region's scoped buffers at anything and the generator register.  After position
    `n`: the other kernel's staging buffers at anything, the three carried buffers at what position `n` left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c n hn).2.1 ∗ owns (c : Thread nD τ) scDen fullShare (outsAt V c n hn).2.2.1 ∗ owns (c : Thread nD τ) scAcc fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c n hn).2.1 ∗ owns (c : Thread nD τ) scDen fullShare (outsAt V c n hn).2.2.1 ∗ owns (c : Thread nD τ) scAcc fullShare (outsAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c (n - 1) (by omega)).2.1 ∗ owns (c : Thread nD τ) scDen fullShare (outsAt V c (n - 1) (by omega)).2.2.1 ∗ owns (c : Thread nD τ) scAcc fullShare (outsAt V c (n - 1) (by omega)).2.2.2) ∗ (∃ r, prngReg c r)) := by
  cases n with
  | zero => exact absurd rfl hz
  | succ n => rfl

/-- The region's scoped buffers and the generator register, the three carried buffers named. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest1_eq]; simp only [scMax, scDen, scAcc, owns_whole]; try rfl

/-! ## The pipeline's proof data -/

/-- The two arrays staged twice (the normalised rows as query and key side, the mask likewise) are held half and half;
    the others whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_hq (c : Dev nD) (t : Fin cfg1.N) : (dat V c).after 0 t = iblk V c 0 t := by dsimp only [dat]
theorem after_hk (c : Dev nD) (t : Fin cfg1.N) : (dat V c).after 1 t = iblk V c 1 t := by dsimp only [dat]
theorem after_xq (c : Dev nD) (t : Fin cfg1.N) : (dat V c).after 2 t = iblk V c 2 t := by dsimp only [dat]
theorem after_mq (c : Dev nD) (t : Fin cfg1.N) : (dat V c).after 3 t = iblk V c 3 t := by dsimp only [dat]
theorem after_mk (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

theorem before_hq (c : Dev nD) (t : Fin cfg1.N) (d) : (dat V c).before 0 t d = iblk V c 0 t :=
  before_hq_of V (dat V c) (A_eq V c 0) (after_hq V c) t d
theorem before_hk (c : Dev nD) (t : Fin cfg1.N) (d) : (dat V c).before 1 t d = iblk V c 1 t :=
  before_hk_of V (dat V c) (A_eq V c 1) (after_hk V c) t d
theorem before_xq (c : Dev nD) (t : Fin cfg1.N) (d) : (dat V c).before 2 t d = iblk V c 2 t :=
  before_xq_of V (dat V c) (A_eq V c 2) (after_xq V c) t d
theorem before_mq (c : Dev nD) (t : Fin cfg1.N) (d) : (dat V c).before 3 t d = iblk V c 3 t :=
  before_mq_of V (dat V c) (A_eq V c 3) (after_mq V c) t d
theorem before_mk (c : Dev nD) (t : Fin cfg1.N) (d) : (dat V c).before 4 t d = iblk V c 4 t :=
  before_mk_of V (dat V c) (A_eq V c 4) (after_mk V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any position: the key tile's number says which case the position is in; the inputs' buffers hold
    their blocks; the invariant hands over the carried buffers at what the position before left (at anything before the
    first) and takes them back at this position's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hq, before_hk, before_xq, before_mq, before_mk]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- a first key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [Dat.leavesExact_idle (dat V c) 5 t (idleOut t (fun h => h1 ((hcondLast t).mp h))) (noFlushOut t (fun h => h1 ((hcondLast t).mp h)))]
      rw [outsAt_A V c t h0 h1]
      unfold stA; (try dsimp only)
      by_cases hz : t.val = 0
      · rw [PhiS_castSucc V c t, PhiS_zero V c _ _ hz, PhiA_eq]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ _ _ _ _ ((hcondFirst t).mpr h0) (fun h => h1 ((hcondLast t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covA0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covA1 c _ _ _ _ _ _ _ _ _ _ _ _ _ _ _ _ _ _ _ _ _ _ _ _ _ _)
            unfold owns; iexists _; isplitr
            swap; · iexact HS2
            ipureintro; exact View.read_writes_of_cover _ _ _ _ _ (covA2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ _ _ _ _ ((hcondFirst t).mpr h0) (fun h => h1 ((hcondLast t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covA0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covA1 c _ _ _ _ _ _ _ _ _ _ _ _ _ _ _ _ _ _ _ _ _ _ _ _ _ _)
            unfold owns; iexists _; isplitr
            swap; · iexact HS2
            ipureintro; exact View.read_writes_of_cover _ _ _ _ _ (covA2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [show (dat V c).leavesExact 5 t = owns (c : Thread nD τ) (ms5 t) fullShare ((dat V c).after 5 t) from by
      unfold Dat.leavesExact; rw [liveOut t ((hcondLast t).mpr h1)], after_out]
      rw [outsAt_C V c t h0 h1]
      unfold stC; (try dsimp only)
      by_cases hz : t.val = 0
      · exfalso; omega
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ _ _ _ _ (fun h => h0 ((hcondFirst t).mp h)) ((hcondLast t).mpr h1) (iblk V c 0 t) (iblk V c 1 t) (iblk V c 2 t) (iblk V c 3 t) (iblk V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covC0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covC1 c _ _ _ _ _ _ _ _ _ _ _ _ _ _ _ _ _ _ _ _ _ _ _ _ _ _ _ _ _)
            unfold owns; iexists _; isplitr
            swap; · iexact HS2
            ipureintro; exact View.read_writes_of_cover _ _ _ _ _ (covC2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (covC5 c _ _ _ _ _ _ _ _ _ _ _ _ _ _ _ _ _ _ _ _ _ _ _ _ _ _ _ _ _)
    · -- a middle key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [Dat.leavesExact_idle (dat V c) 5 t (idleOut t (fun h => h1 ((hcondLast t).mp h))) (noFlushOut t (fun h => h1 ((hcondLast t).mp h)))]
      rw [outsAt_B V c t h0 h1]
      unfold stB; (try dsimp only)
      by_cases hz : t.val = 0
      · exfalso; omega
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runB c (grid1.coords t) _ _ _ _ _ _ _ _ _ _ _ _ _ _ _ _ _ _ (fun h => h0 ((hcondFirst t).mp h)) (fun h => h1 ((hcondLast t).mp h)) (iblk V c 0 t) (iblk V c 1 t) (iblk V c 2 t) (iblk V c 3 t) (iblk V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covB0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covB1 c _ _ _ _ _ _ _ _ _ _ _ _ _ _ _ _ _ _ _ _ _ _ _ _ _ _ _ _ _)
            unfold owns; iexists _; isplitr
            swap; · iexact HS2
            ipureintro; exact View.read_writes_of_cover _ _ _ _ _ (covB2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every position. -/
theorem body_obligation (c : Dev nD) : BodyObligation (dat (F := F) V c) (defs₀ (F := F)) Variants.none () Set.univ := fun t => by
  rw [bigSep_W1, bigSep_W1]
  exact sound_body V c t

/-- What the region is entered with is the invariant before the first position. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any position but the first the invariant gives the scoped buffers back, their contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, R5, HS0, HS1, HS2⟩, Hg⟩
  isplitl [R0 R1 R2 R3 R4 R5 HS0 HS1 HS2]
  · isplitl [R0]; · iexact R0
    isplitl [R1]; · iexact R1
    isplitl [R2]; · iexact R2
    isplitl [R3]; · iexact R3
    isplitl [R4]; · iexact R4
    isplitl [R5]; · iexact R5
    isplitl [HS0]; · iexists _; iexact HS0
    isplitl [HS1]; · iexists _; iexact HS1
    iexists _; iexact HS2
  iexact Hg

theorem hout (c : Dev nD) : (dat V c).Φ (Fin.last cfg1.N) ⊢ Pipeline.ΦA spec1 c :=
  Phi_out V c _ (by rw [Fin.val_last]; have : cfg1.N = 64 := N_1; omega)

end Cert.Kernel.Fl

end
-- ==== Proof.Bits.FlashShares.lean ====
/-
  The attention region's arrays against the buffers behind them.  Its six windows stage four buffers: the normalised
  rows twice (query side, key side), the input rows, the float mask twice, and the partial sums.  The pipeline holds each
  window's array at the window's share, so a buffer staged twice is held as two halves of the same contents.  Here: the
  four buffers as a chain, the six windows' arrays as a chain, and the passage between the two in both directions
  (splitting a whole buffer into its halves, joining them back).
-/
import proofs.«128383_j11819749998990_2_alg».proof.Proof.Bits.FlashRegion

set_option maxRecDepth 16384

noncomputable section

namespace Cert.Kernel.Fl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_arg0) ↦{fullShare} W main_arg0)
          ∗ (((c : Thread nD τ).loc main_v0) ↦{fullShare} W main_v0) ∗ (((c : Thread nD τ).loc main_v2) ↦{fullShare} W main_v2)) := by
  unfold Pipeline.arrBufs
  exact Idealize.SL.BI.bigSep_eq_bigSepL_of_eq [main_v1, main_arg0, main_v0, main_v2] (by decide) (by decide) _

/-- The six windows' arrays, each at its window's share. -/
theorem arrays_eq (c : Dev nD) (Fn : (w : Fin cfg1.W) → Buf (Elt F) ((cfg1.win w).arr.view.loc (c : Thread nD τ))) :
    ((dat V c).arrays Fn : sProp 𝕄)
      = iprop((((c : Thread nD τ).loc (Pipeline.arrRef spec1 0)) ↦{fullShare.left} Fn 0) ∗ (((c : Thread nD τ).loc (Pipeline.arrRef spec1 1)) ↦{fullShare.right} Fn 1) ∗ (((c : Thread nD τ).loc (Pipeline.arrRef spec1 2)) ↦{fullShare} Fn 2)
          ∗ (((c : Thread nD τ).loc (Pipeline.arrRef spec1 3)) ↦{fullShare.left} Fn 3) ∗ (((c : Thread nD τ).loc (Pipeline.arrRef spec1 4)) ↦{fullShare.right} Fn 4) ∗ (((c : Thread nD τ).loc (Pipeline.arrRef spec1 5)) ↦{fullShare} Fn 5)) := by
  unfold Dat.arrays
  rw [bigSep_W1]
  rw [(arr_whole1 0).set_eq_univ, (arr_whole1 2).set_eq_univ, (arr_whole1 3).set_eq_univ, (arr_whole1 5).set_eq_univ]
  rfl

/-- Entering: the four buffers whole make the six arrays at their shares. -/
theorem arrays_of_bufs (c : Dev nD) (W : (b : Ref sig .tc) → Buf (Elt F) ((c : Thread nD τ).loc b))
    (Fn : (w : Fin cfg1.W) → Buf (Elt F) ((cfg1.win w).arr.view.loc (c : Thread nD τ))) (hF : ∀ w, Fn w = W (Pipeline.arrRef spec1 w)) :
    (Pipeline.arrBufs (Ix := Unit) (Name := ℕ) (U := UR sig nD τ) (Lvl := ℕ) spec1 c W : sProp 𝕄) ⊢ (dat V c).arrays Fn := by
  obtain rfl : Fn = fun w => W (Pipeline.arrRef spec1 w) := funext hF
  rw [arrBufs_eq, arrays_eq]
  iintro ⟨Hh, Hx, Hm, Ho⟩
  ihave Hh' := (pointsTo_share (PosShare.mem_left_op_right fullShare)).1 $$ Hh
  icases Hh' with ⟨Hh1, Hh2⟩
  ihave Hm' := (pointsTo_share (PosShare.mem_left_op_right fullShare)).1 $$ Hm
  icases Hm' with ⟨Hm1, Hm2⟩
  isplitl [Hh1]; · iexact Hh1
  isplitl [Hh2]; · iexact Hh2
  isplitl [Hx]; · iexact Hx
  isplitl [Hm1]; · iexact Hm1
  isplitl [Hm2]; · iexact Hm2
  iexact Ho

/-- Leaving: the six arrays at their shares make the four buffers whole. -/
theorem bufs_of_arrays (c : Dev nD) (W : (b : Ref sig .tc) → Buf (Elt F) ((c : Thread nD τ).loc b))
    (Fn : (w : Fin cfg1.W) → Buf (Elt F) ((cfg1.win w).arr.view.loc (c : Thread nD τ))) (hF : ∀ w, Fn w = W (Pipeline.arrRef spec1 w)) :
    (dat V c).arrays Fn ⊢ (Pipeline.arrBufs (Ix := Unit) (Name := ℕ) (U := UR sig nD τ) (Lvl := ℕ) spec1 c W : sProp 𝕄) := by
  obtain rfl : Fn = fun w => W (Pipeline.arrRef spec1 w) := funext hF
  rw [arrBufs_eq, arrays_eq]
  iintro ⟨Hh1, Hh2, Hx, Hm1, Hm2, Ho⟩
  isplitl [Hh1 Hh2]
  · iapply (pointsTo_share (PosShare.mem_left_op_right fullShare)).2
    isplitl [Hh1]; · iexact Hh1
    iexact Hh2
  isplitl [Hx]; · iexact Hx
  isplitl [Hm1 Hm2]
  · iapply (pointsTo_share (PosShare.mem_left_op_right fullShare)).2
    isplitl [Hm1]; · iexact Hm1
    iexact Hm2
  iexact Ho

end Cert.Kernel.Fl

end
-- ==== Proof.Bits.Run.lean ====
/-
  @main from the launch to the return: a host stretch (the boolean mask as floats), the LayerNorm region, the attention
  region, and the host tail (the tiles' partial sums added, the row divided by its Euclidean length).  The contents of
  the TensorCore's buffers at each boundary are a fold from the launch memory: a host stretch applies its operations; a
  region leaves its windows' arrays at what its write-backs compute and every other buffer as entered.  Each region is a
  segment over the thread state "every unscoped buffer at the boundary's contents, the generator register at some state,
  nothing owed"; the attention region's entry splits the two buffers it stages twice into halves and its exit joins them.
  `run`: every weakly fair execution terminates with every unscoped buffer at the last boundary's contents — the
  arguments as launched (`W4_main_arg…`), the result at `W4 … main_v9`.
-/
import proofs.«128383_j11819749998990_2_alg».proof.Proof.Bits.LnRegion
import proofs.«128383_j11819749998990_2_alg».proof.Proof.Bits.FlashShares

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the LayerNorm region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the LayerNorm region's exit: its arrays at what the pipeline leaves, every other buffer as entered. -/
def W2 (c : Dev nD) : Valuation τ sig (Elt F) :=
  Pipeline.withArrays spec0 c (W1 m ρ c) fun w => (Ln.dat (V1 m ρ) c).arrAt w cfg0.N
theorem W2_arr (c : Dev nD) (w : Fin cfg0.W) :
    W2 m ρ c (Proc.devRef .tc (Pipeline.arrRef spec0 w)) = (Ln.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Ln.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered straight from the LayerNorm region's exit): the partial sums' array
    at what the pipeline leaves, every other buffer as entered (its other windows are inputs). -/
def W3 (c : Dev nD) : Valuation τ sig (Elt F) :=
  Function.update (W2 m ρ c) (Proc.devRef .tc main_v2) ((Fl.dat (V2 m ρ) c).arrAt 5 cfg1.N)
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
theorem W3_out (c : Dev nD) : W3 m ρ c (Proc.devRef .tc main_v2) = (Fl.dat (V2 m ρ) c).arrAt 5 cfg1.N := by
  unfold W3; exact Function.update_self _ _ _
abbrev V3 : (c : Dev nD) → (b : Ref sig .tc) → Buf (Elt F) ((c : Thread nD τ).loc b) := fun c b => W3 m ρ c b
theorem hF1 (c : Dev nD) : ∀ w : Fin cfg1.W, (Fl.dat (V2 m ρ) c).arrAt w cfg1.N = V3 m ρ c (Pipeline.arrRef spec1 w)
  | ⟨0, _⟩ => ((Fl.dat (V2 m ρ) c).arrAt_in 0 rfl _).trans ((Fl.A_eq (V2 m ρ) c 0).trans (W3_of_ne m ρ c _ (by decide)).symm)
  | ⟨1, _⟩ => ((Fl.dat (V2 m ρ) c).arrAt_in 1 rfl _).trans ((Fl.A_eq (V2 m ρ) c 1).trans (W3_of_ne m ρ c _ (by decide)).symm)
  | ⟨2, _⟩ => ((Fl.dat (V2 m ρ) c).arrAt_in 2 rfl _).trans ((Fl.A_eq (V2 m ρ) c 2).trans (W3_of_ne m ρ c _ (by decide)).symm)
  | ⟨3, _⟩ => ((Fl.dat (V2 m ρ) c).arrAt_in 3 rfl _).trans ((Fl.A_eq (V2 m ρ) c 3).trans (W3_of_ne m ρ c _ (by decide)).symm)
  | ⟨4, _⟩ => ((Fl.dat (V2 m ρ) c).arrAt_in 4 rfl _).trans ((Fl.A_eq (V2 m ρ) c 4).trans (W3_of_ne m ρ c _ (by decide)).symm)
  | ⟨5, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

/-- After the host tail. -/
abbrev W4 : Dev nD → Valuation τ sig (Elt F) := fun c => StableHlo.after hostOps2 (W3 m ρ c)

/-! ### The arguments end as launched: no host operation writes one and the regions only read them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((Ln.dat (V1 m ρ) c).arrAt_in 0 rfl _).trans (Ln.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((Ln.dat (V1 m ρ) c).arrAt_in 1 rfl _).trans (Ln.A_eq (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((Ln.dat (V1 m ρ) c).arrAt_in 2 rfl _).trans (Ln.A_eq (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => Ln.dat (V1 m ρ) c
  | ⟨1, _⟩ => fun c => Fl.dat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The LayerNorm region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Ln.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's windows name unscoped buffers. -/
theorem arr_unscoped1 : ∀ w : Fin 6, (Pipeline.arrRef spec1 w).isScoped = false := by decide

set_option backward.isDefEq.respectTransparency.types false in
/-- The attention region: entered from every unscoped buffer at `W2`, left at `W3`.  Its four buffers are split out of
    the unscoped buffers, the two staged twice halved; at the exit the halves are joined and the buffers put back at the
    exit contents.  The scoped buffers and the generator register enter its invariant and come back out. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Fl.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held (Ix := Unit) (Name := ℕ) (U := UR sig nD τ) (Lvl := ℕ) c (W2 m ρ c),
        Pipeline.unscopedBufs_split₀ (Pipeline.pin (pcfgs (F := F)) adm) 1 arr_unscoped1 c (V2 m ρ c)]
      exact sep_mono (Fl.arrays_of_bufs (V2 m ρ) c (V2 m ρ c) _ fun _ => rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Fl.dat (V2 m ρ) c).Φ 0 from rfl]
    iintro ⟨Hp, -, Hr⟩
    iapply (Fl.hin (V2 m ρ) c)
    unfold Pipeline.ΦA
    isplitl [Hr]; · iexact Hr
    iexact Hp
  hout c := by
    rw [Pipeline.ownSems0_none, show (pdats m ρ 1 c).Φ (Fin.last _) = (Fl.dat (V2 m ρ) c).Φ (Fin.last cfg1.N) from rfl]
    refine (Fl.hout (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c),
        Pipeline.unscopedBufs_split₀ (Pipeline.pin (pcfgs (F := F)) adm) 1 arr_unscoped1 c (V3 m ρ c)]
      refine sep_mono (Fl.bufs_of_arrays (V2 m ρ) c (V3 m ρ c) _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v9 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

end Cert.Kernel.Run

end
-- ==== Proof.Ideal.LnRegion.lean ====
/-
  The first kernel region: LayerNorm over the last axis, one block of 512 sequence positions (all 16 batch rows,
  all 256 features) per grid point, four points.  Stated at any float instance and at a PARAMETER `V`, the contents
  of the TensorCore's buffers when the region is entered.

  * `lnOut x g b` is what the body leaves in the output block: the one whole-block store of the payload
    `k0_pay1` — (x − mean) · rsqrt(var + ε) · g + b, rounded to bf16 — of the three input blocks.
  * `sound_ln` is the body's triple: from the three input buffers at known contents and the output buffer at
    anything, the body returns the inputs untouched and the output at `lnOut`.
  * `dat` is the pipeline's proof data (inputs stay at their blocks, the output at `lnOut` of the blocks), and
    `body_obligation` the library's obligation at every grid point.  The scale and shift vectors are fetched at
    the first point only; their block never moves, so the buffer still holds it at the later points.
-/
import proofs.«128383_j11819749998990_2_alg».proof.Proof.Gen.KernelIdeal.Launch
import proofs.«128383_j11819749998990_2_alg».proof.Proof.Gen.KernelIdeal.Skeleton
import proofs.«128383_j11819749998990_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: unfetched, the block
    index has not moved since the last fetch and the body left the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_g_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 16×512×256 block and the whole length-256 vector, as the rectangles the body loads and stores through. -/
abbrev rBlk : Rect S16x512x256 := Rect.unit (s := S16x512x256) ![0, 0, 0] S16x512x256.size inb_S16x512x256_S16x512x256_0_0_0
abbrev rVec : Rect S256 := Rect.unit (s := S256) ![0] S256.size inb_S256_S256_0

/-- The output block after the body: its one whole-block store, of the normalised, scaled and shifted block. -/
def lnOut (x : Vec F S16x512x256 .f32) (g b : Vec F S256 .f32) : Vec F S16x512x256 .bf16 :=
  View.canon [⟨rBlk, k0_pay1 (View.ld x rBlk) (View.ld g rVec) (View.ld b rVec)⟩]

/-- That store covers the block. -/
theorem lnCover (p0 : Vec F S16x512x256 .bf16) (y : S16x512x256.Idx) :
    ∃ pc ∈ ([⟨rBlk, p0⟩] : List (View.Piece (Elt F) S16x512x256 .bf16)), y ∈ pc.1.set :=
  View.cover_of_tiled [⟨rBlk, p0⟩] S16x512x256.size (by rfl) y

set_option maxHeartbeats 1000000 in
/-- The body's triple: the inputs' buffers come back as they were, the output's holds `lnOut` of the inputs. -/
theorem sound_ln (c : Dev nD) (E : Set ℕ) (i : grid0.Coords)
    (arg1 : Memref sig .tc .vmem S16x512x256 .f32) (harg1 : arg1.IsWhole) (arg2 : Memref sig .tc .vmem S256 .f32) (harg2 : arg2.IsWhole)
    (arg3 : Memref sig .tc .vmem S256 .f32) (harg3 : arg3.IsWhole) (arg4 : Memref sig .tc .vmem S16x512x256 .bf16) (harg4 : arg4.IsWhole)
    (x : Vec F S16x512x256 .f32) (g b : Vec F S256 .f32) (K : PUnit → sProp 𝕄) :
    iprop(owns (c : Thread nD τ) arg1 fullShare x ∗ owns (c : Thread nD τ) arg2 fullShare g ∗ owns (c : Thread nD τ) arg3 fullShare b
        ∗ (∃ d, owns (c : Thread nD τ) arg4 fullShare d)
        ∗ (iprop(owns (c : Thread nD τ) arg1 fullShare x ∗ owns (c : Thread nD τ) arg2 fullShare g ∗ owns (c : Thread nD τ) arg3 fullShare b
            ∗ owns (c : Thread nD τ) arg4 fullShare (lnOut x g b)) -∗ K ⟨⟩))
      ⊢ wp frame (wpE (defs₀ (F := F)) Variants.none c none) E (cc0__ln_kernel i arg1 harg1 arg2 harg2 arg3 harg3 arg4 harg4) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lnCover _)

/-- The pipeline's proof data on core `c`: the arrays as the region finds them; after the body each input's buffer
    at its block and the output's at `lnOut` of the three blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => lnOut (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_g (c : Dev nD) (t : Fin cfg0.N) : (dat V c).after 1 t = iblk V c 1 t := by dsimp only [dat]
theorem after_b (c : Dev nD) (t : Fin cfg0.N) : (dat V c).after 2 t = iblk V c 2 t := by dsimp only [dat]
theorem after_h (c : Dev nD) (t : Fin cfg0.N) :
    (dat V c).after 3 t = lnOut (iblk V c 0 t) (iblk V c 1 t) (iblk V c 2 t) := by dsimp only [dat]

theorem before_x (c : Dev nD) (t : Fin cfg0.N) (d) : (dat V c).before 0 t d = iblk V c 0 t :=
  before_x_of V (dat V c) (A_eq V c 0) (after_x V c) t d
theorem before_g (c : Dev nD) (t : Fin cfg0.N) (d) : (dat V c).before 1 t d = iblk V c 1 t :=
  before_g_of V (dat V c) (A_eq V c 1) (after_g V c) t d
theorem before_b (c : Dev nD) (t : Fin cfg0.N) (d) : (dat V c).before 2 t d = iblk V c 2 t :=
  before_b_of V (dat V c) (A_eq V c 2) (after_b V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_ln` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_g, before_b]
  rw [show (dat V c).Φ t.succ = (dat V c).Φ t.castSucc from rfl,
    show (dat V c).owesAt () t.succ = (dat V c).owesAt () t.castSucc from rfl,
    after_x, after_g, after_b, after_h]
  iintro ⟨HΦ, Ho, ⟨%d0, H0⟩, ⟨%d1, H1⟩, ⟨%d2, H2⟩, ⟨%d3, H3⟩⟩
  iapply (sound_ln c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Ln

end
-- ==== Proof.Ideal.FlashShared.lean ====
/-
  The attention kernel region (a grid of 8 query tiles × 8 key tiles, the key tile the fast axis): what its three case
  runs are stated over.  The body branches twice on the key tile's number: at the FIRST key tile it resets its three
  carried buffers — the running row maximum, the running denominator and the running weighted sum —, at the LAST it
  writes the query tile's partial sum; the output window is idle (neither stored nor written back) at every other
  point.  Here: each window's block at a point, the inputs found at their blocks, the two branch conditions decided
  over the grid, where the output window is idle, and the staging and carried buffers by name.
-/
import proofs.«128383_j11819749998990_2_alg».proof.Proof.Gen.KernelIdeal.Launch
import proofs.«128383_j11819749998990_2_alg».proof.Proof.Gen.KernelIdeal.Skeleton
import proofs.«128383_j11819749998990_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not (the query-side windows are
    fetched at the first key tile only: the block index does not move along a sweep and the body leaves them in place). -/
theorem before_hq_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_hk_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_xq_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_mq_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_mk_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The body's first branch: the key tile's number is zero. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The body's second branch: the key tile's number is seven, the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-- The output window is idle, and not written back, away from the last key tile; live at it. -/
theorem idleOut : ∀ t : Fin cfg1.N, ¬condLast (grid1.coords t) → cfg1.idle 5 (grid1.coords t) = true := by decide +kernel
theorem noFlushOut : ∀ t : Fin cfg1.N, ¬condLast (grid1.coords t) → (cfg1.win 5).flush t = false := by decide +kernel
theorem liveOut : ∀ t : Fin cfg1.N, condLast (grid1.coords t) → cfg1.idle 5 (grid1.coords t) = false := by decide +kernel

/-- One staging buffer of the output window, through which its contents are stated. -/
abbrev VOut : View sig .tc .vmem S1x16x256 .f32 := (Memref.whole cc1_stg5_0 : Memref sig .tc .vmem S1x16x256 .f32).view

/-- The carried buffers: running maximum, running denominator, running weighted sum. -/
abbrev scMax : Memref sig .tc .vmem S16x256x1 .f32 := Memref.whole cc1_scratch0
abbrev scDen : Memref sig .tc .vmem S16x256x1 .f32 := Memref.whole cc1_scratch1
abbrev scAcc : Memref sig .tc .vmem S16x256x256 .f32 := Memref.whole cc1_scratch2
abbrev VMax : View sig .tc .vmem S16x256x1 .f32 := scMax.view
abbrev VDen : View sig .tc .vmem S16x256x1 .f32 := scDen.view
abbrev VAcc : View sig .tc .vmem S16x256x256 .f32 := scAcc.view

end Cert.KernelIdeal.Fl

end
-- ==== Proof.Ideal.FlashRunA.lean ====
/-
  The attention body at a FIRST key tile (not the last): the three carried buffers, found at anything, are reset (minus
  infinity, zero, zero) and then advanced by this key tile; the output buffer is handed back untouched.  The pieces
  each carried buffer ends with are the run's witness.
-/
import proofs.«128383_j11819749998990_2_alg».proof.Proof.Ideal.FlashShared

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (xi5 : Vec F S1x16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fl

end
-- ==== Proof.Ideal.FlashRunB.lean ====
/-
  The attention body at a MIDDLE key tile: the three carried buffers, found at what the point before left, are advanced
  by this key tile; the output buffer is handed back untouched.
-/
import proofs.«128383_j11819749998990_2_alg».proof.Proof.Ideal.FlashRunA

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (xi5 : Vec F S1x16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fl

end
-- ==== Proof.Ideal.FlashRunC.lean ====
/-
  The attention body at the LAST key tile: the carried buffers are advanced once more and the query tile's partial sum
  — the weighted sum over the denominator, plus the input rows, times the mask, summed over the tile's rows — is stored
  into the output buffer.
-/
import proofs.«128383_j11819749998990_2_alg».proof.Proof.Ideal.FlashRunB

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) :
    Σ' (L5 : List (View.Piece (Elt F) S1x16x256 .f32)) (LS0 : List (View.Piece (Elt F) S16x256x1 .f32)) (LS1 : List (View.Piece (Elt F) S16x256x1 .f32)), { LS2 : List (View.Piece (Elt F) S16x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Fl

end
-- ==== Proof.Ideal.FlashRegion.lean ====
/-
  The attention kernel region, point by point.  `outsAt n` is what the output block and the three carried buffers —
  running row maximum, running denominator, running weighted sum — hold after the body at grid position `n`: a first
  key tile resets and advances the carried buffers, a middle one advances them from what the position before left, the
  last one advances them and stores the query tile's partial sum.  The invariant between positions says exactly that
  (before the very first position: anything); the output window is idle away from the last key tile.  From these: the
  pipeline's proof data and the body obligation at every position.
-/
import proofs.«128383_j11819749998990_2_alg».proof.Proof.Ideal.FlashRunC

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! Each window's current staging buffer at a point, as the pipeline passes it to the body. -/
abbrev ms0 (t : Fin cfg1.N) : Memref sig .tc .vmem S16x256x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x256x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x256x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x256x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x256x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x16x256 .f32 := win1_5.stage (cfg1.slots t 5)
abbrev hs5 (t : Fin cfg1.N) : (ms5 t).IsWhole := hstage1_5 ((cfg1.slots t 5).cast nbuf1_5)

/-- The input windows are never idle. -/
theorem liveIn0 : ∀ t : Fin cfg1.N, cfg1.idle 0 (grid1.coords t) = false := by decide +kernel
theorem liveIn1 : ∀ t : Fin cfg1.N, cfg1.idle 1 (grid1.coords t) = false := by decide +kernel
theorem liveIn2 : ∀ t : Fin cfg1.N, cfg1.idle 2 (grid1.coords t) = false := by decide +kernel
theorem liveIn3 : ∀ t : Fin cfg1.N, cfg1.idle 3 (grid1.coords t) = false := by decide +kernel
theorem liveIn4 : ∀ t : Fin cfg1.N, cfg1.idle 4 (grid1.coords t) = false := by decide +kernel

/-- The output block and the three carried buffers. -/
abbrev St (F : FTy → Type) : Type := Vec F S1x16x256 .f32 × Vec F S16x256x1 .f32 × Vec F S16x256x1 .f32 × Vec F S16x256x256 .f32

/-! ## The stores of each case cover their buffers -/

/-- At a first key tile the stores into the running maximum (the reset, then this tile's) cover it. -/
theorem covA0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x1.Idx) :
    ∃ pc ∈ (runA c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.1 S16x256x1.size (by sl_kernel_rfl) y

/-- Likewise the running denominator. -/
theorem covA1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x1.Idx) :
    ∃ pc ∈ (runA c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.2.1 S16x256x1.size (by sl_kernel_rfl) y

/-- Likewise the running weighted sum. -/
theorem covA2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : condFirst i) (hc1 : ¬condLast i)
    (x0 x1 : Vec F S16x256x256 .bf16) (x2 : Vec F S16x256x256 .f32) (x3 x4 : Vec F S16x256x1 .f32) (y : S16x256x256.Idx) :
    ∃ pc ∈ (runA c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runA c i arg2 harg2 arg3 harg3 arg4 harg4 arg5 harg5 arg6 harg6 arg7 harg7 arg8 harg8 arg9 harg9 arg10 harg10 hc0 hc1 x0 x1 x2 x3 x4).2.2.2.1 S16x256x256.size (by sl_kernel_rfl) y

/-- At a middle key tile the store into the running maximum covers it. -/
theorem covB0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

/-- Likewise the running denominator. -/
theorem covB1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

/-- Likewise the running weighted sum. -/
theorem covB2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : ¬condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x256.Idx) :
    ∃ pc ∈ (runB c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runB c i arg2 harg2 arg3 harg3 arg4 harg4 arg5 harg5 arg6 harg6 arg7 harg7 arg8 harg8 arg9 harg9 arg10 harg10 hc0 hc1 x0 x1 x2 x3 x4 xs0 xs1 xs2).2.2.2.1 S16x256x256.size (by sl_kernel_rfl) y

/-- At the last key tile the store into the running maximum covers it. -/
theorem covC0 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

/-- Likewise the running denominator. -/
theorem covC1 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x1.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

/-- Likewise the running weighted sum. -/
theorem covC2 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S16x256x256.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).2.2.2.1 S16x256x256.size (by sl_kernel_rfl) y

/-- At the last key tile the store of the partial sum covers the output block. -/
theorem covC5 (c : Dev nD) (i : grid1.Coords) (arg2 : Memref sig .tc .vmem S16x256x256 .bf16) (harg2 : arg2.IsWhole) (arg3 : Memref sig .tc .vmem S16x256x256 .bf16) (harg3 : arg3.IsWhole) (arg4 : Memref sig .tc .vmem S16x256x256 .f32) (harg4 : arg4.IsWhole) (arg5 : Memref sig .tc .vmem S16x256x1 .f32) (harg5 : arg5.IsWhole) (arg6 : Memref sig .tc .vmem S16x256x1 .f32) (harg6 : arg6.IsWhole) (arg7 : Memref sig .tc .vmem S1x16x256 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x256 .f32) (harg10 : arg10.IsWhole) (hc0 : ¬condFirst i) (hc1 : condLast i)
    (x0 x1 : Vec F S16x256x256 .bf16) (x2 : Vec F S16x256x256 .f32) (x3 x4 : Vec F S16x256x1 .f32) (xs0 xs1 : Vec F S16x256x1 .f32) (xs2 : Vec F S16x256x256 .f32) (y : S1x16x256.Idx) :
    ∃ pc ∈ (runC c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (runC c i arg2 harg2 arg3 harg3 arg4 harg4 arg5 harg5 arg6 harg6 arg7 harg7 arg8 harg8 arg9 harg9 arg10 harg10 hc0 hc1 x0 x1 x2 x3 x4 xs0 xs1 xs2).1 S1x16x256.size (by sl_kernel_rfl) y

/-! ## What each case leaves -/

/-- What a first key tile leaves: the output block untouched (a placeholder nothing consults: the window is idle there), the three carried buffers at their pieces read back. -/
def stA (c : Dev nD) (t : Fin cfg1.N) (hc0 : condFirst (grid1.coords t)) (hc1 : ¬condLast (grid1.coords t)) : St F :=
  (VOut.read (Elt F) (VOut.writes (Elt F) VOut.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).1),
   VMax.read (Elt F) (VMax.writes (Elt F) VMax.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.1),
   VDen.read (Elt F) (VDen.writes (Elt F) VDen.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.2.1),
   VAcc.read (Elt F) (VAcc.writes (Elt F) VAcc.junk (runA c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t)).2.2.2.1))

/-- What a middle key tile leaves, over what the point before left in the carried buffers. -/
def stB (c : Dev nD) (t : Fin cfg1.N) (hc0 : ¬condFirst (grid1.coords t)) (hc1 : ¬condLast (grid1.coords t)) (s : St F) : St F :=
  (VOut.read (Elt F) (VOut.writes (Elt F) VOut.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).1),
   VMax.read (Elt F) (VMax.writes (Elt F) VMax.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.1),
   VDen.read (Elt F) (VDen.writes (Elt F) VDen.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.1),
   VAcc.read (Elt F) (VAcc.writes (Elt F) VAcc.junk (runB c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.2.1))

/-- What the last key tile leaves: the output block at the stored partial sum, the carried buffers advanced once more. -/
def stC (c : Dev nD) (t : Fin cfg1.N) (hc0 : ¬condFirst (grid1.coords t)) (hc1 : condLast (grid1.coords t)) (s : St F) : St F :=
  (VOut.read (Elt F) (VOut.writes (Elt F) VOut.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).1),
   VMax.read (Elt F) (VMax.writes (Elt F) VMax.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.1),
   VDen.read (Elt F) (VDen.writes (Elt F) VDen.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.1),
   VAcc.read (Elt F) (VAcc.writes (Elt F) VAcc.junk (runC c (grid1.coords t) (ms0 t) (hs0 t) (ms1 t) (hs1 t) (ms2 t) (hs2 t) (ms3 t) (hs3 t) (ms4 t) (hs4 t) (ms5 t) (hs5 t) scMax (Memref.isWhole_whole _) scDen (Memref.isWhole_whole _) scAcc (Memref.isWhole_whole _) hc0 hc1 (iblk V c 0 t) (iblk V c 1 t) (iblk V c 2 t) (iblk V c 3 t) (iblk V c 4 t) s.2.1 s.2.2.1 s.2.2.2).2.2.2.1))

/-! ## What the buffers hold after each position -/

/-- The recursion over grid positions: the case the key tile's number selects, the carried buffers taken from the
    position before.  (No position is both a first and a last key tile.) -/
def outsAt (c : Dev nD) : (n : ℕ) → n < cfg1.N → St F
  | 0, hn => stA V c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      if h1 : (n + 1) % 8 = 7 then
        False.elim (by omega)
      else
        stA V c ⟨n + 1, hn⟩ ((hcondFirst ⟨n + 1, hn⟩).mpr h0) (fun h => h1 ((hcondLast ⟨n + 1, hn⟩).mp h))
    else
      if h1 : (n + 1) % 8 = 7 then
        stC V c ⟨n + 1, hn⟩ (fun h => h0 ((hcondFirst ⟨n + 1, hn⟩).mp h)) ((hcondLast ⟨n + 1, hn⟩).mpr h1) (outsAt c n (Nat.lt_of_succ_lt hn))
      else
        stB V c ⟨n + 1, hn⟩ (fun h => h0 ((hcondFirst ⟨n + 1, hn⟩).mp h)) (fun h => h1 ((hcondLast ⟨n + 1, hn⟩).mp h)) (outsAt c n (Nat.lt_of_succ_lt hn))

theorem outsAt_A (c : Dev nD) (t : Fin cfg1.N) (h0 : t.val % 8 = 0) (h1 : ¬t.val % 8 = 7) :
    outsAt V c t.val t.isLt = stA V c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg1.N) (h0 : ¬t.val % 8 = 0) (h1 : ¬t.val % 8 = 7) :
    outsAt V c t.val t.isLt = stB V c t (fun h => h0 ((hcondFirst t).mp h)) (fun h => h1 ((hcondLast t).mp h)) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = stC V c t (fun h => h0 ((hcondFirst t).mp h)) ((hcondLast t).mpr h1) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between positions -/

/-- Before the first position: the region's scoped buffers at anything and the generator register.  After position
    `n`: the other kernel's staging buffers at anything, the three carried buffers at what position `n` left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c n hn).2.1 ∗ owns (c : Thread nD τ) scDen fullShare (outsAt V c n hn).2.2.1 ∗ owns (c : Thread nD τ) scAcc fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c n hn).2.1 ∗ owns (c : Thread nD τ) scDen fullShare (outsAt V c n hn).2.2.1 ∗ owns (c : Thread nD τ) scAcc fullShare (outsAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (outsAt V c (n - 1) (by omega)).2.1 ∗ owns (c : Thread nD τ) scDen fullShare (outsAt V c (n - 1) (by omega)).2.2.1 ∗ owns (c : Thread nD τ) scAcc fullShare (outsAt V c (n - 1) (by omega)).2.2.2) ∗ (∃ r, prngReg c r)) := by
  cases n with
  | zero => exact absurd rfl hz
  | succ n => rfl

/-- The region's scoped buffers and the generator register, the three carried buffers named. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest1_eq]; simp only [scMax, scDen, scAcc, owns_whole]; try rfl

/-! ## The pipeline's proof data -/

/-- The two arrays staged twice (the normalised rows as query and key side, the mask likewise) are held half and half;
    the others whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_hq (c : Dev nD) (t : Fin cfg1.N) : (dat V c).after 0 t = iblk V c 0 t := by dsimp only [dat]
theorem after_hk (c : Dev nD) (t : Fin cfg1.N) : (dat V c).after 1 t = iblk V c 1 t := by dsimp only [dat]
theorem after_xq (c : Dev nD) (t : Fin cfg1.N) : (dat V c).after 2 t = iblk V c 2 t := by dsimp only [dat]
theorem after_mq (c : Dev nD) (t : Fin cfg1.N) : (dat V c).after 3 t = iblk V c 3 t := by dsimp only [dat]
theorem after_mk (c : Dev nD) (t : Fin cfg1.N) : (dat V c).after 4 t = iblk V c 4 t := by dsimp only [dat]
theorem after_out (c : Dev nD) (t : Fin cfg1.N) : (dat V c).after 5 t = (outsAt V c t.val t.isLt).1 := by dsimp only [dat]

theorem before_hq (c : Dev nD) (t : Fin cfg1.N) (d) : (dat V c).before 0 t d = iblk V c 0 t :=
  before_hq_of V (dat V c) (A_eq V c 0) (after_hq V c) t d
theorem before_hk (c : Dev nD) (t : Fin cfg1.N) (d) : (dat V c).before 1 t d = iblk V c 1 t :=
  before_hk_of V (dat V c) (A_eq V c 1) (after_hk V c) t d
theorem before_xq (c : Dev nD) (t : Fin cfg1.N) (d) : (dat V c).before 2 t d = iblk V c 2 t :=
  before_xq_of V (dat V c) (A_eq V c 2) (after_xq V c) t d
theorem before_mq (c : Dev nD) (t : Fin cfg1.N) (d) : (dat V c).before 3 t d = iblk V c 3 t :=
  before_mq_of V (dat V c) (A_eq V c 3) (after_mq V c) t d
theorem before_mk (c : Dev nD) (t : Fin cfg1.N) (d) : (dat V c).before 4 t d = iblk V c 4 t :=
  before_mk_of V (dat V c) (A_eq V c 4) (after_mk V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
/-- The body at any position: the key tile's number says which case the position is in; the inputs' buffers hold
    their blocks; the invariant hands over the carried buffers at what the position before left (at anything before the
    first) and takes them back at this position's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hq, before_hk, before_xq, before_mq, before_mk]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- a first key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [Dat.leavesExact_idle (dat V c) 5 t (idleOut t (fun h => h1 ((hcondLast t).mp h))) (noFlushOut t (fun h => h1 ((hcondLast t).mp h)))]
      rw [outsAt_A V c t h0 h1]
      unfold stA; (try dsimp only)
      by_cases hz : t.val = 0
      · rw [PhiS_castSucc V c t, PhiS_zero V c _ _ hz, PhiA_eq]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ _ _ _ _ ((hcondFirst t).mpr h0) (fun h => h1 ((hcondLast t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covA0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covA1 c _ _ _ _ _ _ _ _ _ _ _ _ _ _ _ _ _ _ _ _ _ _ _ _ _ _)
            unfold owns; iexists _; isplitr
            swap; · iexact HS2
            ipureintro; exact View.read_writes_of_cover _ _ _ _ _ (covA2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ _ _ _ _ ((hcondFirst t).mpr h0) (fun h => h1 ((hcondLast t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covA0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covA1 c _ _ _ _ _ _ _ _ _ _ _ _ _ _ _ _ _ _ _ _ _ _ _ _ _ _)
            unfold owns; iexists _; isplitr
            swap; · iexact HS2
            ipureintro; exact View.read_writes_of_cover _ _ _ _ _ (covA2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [show (dat V c).leavesExact 5 t = owns (c : Thread nD τ) (ms5 t) fullShare ((dat V c).after 5 t) from by
      unfold Dat.leavesExact; rw [liveOut t ((hcondLast t).mpr h1)], after_out]
      rw [outsAt_C V c t h0 h1]
      unfold stC; (try dsimp only)
      by_cases hz : t.val = 0
      · exfalso; omega
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runC c (grid1.coords t) _ _ _ _ _ _ _ _ _ _ _ _ _ _ _ _ _ _ (fun h => h0 ((hcondFirst t).mp h)) ((hcondLast t).mpr h1) (iblk V c 0 t) (iblk V c 1 t) (iblk V c 2 t) (iblk V c 3 t) (iblk V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covC0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covC1 c _ _ _ _ _ _ _ _ _ _ _ _ _ _ _ _ _ _ _ _ _ _ _ _ _ _ _ _ _)
            unfold owns; iexists _; isplitr
            swap; · iexact HS2
            ipureintro; exact View.read_writes_of_cover _ _ _ _ _ (covC2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (covC5 c _ _ _ _ _ _ _ _ _ _ _ _ _ _ _ _ _ _ _ _ _ _ _ _ _ _ _ _ _)
    · -- a middle key tile
      rw [show (dat V c).leavesExact 0 t = owns (c : Thread nD τ) (ms0 t) fullShare ((dat V c).after 0 t) from by
      unfold Dat.leavesExact; rw [liveIn0 t], after_hq]
      rw [show (dat V c).leavesExact 1 t = owns (c : Thread nD τ) (ms1 t) fullShare ((dat V c).after 1 t) from by
      unfold Dat.leavesExact; rw [liveIn1 t], after_hk]
      rw [show (dat V c).leavesExact 2 t = owns (c : Thread nD τ) (ms2 t) fullShare ((dat V c).after 2 t) from by
      unfold Dat.leavesExact; rw [liveIn2 t], after_xq]
      rw [show (dat V c).leavesExact 3 t = owns (c : Thread nD τ) (ms3 t) fullShare ((dat V c).after 3 t) from by
      unfold Dat.leavesExact; rw [liveIn3 t], after_mq]
      rw [show (dat V c).leavesExact 4 t = owns (c : Thread nD τ) (ms4 t) fullShare ((dat V c).after 4 t) from by
      unfold Dat.leavesExact; rw [liveIn4 t], after_mk]
      rw [Dat.leavesExact_idle (dat V c) 5 t (idleOut t (fun h => h1 ((hcondLast t).mp h))) (noFlushOut t (fun h => h1 ((hcondLast t).mp h)))]
      rw [outsAt_B V c t h0 h1]
      unfold stB; (try dsimp only)
      by_cases hz : t.val = 0
      · exfalso; omega
      · rw [PhiS_castSucc V c t, PhiS_pos V c _ _ hz]
        iintro ⟨⟨⟨R0, R1, R2, R3, R4, R5, HS0, HS1, HS2⟩, Hg⟩, Ho, ⟨%d0, H0⟩, ⟨%d1, H1⟩, ⟨%d2, H2⟩, ⟨%d3, H3⟩, ⟨%d4, H4⟩, ⟨%d5, H5⟩⟩
        iapply ((runB c (grid1.coords t) _ _ _ _ _ _ _ _ _ _ _ _ _ _ _ _ _ _ (fun h => h0 ((hcondFirst t).mp h)) (fun h => h1 ((hcondLast t).mp h)) (iblk V c 0 t) (iblk V c 1 t) (iblk V c 2 t) (iblk V c 3 t) (iblk V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [R0 R1 R2 R3 R4 R5 HS0 HS1 HS2 Hg]
        · isplitl [R0 R1 R2 R3 R4 R5 HS0 HS1 HS2]
          · isplitl [R0]; · iexact R0
            isplitl [R1]; · iexact R1
            isplitl [R2]; · iexact R2
            isplitl [R3]; · iexact R3
            isplitl [R4]; · iexact R4
            isplitl [R5]; · iexact R5
            isplitl [HS0]
            · unfold owns; iexists _; isplitr
              swap; · iexact HS0
              ipureintro; exact View.read_writes_of_cover _ _ _ _ _ (covB0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (covB1 c _ _ _ _ _ _ _ _ _ _ _ _ _ _ _ _ _ _ _ _ _ _ _ _ _ _ _ _ _)
            unfold owns; iexists _; isplitr
            swap; · iexact HS2
            ipureintro; exact View.read_writes_of_cover _ _ _ _ _ (covB2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every position. -/
theorem body_obligation (c : Dev nD) : BodyObligation (dat (F := F) V c) (defs₀ (F := F)) Variants.none () Set.univ := fun t => by
  rw [bigSep_W1, bigSep_W1]
  exact sound_body V c t

/-- What the region is entered with is the invariant before the first position. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any position but the first the invariant gives the scoped buffers back, their contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, R5, HS0, HS1, HS2⟩, Hg⟩
  isplitl [R0 R1 R2 R3 R4 R5 HS0 HS1 HS2]
  · isplitl [R0]; · iexact R0
    isplitl [R1]; · iexact R1
    isplitl [R2]; · iexact R2
    isplitl [R3]; · iexact R3
    isplitl [R4]; · iexact R4
    isplitl [R5]; · iexact R5
    isplitl [HS0]; · iexists _; iexact HS0
    isplitl [HS1]; · iexists _; iexact HS1
    iexists _; iexact HS2
  iexact Hg

theorem hout (c : Dev nD) : (dat V c).Φ (Fin.last cfg1.N) ⊢ Pipeline.ΦA spec1 c :=
  Phi_out V c _ (by rw [Fin.val_last]; have : cfg1.N = 64 := N_1; omega)

end Cert.KernelIdeal.Fl

end
-- ==== Proof.Ideal.FlashShares.lean ====
/-
  The attention region's arrays against the buffers behind them.  Its six windows stage four buffers: the normalised
  rows twice (query side, key side), the input rows, the float mask twice, and the partial sums.  The pipeline holds each
  window's array at the window's share, so a buffer staged twice is held as two halves of the same contents.  Here: the
  four buffers as a chain, the six windows' arrays as a chain, and the passage between the two in both directions
  (splitting a whole buffer into its halves, joining them back).
-/
import proofs.«128383_j11819749998990_2_alg».proof.Proof.Ideal.FlashRegion

set_option maxRecDepth 16384

noncomputable section

namespace Cert.KernelIdeal.Fl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_arg0) ↦{fullShare} W main_arg0)
          ∗ (((c : Thread nD τ).loc main_v0) ↦{fullShare} W main_v0) ∗ (((c : Thread nD τ).loc main_v2) ↦{fullShare} W main_v2)) := by
  unfold Pipeline.arrBufs
  exact Idealize.SL.BI.bigSep_eq_bigSepL_of_eq [main_v1, main_arg0, main_v0, main_v2] (by decide) (by decide) _

/-- The six windows' arrays, each at its window's share. -/
theorem arrays_eq (c : Dev nD) (Fn : (w : Fin cfg1.W) → Buf (Elt F) ((cfg1.win w).arr.view.loc (c : Thread nD τ))) :
    ((dat V c).arrays Fn : sProp 𝕄)
      = iprop((((c : Thread nD τ).loc (Pipeline.arrRef spec1 0)) ↦{fullShare.left} Fn 0) ∗ (((c : Thread nD τ).loc (Pipeline.arrRef spec1 1)) ↦{fullShare.right} Fn 1) ∗ (((c : Thread nD τ).loc (Pipeline.arrRef spec1 2)) ↦{fullShare} Fn 2)
          ∗ (((c : Thread nD τ).loc (Pipeline.arrRef spec1 3)) ↦{fullShare.left} Fn 3) ∗ (((c : Thread nD τ).loc (Pipeline.arrRef spec1 4)) ↦{fullShare.right} Fn 4) ∗ (((c : Thread nD τ).loc (Pipeline.arrRef spec1 5)) ↦{fullShare} Fn 5)) := by
  unfold Dat.arrays
  rw [bigSep_W1]
  rw [(arr_whole1 0).set_eq_univ, (arr_whole1 2).set_eq_univ, (arr_whole1 3).set_eq_univ, (arr_whole1 5).set_eq_univ]
  rfl

/-- Entering: the four buffers whole make the six arrays at their shares. -/
theorem arrays_of_bufs (c : Dev nD) (W : (b : Ref sig .tc) → Buf (Elt F) ((c : Thread nD τ).loc b))
    (Fn : (w : Fin cfg1.W) → Buf (Elt F) ((cfg1.win w).arr.view.loc (c : Thread nD τ))) (hF : ∀ w, Fn w = W (Pipeline.arrRef spec1 w)) :
    (Pipeline.arrBufs (Ix := Unit) (Name := ℕ) (U := UR sig nD τ) (Lvl := ℕ) spec1 c W : sProp 𝕄) ⊢ (dat V c).arrays Fn := by
  obtain rfl : Fn = fun w => W (Pipeline.arrRef spec1 w) := funext hF
  rw [arrBufs_eq, arrays_eq]
  iintro ⟨Hh, Hx, Hm, Ho⟩
  ihave Hh' := (pointsTo_share (PosShare.mem_left_op_right fullShare)).1 $$ Hh
  icases Hh' with ⟨Hh1, Hh2⟩
  ihave Hm' := (pointsTo_share (PosShare.mem_left_op_right fullShare)).1 $$ Hm
  icases Hm' with ⟨Hm1, Hm2⟩
  isplitl [Hh1]; · iexact Hh1
  isplitl [Hh2]; · iexact Hh2
  isplitl [Hx]; · iexact Hx
  isplitl [Hm1]; · iexact Hm1
  isplitl [Hm2]; · iexact Hm2
  iexact Ho

/-- Leaving: the six arrays at their shares make the four buffers whole. -/
theorem bufs_of_arrays (c : Dev nD) (W : (b : Ref sig .tc) → Buf (Elt F) ((c : Thread nD τ).loc b))
    (Fn : (w : Fin cfg1.W) → Buf (Elt F) ((cfg1.win w).arr.view.loc (c : Thread nD τ))) (hF : ∀ w, Fn w = W (Pipeline.arrRef spec1 w)) :
    (dat V c).arrays Fn ⊢ (Pipeline.arrBufs (Ix := Unit) (Name := ℕ) (U := UR sig nD τ) (Lvl := ℕ) spec1 c W : sProp 𝕄) := by
  obtain rfl : Fn = fun w => W (Pipeline.arrRef spec1 w) := funext hF
  rw [arrBufs_eq, arrays_eq]
  iintro ⟨Hh1, Hh2, Hx, Hm1, Hm2, Ho⟩
  isplitl [Hh1 Hh2]
  · iapply (pointsTo_share (PosShare.mem_left_op_right fullShare)).2
    isplitl [Hh1]; · iexact Hh1
    iexact Hh2
  isplitl [Hx]; · iexact Hx
  isplitl [Hm1 Hm2]
  · iapply (pointsTo_share (PosShare.mem_left_op_right fullShare)).2
    isplitl [Hm1]; · iexact Hm1
    iexact Hm2
  iexact Ho

end Cert.KernelIdeal.Fl

end
-- ==== Proof.Ideal.Run.lean ====
/-
  @main from the launch to the return: a host stretch (the boolean mask as floats), the LayerNorm region, the attention
  region, and the host tail (the tiles' partial sums added, the row divided by its Euclidean length).  The contents of
  the TensorCore's buffers at each boundary are a fold from the launch memory: a host stretch applies its operations; a
  region leaves its windows' arrays at what its write-backs compute and every other buffer as entered.  Each region is a
  segment over the thread state "every unscoped buffer at the boundary's contents, the generator register at some state,
  nothing owed"; the attention region's entry splits the two buffers it stages twice into halves and its exit joins them.
  `run`: every weakly fair execution terminates with every unscoped buffer at the last boundary's contents — the
  arguments as launched (`W4_main_arg…`), the result at `W4 … main_v9`.
-/
import proofs.«128383_j11819749998990_2_alg».proof.Proof.Ideal.LnRegion
import proofs.«128383_j11819749998990_2_alg».proof.Proof.Ideal.FlashShares

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the LayerNorm region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the LayerNorm region's exit: its arrays at what the pipeline leaves, every other buffer as entered. -/
def W2 (c : Dev nD) : Valuation τ sig (Elt F) :=
  Pipeline.withArrays spec0 c (W1 m ρ c) fun w => (Ln.dat (V1 m ρ) c).arrAt w cfg0.N
theorem W2_arr (c : Dev nD) (w : Fin cfg0.W) :
    W2 m ρ c (Proc.devRef .tc (Pipeline.arrRef spec0 w)) = (Ln.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Ln.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered straight from the LayerNorm region's exit): the partial sums' array
    at what the pipeline leaves, every other buffer as entered (its other windows are inputs). -/
def W3 (c : Dev nD) : Valuation τ sig (Elt F) :=
  Function.update (W2 m ρ c) (Proc.devRef .tc main_v2) ((Fl.dat (V2 m ρ) c).arrAt 5 cfg1.N)
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
theorem W3_out (c : Dev nD) : W3 m ρ c (Proc.devRef .tc main_v2) = (Fl.dat (V2 m ρ) c).arrAt 5 cfg1.N := by
  unfold W3; exact Function.update_self _ _ _
abbrev V3 : (c : Dev nD) → (b : Ref sig .tc) → Buf (Elt F) ((c : Thread nD τ).loc b) := fun c b => W3 m ρ c b
theorem hF1 (c : Dev nD) : ∀ w : Fin cfg1.W, (Fl.dat (V2 m ρ) c).arrAt w cfg1.N = V3 m ρ c (Pipeline.arrRef spec1 w)
  | ⟨0, _⟩ => ((Fl.dat (V2 m ρ) c).arrAt_in 0 rfl _).trans ((Fl.A_eq (V2 m ρ) c 0).trans (W3_of_ne m ρ c _ (by decide)).symm)
  | ⟨1, _⟩ => ((Fl.dat (V2 m ρ) c).arrAt_in 1 rfl _).trans ((Fl.A_eq (V2 m ρ) c 1).trans (W3_of_ne m ρ c _ (by decide)).symm)
  | ⟨2, _⟩ => ((Fl.dat (V2 m ρ) c).arrAt_in 2 rfl _).trans ((Fl.A_eq (V2 m ρ) c 2).trans (W3_of_ne m ρ c _ (by decide)).symm)
  | ⟨3, _⟩ => ((Fl.dat (V2 m ρ) c).arrAt_in 3 rfl _).trans ((Fl.A_eq (V2 m ρ) c 3).trans (W3_of_ne m ρ c _ (by decide)).symm)
  | ⟨4, _⟩ => ((Fl.dat (V2 m ρ) c).arrAt_in 4 rfl _).trans ((Fl.A_eq (V2 m ρ) c 4).trans (W3_of_ne m ρ c _ (by decide)).symm)
  | ⟨5, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

/-- After the host tail. -/
abbrev W4 : Dev nD → Valuation τ sig (Elt F) := fun c => StableHlo.after hostOps2 (W3 m ρ c)

/-! ### The arguments end as launched: no host operation writes one and the regions only read them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((Ln.dat (V1 m ρ) c).arrAt_in 0 rfl _).trans (Ln.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((Ln.dat (V1 m ρ) c).arrAt_in 1 rfl _).trans (Ln.A_eq (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((Ln.dat (V1 m ρ) c).arrAt_in 2 rfl _).trans (Ln.A_eq (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => Ln.dat (V1 m ρ) c
  | ⟨1, _⟩ => fun c => Fl.dat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The LayerNorm region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Ln.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's windows name unscoped buffers. -/
theorem arr_unscoped1 : ∀ w : Fin 6, (Pipeline.arrRef spec1 w).isScoped = false := by decide

set_option backward.isDefEq.respectTransparency.types false in
/-- The attention region: entered from every unscoped buffer at `W2`, left at `W3`.  Its four buffers are split out of
    the unscoped buffers, the two staged twice halved; at the exit the halves are joined and the buffers put back at the
    exit contents.  The scoped buffers and the generator register enter its invariant and come back out. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Fl.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held (Ix := Unit) (Name := ℕ) (U := UR sig nD τ) (Lvl := ℕ) c (W2 m ρ c),
        Pipeline.unscopedBufs_split₀ (Pipeline.pin (pcfgs (F := F)) adm) 1 arr_unscoped1 c (V2 m ρ c)]
      exact sep_mono (Fl.arrays_of_bufs (V2 m ρ) c (V2 m ρ c) _ fun _ => rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Fl.dat (V2 m ρ) c).Φ 0 from rfl]
    iintro ⟨Hp, -, Hr⟩
    iapply (Fl.hin (V2 m ρ) c)
    unfold Pipeline.ΦA
    isplitl [Hr]; · iexact Hr
    iexact Hp
  hout c := by
    rw [Pipeline.ownSems0_none, show (pdats m ρ 1 c).Φ (Fin.last _) = (Fl.dat (V2 m ρ) c).Φ (Fin.last cfg1.N) from rfl]
    refine (Fl.hout (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c),
        Pipeline.unscopedBufs_split₀ (Pipeline.pin (pcfgs (F := F)) adm) 1 arr_unscoped1 c (V3 m ρ c)]
      refine sep_mono (Fl.bufs_of_arrays (V2 m ρ) c (V3 m ρ c) _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v9 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

end Cert.KernelIdeal.Run

end
-- ==== Proof.Frames.lean ====
/-
  The three frame claims and the idealization claim.  Each kernel program's frame is its two-region run read at the
  argument arrays (the word-level program's run is the idealized program's with the namespace changed: nothing in it
  depends on the float instance); the reference has no kernel, so its frame is its run with the result dropped; the
  ideal pass rewrote nothing, so the idealization claim is trivial.
-/
import proofs.«128383_j11819749998990_2_alg».proof.Defs
import proofs.«128383_j11819749998990_2_alg».proof.Proof.Bits.Run
import proofs.«128383_j11819749998990_2_alg».proof.Proof.Ideal.Run
import proofs.«128383_j11819749998990_2_alg».proof.Proof.RefRunP
import proofs.«128383_j11819749998990_2_alg».proof.Proof.Gen.Kernel
import proofs.«128383_j11819749998990_2_alg».proof.Proof.Gen.KernelIdeal
import proofs.«128383_j11819749998990_2_alg».proof.Proof.Gen.ReferenceIdeal
import proofs.«128383_j11819749998990_2_alg».proof.Proof.Gen.Pre_finite_inputs

noncomputable section

namespace Cert.Proof.Frames

open Idealize.ShloMosaic Idealize.SL.Sem

variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m ρ _ => Cert.Kernel.Run.frame (F := Bits) m ρ

theorem frame_kernelIdeal : Cert.frame_KernelIdeal := fun m ρ _ => Cert.KernelIdeal.Run.frame (F := Ideal) m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

end Cert.Proof.Frames

end
-- ==== Proof.Spec.lean ====
/-
  The mathematics both programs compute, over the reals, for inputs that are real numbers.

  For a batch row `b`: every position `s` of the sequence is layer-normalised over its 256 features (`ln`); the score
  of a pair of positions is the scaled dot product of their normalised rows, replaced by the constant `NEG` unless both
  positions are kept by the mask (`masked`).  The score matrix is symmetric.

  * The reference normalises each COLUMN of the score matrix (a softmax along the query axis), weights the normalised
    rows by it (`attnRef`), adds the input, zeroes the masked positions and sums over the sequence (`sumRef`).
  * The kernel normalises each ROW (the usual softmax along the key axis, as one quotient of two sums: `attnKer`), adds
    the input, multiplies by the mask as a 0/1 number and sums tile by tile, 8 tiles of 256 positions (`sumKer`).

  `ε` is the variance offset and `NEG` the masked-out score: the real numbers the two programs' literals denote.
-/
import Idealize.ShloMosaic.PureOps.Ideal

noncomputable section

namespace Cert.Spec

variable (ε NEG : ℝ) (x : Fin 16 → Fin 2048 → Fin 256 → ℝ) (μ : Fin 16 → Fin 2048 → Bool) (g β : Fin 256 → ℝ)

/-- The mean of a position's features. -/
def mean (b : Fin 16) (s : Fin 2048) : ℝ := (∑ d : Fin 256, x b s d) / 256

/-- Their (biased) variance. -/
def var (b : Fin 16) (s : Fin 2048) : ℝ :=
  (∑ d : Fin 256, (x b s d - mean x b s) * (x b s d - mean x b s)) / 256

/-- Layer normalisation with scale `g` and shift `β`. -/
def ln (b : Fin 16) (s : Fin 2048) (d : Fin 256) : ℝ :=
  (x b s d - mean x b s) / Real.sqrt (var x b s + ε) * g d + β d

/-- The scaled dot product of two normalised rows (the scale is 256^(-1/4) = 1/4). -/
def score (b : Fin 16) (q k : Fin 2048) : ℝ :=
  (∑ d : Fin 256, ln ε x g β b q d * ln ε x g β b k d) / 4

/-- The score where both positions are kept, the constant `NEG` elsewhere. -/
def masked (b : Fin 16) (q k : Fin 2048) : ℝ :=
  if (μ b q && μ b k) = true then score ε x g β b q k else NEG

/-- The largest score of a column (over the queries). -/
def colMax (b : Fin 16) (k : Fin 2048) : ℝ :=
  Finset.univ.sup' Finset.univ_nonempty fun q : Fin 2048 => masked ε NEG x μ g β b q k

/-- The reference's attention output at position `k`: the column's softmax weights times the normalised rows. -/
def attnRef (b : Fin 16) (k : Fin 2048) (d : Fin 256) : ℝ :=
  ∑ q : Fin 2048,
    Real.exp (masked ε NEG x μ g β b q k - colMax ε NEG x μ g β b k)
        / (∑ q' : Fin 2048, Real.exp (masked ε NEG x μ g β b q' k - colMax ε NEG x μ g β b k))
      * ln ε x g β b q d

/-- The reference's sum over the sequence of the kept residual rows. -/
def sumRef (b : Fin 16) (d : Fin 256) : ℝ :=
  ∑ q : Fin 2048, if μ b q = true then x b q d + attnRef ε NEG x μ g β b q d else 0

/-- The largest score of a row (over the keys). -/
def rowMax (b : Fin 16) (q : Fin 2048) : ℝ :=
  Finset.univ.sup' Finset.univ_nonempty fun k : Fin 2048 => masked ε NEG x μ g β b q k

/-- The kernel's attention output at position `q`: the row's weighted sum of normalised rows over the row's weight sum. -/
def attnKer (b : Fin 16) (q : Fin 2048) (d : Fin 256) : ℝ :=
  (∑ k : Fin 2048, Real.exp (masked ε NEG x μ g β b q k - rowMax ε NEG x μ g β b q) * ln ε x g β b k d)
    / (∑ k : Fin 2048, Real.exp (masked ε NEG x μ g β b q k - rowMax ε NEG x μ g β b q))

/-- Position `r` of tile `t`. -/
def pos (t : Fin 8) (r : Fin 256) : Fin 2048 := ⟨t.val * 256 + r.val, by have := t.isLt; have := r.isLt; omega⟩

/-- The mask as a number. -/
def keep (b : Fin 16) (s : Fin 2048) : ℝ := if μ b s = true then 1 else 0

/-- One tile's partial sum of the kernel: the residual rows times the mask, over the tile's 256 positions. -/
def tileKer (t : Fin 8) (b : Fin 16) (d : Fin 256) : ℝ :=
  ∑ r : Fin 256, (x b (pos t r) d + attnKer ε NEG x μ g β b (pos t r) d) * keep μ b (pos t r)

/-- The kernel's sum: the tiles' partial sums added. -/
def sumKer (b : Fin 16) (d : Fin 256) : ℝ := ∑ t : Fin 8, tileKer ε NEG x μ g β t b d

end Cert.Spec

end
-- ==== Proof.Consts.lean ====
/-
  The float literals the two programs spell, as the extended reals their bit patterns denote: zero, 256 (the feature
  count), 1/4 and 4 (the score scale 256^(-1/4) and its reciprocal), 1/2 (the mask threshold), the variance offset
  `eps` = 10995116 / 2^40 (the float nearest 10^-5), the masked-out score `negBig` = -10^7, and minus infinity.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_256 : Ideal.ofBits .f32 0x43800000#32 = ((256 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The variance offset, as a real number. -/
def eps : ℝ := 10995116 / 1099511627776

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num

/-- The masked-out score, as a real number. -/
def negBig : ℝ := -10000000

theorem ofBits_negBig : Ideal.ofBits .f32 0xCB189680#32 = ((negBig : ℝ) : EReal) := by
  unfold negBig
  simp [Ideal.ofBits, Ideal.ieee, -EReal.coe_mul]

theorem ofBits_negInf : Ideal.ofBits .f32 0xFF800000#32 = (⊥ : EReal) := by
  simp [Ideal.ofBits, Ideal.ieee]

end Cert.Consts

end
-- ==== Proof.Ideal.LnValue.lean ====
/-
  The first kernel region, from blocks to the array: what the output array holds after the region, index by index.

  The region's four grid points each normalise one block of 512 sequence positions (all 16 batch rows, all 256
  features) and write it back. Layer normalisation works on each row of 256 features by itself, so the block a point
  writes is the block, at the same place, of ONE function of the whole input: the normalised input `lnArr`. Row `r` of
  block `t` is row `512·t + r` of the sequence; the four blocks tile the array (row `s` lies in block `s / 512`); hence
  the array ends at `lnArr`.

  The row-wise formula enters as a parameter: `rowFn row d`, with the hypotheses that the specification's `ln` at
  (b, s, d) is `rowFn` of row (b, s) at `d`, and that the body's payload on a block whose entries are the reals `xb` is
  `rowFn (xb b r) d` at (b, r, d).
-/
import proofs.«128383_j11819749998990_2_alg».proof.Proof.Ideal.LnRegion
import proofs.«128383_j11819749998990_2_alg».proof.Proof.Spec
import proofs.«128383_j11819749998990_2_alg».proof.Proof.Consts
import Idealize.ShloMosaic.Lib.Pipeline.Value
import Idealize.ShloMosaic.Lib.ValueIdx

noncomputable section

namespace Cert.KernelIdeal.LnValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz1 : (![0] : Fin 1 → Nat) = fun _ => 0 := funext fun a => by fin_cases a <;> rfl

/-- The whole output array: the layer-normalised input, index by index. -/
def lnArr (xr : Fin 16 → Fin 2048 → Fin 256 → ℝ) (gr βr : Fin 256 → ℝ) : FVec Ideal S16x2048x256 .bf16 :=
  fun i => ((Cert.Spec.ln Cert.Consts.eps xr gr βr (i 0) (i 1) (i 2) : ℝ) : EReal)

/-- The printed index maps over the grid: the input's and the output's block index is (0, t, 0), the vectors' is 0. -/
theorem idx_facts : ∀ t : Fin cfg0.N,
    win0_0.index t (0 : Fin 3) = 0 ∧ win0_0.index t (1 : Fin 3) = t.val ∧ win0_0.index t (2 : Fin 3) = 0
    ∧ win0_1.index t (0 : Fin 1) = 0 ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- Row `r` of block `t` is row `t * 512 + r` of the sequence. -/
def rowOf (t : Fin cfg0.N) (r : Fin 512) : Fin 2048 :=
  ⟨t.val * 512 + r.val, by have hN : cfg0.N = 4 := N_0; have := t.isLt; have := r.isLt; omega⟩

/-- The input's block at point `t`, read at an index: the input 512·t rows further down. -/
theorem iblk_x (c : Dev nD) (t : Fin cfg0.N) (xr : Fin 16 → Fin 2048 → Fin 256 → ℝ)
    (hX : ∀ b s d, (V c main_arg0 : FVec Ideal S16x2048x256 .f32) (ix3 b s d) = ((xr b s d : ℝ) : EReal))
    (b : Fin 16) (r : Fin 512) (d : Fin 256) :
    (Cert.KernelIdeal.Ln.iblk V c 0 t : Vec Ideal S16x512x256 .f32) (ix3 b r d) = ((xr b (rowOf t r) d : ℝ) : EReal) := by
  obtain ⟨e0, e1, e2, -, -, -, -, -⟩ := idx_facts t
  unfold Cert.KernelIdeal.Ln.iblk
  rw [View.read_apply]
  show (V c main_arg0 : FVec Ideal S16x2048x256 .f32) (((cfg0.win 0).blk t).view.emb (ix3 b r d)) = _
  rw [← hX]
  refine congrArg (V c main_arg0 : FVec Ideal S16x2048x256 .f32) (funext fun a => Fin.ext ?_)
  match a with
  | ⟨0, _⟩ => show win0_0.index t (0 : Fin 3) * 16 + 1 * b.val = b.val; omega
  | ⟨1, _⟩ => show win0_0.index t (1 : Fin 3) * 512 + 1 * r.val = t.val * 512 + r.val; omega
  | ⟨2, _⟩ => show win0_0.index t (2 : Fin 3) * 256 + 1 * d.val = d.val; omega

/-- The scale's block, at every point, is the scale. -/
theorem iblk_g (c : Dev nD) (t : Fin cfg0.N) (gr : Fin 256 → ℝ)
    (hG : ∀ d, (V c main_arg2 : FVec Ideal S256 .f32) (ix1 d) = ((gr d : ℝ) : EReal)) (d : Fin 256) :
    (Cert.KernelIdeal.Ln.iblk V c 1 t : Vec Ideal S256 .f32) (ix1 d) = ((gr d : ℝ) : EReal) := by
  obtain ⟨-, -, -, e3, -, -, -, -⟩ := idx_facts t
  unfold Cert.KernelIdeal.Ln.iblk
  rw [View.read_apply]
  show (V c main_arg2 : FVec Ideal S256 .f32) (((cfg0.win 1).blk t).view.emb (ix1 d)) = _
  rw [← hG]
  refine congrArg (V c main_arg2 : FVec Ideal S256 .f32) (funext fun a => Fin.ext ?_)
  match a with
  | ⟨0, _⟩ => show win0_1.index t (0 : Fin 1) * 256 + 1 * d.val = d.val; omega

/-- The shift's block, at every point, is the shift. -/
theorem iblk_b (c : Dev nD) (t : Fin cfg0.N) (βr : Fin 256 → ℝ)
    (hB : ∀ d, (V c main_arg3 : FVec Ideal S256 .f32) (ix1 d) = ((βr d : ℝ) : EReal)) (d : Fin 256) :
    (Cert.KernelIdeal.Ln.iblk V c 2 t : Vec Ideal S256 .f32) (ix1 d) = ((βr d : ℝ) : EReal) := by
  obtain ⟨-, -, -, -, e4, -, -, -⟩ := idx_facts t
  unfold Cert.KernelIdeal.Ln.iblk
  rw [View.read_apply]
  show (V c main_arg3 : FVec Ideal S256 .f32) (((cfg0.win 2).blk t).view.emb (ix1 d)) = _
  rw [← hB]
  refine congrArg (V c main_arg3 : FVec Ideal S256 .f32) (funext fun a => Fin.ext ?_)
  match a with
  | ⟨0, _⟩ => show win0_2.index t (0 : Fin 1) * 256 + 1 * d.val = d.val; omega

/-- The output's block at point `t` sits 512·t rows down the array. -/
theorem emb_out (t : Fin cfg0.N) (b : Fin 16) (r : Fin 512) (d : Fin 256) :
    ((cfg0.win 3).blk t).view.emb (ix3 b r d : S16x512x256.Idx) = (ix3 b (rowOf t r) d : S16x2048x256.Idx) := by
  obtain ⟨-, -, -, -, -, e5, e6, e7⟩ := idx_facts t
  refine funext fun a => Fin.ext ?_
  match a with
  | ⟨0, _⟩ => show win0_3.index t (0 : Fin 3) * 16 + 1 * b.val = b.val; omega
  | ⟨1, _⟩ => show win0_3.index t (1 : Fin 3) * 512 + 1 * r.val = t.val * 512 + r.val; omega
  | ⟨2, _⟩ => show win0_3.index t (2 : Fin 3) * 256 + 1 * d.val = d.val; omega

/-- At a point of the grid and an index of the block: the payload of the three input blocks is the normalised input
    at the index's place in the array, because layer normalisation works on each row by itself. -/
theorem point_eq (c : Dev nD) (t : Fin cfg0.N) (xr : Fin 16 → Fin 2048 → Fin 256 → ℝ) (gr βr : Fin 256 → ℝ) (rowFn : (Fin 256 → ℝ) → Fin 256 → ℝ)
    (hrow : ∀ b s d, Cert.Spec.ln Cert.Consts.eps xr gr βr b s d = rowFn (xr b s) d)
    (hX : ∀ b s d, (V c main_arg0 : FVec Ideal S16x2048x256 .f32) (ix3 b s d) = ((xr b s d : ℝ) : EReal))
    (hG : ∀ d, (V c main_arg2 : FVec Ideal S256 .f32) (ix1 d) = ((gr d : ℝ) : EReal))
    (hB : ∀ d, (V c main_arg3 : FVec Ideal S256 .f32) (ix1 d) = ((βr d : ℝ) : EReal))
    (hpay : ∀ (X : Vec Ideal S16x512x256 .f32) (Gv Bv : Vec Ideal S256 .f32) (xb : Fin 16 → Fin 512 → Fin 256 → ℝ),
      (∀ b r d, X (ix3 b r d) = ((xb b r d : ℝ) : EReal)) → (∀ d, Gv (ix1 d) = ((gr d : ℝ) : EReal)) → (∀ d, Bv (ix1 d) = ((βr d : ℝ) : EReal)) →
      ∀ b r d, (k0_pay1 (F := Ideal) X Gv Bv : FVec Ideal S16x512x256 .bf16) (ix3 b r d) = ((rowFn (xb b r) d : ℝ) : EReal)) (j : S16x512x256.Idx) :
    (k0_pay1 (F := Ideal) (Cert.KernelIdeal.Ln.iblk V c 0 t) (Cert.KernelIdeal.Ln.iblk V c 1 t) (Cert.KernelIdeal.Ln.iblk V c 2 t) : FVec Ideal S16x512x256 .bf16) j
      = lnArr xr gr βr (((cfg0.win 3).blk t).view.emb j) := by
  obtain ⟨b, r, d, rfl⟩ : ∃ (b : Fin 16) (r : Fin 512) (d : Fin 256), j = ix3 b r d := ⟨j 0, j 1, j 2, eq_ix3 j⟩
  rw [hpay _ _ _ (fun b r d => xr b (rowOf t r) d) (iblk_x V c t xr hX) (iblk_g V c t gr hG) (iblk_b V c t βr hB) b r d, emb_out t b r d]
  unfold lnArr
  exact congrArg _ (hrow b (rowOf t r) d).symm

/-- What point `t` writes back is block `t` of the normalised input. -/
theorem flushed_eq (c : Dev nD) (xr : Fin 16 → Fin 2048 → Fin 256 → ℝ) (gr βr : Fin 256 → ℝ) (rowFn : (Fin 256 → ℝ) → Fin 256 → ℝ)
    (hrow : ∀ b s d, Cert.Spec.ln Cert.Consts.eps xr gr βr b s d = rowFn (xr b s) d)
    (hX : ∀ b s d, (V c main_arg0 : FVec Ideal S16x2048x256 .f32) (ix3 b s d) = ((xr b s d : ℝ) : EReal))
    (hG : ∀ d, (V c main_arg2 : FVec Ideal S256 .f32) (ix1 d) = ((gr d : ℝ) : EReal))
    (hB : ∀ d, (V c main_arg3 : FVec Ideal S256 .f32) (ix1 d) = ((βr d : ℝ) : EReal))
    (hpay : ∀ (X : Vec Ideal S16x512x256 .f32) (Gv Bv : Vec Ideal S256 .f32) (xb : Fin 16 → Fin 512 → Fin 256 → ℝ),
      (∀ b r d, X (ix3 b r d) = ((xb b r d : ℝ) : EReal)) → (∀ d, Gv (ix1 d) = ((gr d : ℝ) : EReal)) → (∀ d, Bv (ix1 d) = ((βr d : ℝ) : EReal)) →
      ∀ b r d, (k0_pay1 (F := Ideal) X Gv Bv : FVec Ideal S16x512x256 .bf16) (ix3 b r d) = ((rowFn (xb b r) d : ℝ) : EReal)) (t : Fin cfg0.N) :
    (Cert.KernelIdeal.Ln.dat (F := Ideal) V c).flushed 3 t = ((cfg0.win 3).blk t).view.read (Elt Ideal) (lnArr xr gr βr) := by
  show (cfg0.win 3).cut (grid0.coords t) ((Cert.KernelIdeal.Ln.dat (F := Ideal) V c).after 3 t) = _
  rw [Cert.KernelIdeal.Ln.after_h]
  unfold Cert.KernelIdeal.Ln.lnOut
  rw [View.canon_unit_zero hz3]
  simp only [View.ld_unit_zero (S := S16x512x256) hz3, View.ld_unit_zero (S := S256) hz1]
  funext j
  exact point_eq V c t xr gr βr rowFn hrow hX hG hB hpay j

/-- An index of the array is in point `t`'s block iff each coordinate is in the block's range on its axis. -/
theorem mem_blk (t : Fin cfg0.N) (i : S16x2048x256.Idx) :
    i ∈ ((cfg0.win 3).blk t).view.set ↔ ∀ a : Fin 3, win0_3.index t a * S16x512x256.size a ≤ (i a).val
      ∧ (i a).val < win0_3.index t a * S16x512x256.size a + S16x512x256.size a := by
  show i ∈ ((View.whole main_v1).slice (win0_3.rect t)).set ↔ _
  rw [View.set_slice_whole, Rect.mem_set_unit]
  exact Iff.rfl

/-- Every index of the array is in the block of the point its row falls in: row `s` in block `s / 512`. -/
theorem cover (i : S16x2048x256.Idx) :
    ∃ t : Fin cfg0.N, (cfg0.win 3).flush t = true ∧ i ∈ ((cfg0.win 3).blk t).view.set := by
  have hN : cfg0.N = 4 := N_0
  have hi0 : (i 0).val < 16 := (i 0).isLt
  have hi1 : (i 1).val < 2048 := (i 1).isLt
  have hi2 : (i 2).val < 256 := (i 2).isLt
  have ht : (i 1).val / 512 < cfg0.N := by omega
  refine ⟨⟨(i 1).val / 512, ht⟩, flush0_3 _, ?_⟩
  rw [mem_blk]
  obtain ⟨-, -, -, -, -, e5, e6, e7⟩ := idx_facts ⟨(i 1).val / 512, ht⟩
  have e6' : win0_3.index ⟨(i 1).val / 512, ht⟩ (1 : Fin 3) = (i 1).val / 512 := e6
  intro a
  match a with
  | ⟨0, _⟩ => show win0_3.index ⟨(i 1).val / 512, ht⟩ (0 : Fin 3) * 16 ≤ (i 0).val ∧ (i 0).val < win0_3.index ⟨(i 1).val / 512, ht⟩ (0 : Fin 3) * 16 + 16; omega
  | ⟨1, _⟩ => show win0_3.index ⟨(i 1).val / 512, ht⟩ (1 : Fin 3) * 512 ≤ (i 1).val ∧ (i 1).val < win0_3.index ⟨(i 1).val / 512, ht⟩ (1 : Fin 3) * 512 + 512; omega
  | ⟨2, _⟩ => show win0_3.index ⟨(i 1).val / 512, ht⟩ (2 : Fin 3) * 256 ≤ (i 2).val ∧ (i 2).val < win0_3.index ⟨(i 1).val / 512, ht⟩ (2 : Fin 3) * 256 + 256; omega

/-- The output array after the region is the normalised input. -/
theorem ln_array_eq (c : Dev nD) (xr : Fin 16 → Fin 2048 → Fin 256 → ℝ) (gr βr : Fin 256 → ℝ) (rowFn : (Fin 256 → ℝ) → Fin 256 → ℝ)
    (hrow : ∀ b s d, Cert.Spec.ln Cert.Consts.eps xr gr βr b s d = rowFn (xr b s) d)
    (hX : ∀ b s d, (V c main_arg0 : FVec Ideal S16x2048x256 .f32) (ix3 b s d) = ((xr b s d : ℝ) : EReal))
    (hG : ∀ d, (V c main_arg2 : FVec Ideal S256 .f32) (ix1 d) = ((gr d : ℝ) : EReal))
    (hB : ∀ d, (V c main_arg3 : FVec Ideal S256 .f32) (ix1 d) = ((βr d : ℝ) : EReal))
    (hpay : ∀ (X : Vec Ideal S16x512x256 .f32) (Gv Bv : Vec Ideal S256 .f32) (xb : Fin 16 → Fin 512 → Fin 256 → ℝ),
      (∀ b r d, X (ix3 b r d) = ((xb b r d : ℝ) : EReal)) → (∀ d, Gv (ix1 d) = ((gr d : ℝ) : EReal)) → (∀ d, Bv (ix1 d) = ((βr d : ℝ) : EReal)) →
      ∀ b r d, (k0_pay1 (F := Ideal) X Gv Bv : FVec Ideal S16x512x256 .bf16) (ix3 b r d) = ((rowFn (xb b r) d : ℝ) : EReal)) :
    (Cert.KernelIdeal.Ln.dat (F := Ideal) V c).arrAt 3 cfg0.N = lnArr xr gr βr :=
  (Cert.KernelIdeal.Ln.dat (F := Ideal) V c).arrAt_eq_of_cover 3 (lnArr xr gr βr)
    (fun t _ => flushed_eq V c xr gr βr rowFn hrow hX hG hB hpay t) cover

/-- The output array after the region, index by index. -/
theorem ln_array (c : Dev nD) (xr : Fin 16 → Fin 2048 → Fin 256 → ℝ) (gr βr : Fin 256 → ℝ) (rowFn : (Fin 256 → ℝ) → Fin 256 → ℝ)
    (hrow : ∀ b s d, Cert.Spec.ln Cert.Consts.eps xr gr βr b s d = rowFn (xr b s) d)
    (hX : ∀ b s d, (V c main_arg0 : FVec Ideal S16x2048x256 .f32) (ix3 b s d) = ((xr b s d : ℝ) : EReal))
    (hG : ∀ d, (V c main_arg2 : FVec Ideal S256 .f32) (ix1 d) = ((gr d : ℝ) : EReal))
    (hB : ∀ d, (V c main_arg3 : FVec Ideal S256 .f32) (ix1 d) = ((βr d : ℝ) : EReal))
    (hpay : ∀ (X : Vec Ideal S16x512x256 .f32) (Gv Bv : Vec Ideal S256 .f32) (xb : Fin 16 → Fin 512 → Fin 256 → ℝ),
      (∀ b r d, X (ix3 b r d) = ((xb b r d : ℝ) : EReal)) → (∀ d, Gv (ix1 d) = ((gr d : ℝ) : EReal)) → (∀ d, Bv (ix1 d) = ((βr d : ℝ) : EReal)) →
      ∀ b r d, (k0_pay1 (F := Ideal) X Gv Bv : FVec Ideal S16x512x256 .bf16) (ix3 b r d) = ((rowFn (xb b r) d : ℝ) : EReal)) (b : Fin 16) (s : Fin 2048) (d : Fin 256) :
    ((Cert.KernelIdeal.Ln.dat (F := Ideal) V c).arrAt 3 cfg0.N : FVec Ideal S16x2048x256 .bf16) (ix3 b s d)
      = ((Cert.Spec.ln Cert.Consts.eps xr gr βr b s d : ℝ) : EReal) := by
  rw [ln_array_eq V c xr gr βr rowFn hrow hX hG hB hpay]
  rfl

end Cert.KernelIdeal.LnValue

end
-- ==== Proof.LibLayerNorm.lean ====
import Idealize.ShloMosaic.PureOps.Ideal
import Mathlib.Data.EReal.Operations
import proofs.«128383_j11819749998990_2_alg».proof.Proof.Spec

/-!
# Layer normalisation over the extended reals, on real data

A layer normalisation divides a centred feature by the square root of a variance plus a positive
offset.  One program writes the division as a product with a reciprocal square root, another as a
quotient by a square root.  On a POSITIVE real argument, coerced into the extended reals, both read
as the real quotient `a / √v`:

* `sqrt_coe_pos`, `rsqrt_coe_pos`: the extended-real square root and reciprocal square root of a
  positive real are the coerced real ones;
* `div_coe`: the extended-real quotient of two reals by a non-zero real is the coerced real quotient;
* `mul_rsqrt_eq_div_sqrt`, `div_sqrt_coe`: the two ways of writing the normalising division agree
  with `a / √v`;
* `mean_sq_dev_nonneg`, `mean_sq_dev_add_pos`: a mean of squared deviations is non-negative, so adding a
  positive offset gives a positive number (the argument of the square root is never at a corner);
* `var_add_eps_pos`: the same for the variance of the specification.
-/

open Idealize.ShloMosaic
open scoped BigOperators

namespace Cert.Lib.LayerNorm

/-- The extended-real square root of a positive real is the real square root. -/
theorem sqrt_coe_pos (v : ℝ) (hv : 0 < v) :
    Ideal.sqrt ((v : ℝ) : EReal) = ((Real.sqrt v : ℝ) : EReal) := by
  rw [Ideal.sqrt_coe, if_neg (not_lt.mpr hv.le)]

/-- The extended-real reciprocal square root of a positive real is the inverse of the real square root. -/
theorem rsqrt_coe_pos (v : ℝ) (hv : 0 < v) :
    Ideal.rsqrt ((v : ℝ) : EReal) = (((Real.sqrt v)⁻¹ : ℝ) : EReal) := by
  rw [Ideal.rsqrt_coe, if_neg (not_lt.mpr hv.le), if_neg hv.ne']

/-- The extended-real quotient of a real by a non-zero real is the real quotient. -/
theorem div_coe (a l : ℝ) (hl : l ≠ 0) :
    Ideal.div ((a : ℝ) : EReal) ((l : ℝ) : EReal) = ((a / l : ℝ) : EReal) := by
  rw [Ideal.div_coe hl, ← EReal.coe_mul, mul_one_div]

/-- A real times the reciprocal square root of a positive real is the real quotient by the square root. -/
theorem mul_rsqrt_eq_div_sqrt (a v : ℝ) (hv : 0 < v) :
    ((a : ℝ) : EReal) * Ideal.rsqrt ((v : ℝ) : EReal) = (((a / Real.sqrt v) : ℝ) : EReal) := by
  rw [rsqrt_coe_pos v hv, ← EReal.coe_mul, div_eq_mul_inv]

/-- A real divided by the square root of a positive real is the real quotient by the square root. -/
theorem div_sqrt_coe (a v : ℝ) (hv : 0 < v) :
    Ideal.div ((a : ℝ) : EReal) (Ideal.sqrt ((v : ℝ) : EReal)) = (((a / Real.sqrt v) : ℝ) : EReal) := by
  rw [sqrt_coe_pos v hv, div_coe a (Real.sqrt v) (Real.sqrt_pos.mpr hv).ne']

/-- A mean of squared deviations is non-negative. -/
theorem mean_sq_dev_nonneg {ι : Type*} [Fintype ι] (f : ι → ℝ) (m n : ℝ) (hn : 0 ≤ n) :
    0 ≤ (∑ d, (f d - m) * (f d - m)) / n :=
  div_nonneg (Finset.sum_nonneg fun d _ => mul_self_nonneg (f d - m)) hn

/-- A mean of squared deviations plus a positive offset is positive. -/
theorem mean_sq_dev_add_pos {ι : Type*} [Fintype ι] (f : ι → ℝ) (m n ε : ℝ) (hn : 0 ≤ n) (hε : 0 < ε) :
    0 < (∑ d, (f d - m) * (f d - m)) / n + ε :=
  add_pos_of_nonneg_of_pos (mean_sq_dev_nonneg f m n hn) hε

/-- The specification's variance plus a positive offset is positive. -/
theorem var_add_eps_pos (ε : ℝ) (hε : 0 < ε) (x : Fin 16 → Fin 2048 → Fin 256 → ℝ) (b : Fin 16)
    (s : Fin 2048) : 0 < Cert.Spec.var x b s + ε :=
  mean_sq_dev_add_pos (fun d => x b s d) (Cert.Spec.mean x b s) 256 ε (by norm_num) hε

/-- The coercion `ℝ → EReal` commutes with a finite sum. -/
theorem coe_sum {κ : Type*} [Fintype κ] (f : κ → ℝ) :
    (∑ k, ((f k : ℝ) : EReal)) = ((∑ k, f k : ℝ) : EReal) := by
  classical
  induction (Finset.univ : Finset κ) using Finset.induction_on with
  | empty => simp
  | insert a S ha ih => rw [Finset.sum_insert ha, Finset.sum_insert ha, ih, EReal.coe_add]

end Cert.Lib.LayerNorm
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.KerLn.lean ====
import proofs.«128383_j11819749998990_2_alg».proof.Proof.Gen.KernelIdeal.Skeleton
import proofs.«128383_j11819749998990_2_alg».proof.Proof.Consts
import proofs.«128383_j11819749998990_2_alg».proof.Proof.LibLayerNorm
import proofs.«128383_j11819749998990_2_alg».proof.Proof.LibRank3Layout
import proofs.«128383_j11819749998990_2_alg».proof.Proof.LibMidAxisLayout
import Idealize.ShloMosaic.PureOps.Ideal.Laws
import Idealize.ShloMosaic.Lib.ValueIdx

/-!
# The layer-normalisation kernel's block, entry by entry

One block of the first kernel holds 512 positions of each of the 16 batch rows.  For every position the kernel adds
the 256 features and divides by 256 (the mean), centres the features, adds their squares and divides by 256 (the
variance), adds the offset, takes the reciprocal square root, multiplies the centred feature by it, then by the
scale, and adds the shift; the final rounding to a narrower format is the identity on extended reals.  On a block of
real numbers the entry at `(b, r, d)` is therefore the real layer normalisation `rowLn` of the row `(b, r)` at
feature `d`: the variance plus a positive offset is positive, so the reciprocal square root is the real one.
-/

noncomputable section

namespace Cert.KerLn

open Idealize.ShloMosaic Idealize.ShloMosaic.ValueIdx Cert.KernelIdeal Cert.KernelIdeal.Gen
open scoped BigOperators

/-- Layer normalisation of one row of 256 features, with offset `ε`, scale `g` and shift `β`. -/
def rowLn (ε : ℝ) (row g β : Fin 256 → ℝ) (d : Fin 256) : ℝ :=
  (row d - (∑ e, row e) / 256)
      / Real.sqrt ((∑ e, (row e - (∑ e', row e') / 256) * (row e - (∑ e', row e') / 256)) / 256 + ε) * g d + β d

/-- The specification's layer normalisation is the row's. -/
theorem ln_eq_rowLn (ε : ℝ) (x : Fin 16 → Fin 2048 → Fin 256 → ℝ) (g β : Fin 256 → ℝ) (b : Fin 16) (s : Fin 2048)
    (d : Fin 256) : Cert.Spec.ln ε x g β b s d = rowLn ε (x b s) g β d := rfl

/-- Putting the summed coordinate back into a rank-2 index gives the rank-3 index with that last coordinate. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- The sum of a block over its last axis. -/
def rowSum (src : FVec Ideal S16x512x256 .f32) : FVec Ideal S16x512 .f32 :=
  multiReduction .add [2] S16x512 src 0x00000000#32 reduces_S16x512x256_S16x512 (.inl rfl) rfl

/-- At a position it is the sum of the position's 256 entries. -/
theorem rowSum_apply (src : FVec Ideal S16x512x256 .f32) (i : Fin 16) (j : Fin 512) :
    rowSum src (ix2 i j) = ∑ k : Fin 256, src (ix3 i j k) :=
  (Ideal.multiReduction_add_single src 0x00000000#32 reduces_S16x512x256_S16x512 (.inl rfl) rfl (ix2 i j)).trans
    (Finset.sum_congr rfl fun k _ => congrArg src (lift_last reduces_S16x512x256_S16x512 i j k))

/-- The block's arithmetic, written over `rowSum`. -/
def lnBlock (X : FVec Ideal S16x512x256 .f32) (G B : FVec Ideal S256 .f32) : FVec Ideal S16x512x256 .f32 :=
  let c256 : FVec Ideal S16x512x1 .f32 := broadcast S16x512x1 (Scalar.ofBits .f32 0x43800000#32)
  let m : FVec Ideal S16x512x256 .f32 :=
    broadcastTo S16x512x256 (divf (shapeCast S16x512x1 (rowSum X) shapeCasts_S16x512_S16x512x1) c256)
      broadcasts_S16x512x1_S16x512x256
  let cx : FVec Ideal S16x512x256 .f32 := subf X m
  let v : FVec Ideal S16x512x1 .f32 :=
    divf (shapeCast S16x512x1 (rowSum (mulf cx cx)) shapeCasts_S16x512_S16x512x1) c256
  let rs : FVec Ideal S16x512x1 .f32 := rsqrt (addf v (broadcast S16x512x1 (Scalar.ofBits .f32 0x3727C5AC#32)))
  addf
    (mulf (mulf cx (broadcastTo S16x512x256 rs broadcasts_S16x512x1_S16x512x256))
      (broadcastTo S16x512x256 (shapeCast S1x1x256 G shapeCasts_S256_S1x1x256) broadcasts_S1x1x256_S16x512x256))
    (broadcastTo S16x512x256 (shapeCast S1x1x256 B shapeCasts_S256_S1x1x256) broadcasts_S1x1x256_S16x512x256)

/-- The kernel's block is that arithmetic (the rounding at the end is the identity). -/
theorem k0_pay1_eq (X : Vec Ideal S16x512x256 .f32) (G B : Vec Ideal S256 .f32) :
    k0_pay1 (F := Ideal) X G B = lnBlock X G B := rfl

theorem rsqrt_apply {s : Shape} {φ : FTy} (a : FVec Ideal s φ) (i : s.Idx) : rsqrt a i = Ideal.rsqrt (a i) := rfl

/-- The block of a real block, entry by entry. -/
theorem k0_pay1_apply (X : Vec Ideal S16x512x256 .f32) (G B : Vec Ideal S256 .f32)
    (xb : Fin 16 → Fin 512 → Fin 256 → ℝ) (gr βr : Fin 256 → ℝ)
    (hX : ∀ b r d, X (ix3 b r d) = ((xb b r d : ℝ) : EReal)) (hG : ∀ d, G (ix1 d) = ((gr d : ℝ) : EReal))
    (hB : ∀ d, B (ix1 d) = ((βr d : ℝ) : EReal)) (b : Fin 16) (r : Fin 512) (d : Fin 256) :
    k0_pay1 (F := Ideal) X G B (ix3 b r d) = ((rowLn Cert.Consts.eps (xb b r) gr βr d : ℝ) : EReal) := by
  rw [k0_pay1_eq]
  unfold lnBlock
  simp only [addf_apply, mulf_apply, subf_apply, divf_apply, broadcast_apply, rsqrt_apply,
    Cert.LibRank3Layout.broadcastTo_ab1_abc_apply, Cert.LibRank3Layout.shapeCast_ab_ab1_apply,
    Cert.LibMidAxisLayout.shapeCast_n_11n_apply, Cert.LibMidAxisLayout.broadcastTo_11n_abn_apply, rowSum_apply]
  have h256 : (256 : ℝ) ≠ 0 := by norm_num
  simp only [hX, hG, hB, Ideal.ofBits_def, Cert.Consts.ofBits_256, Cert.Consts.ofBits_eps,
    Cert.Lib.LayerNorm.coe_sum, Cert.Lib.LayerNorm.div_coe _ _ h256, ← EReal.coe_sub, ← EReal.coe_mul,
    ← EReal.coe_add]
  rw [Cert.Lib.LayerNorm.mul_rsqrt_eq_div_sqrt _ _
      (Cert.Lib.LayerNorm.mean_sq_dev_add_pos (xb b r) _ 256 _ (by norm_num) Cert.Consts.eps_pos),
    ← EReal.coe_mul, ← EReal.coe_add]
  rfl

end Cert.KerLn

end
-- ==== Proof.Ideal.Entry.lean ====
/-
  What the attention region finds in its input arrays, at the ideal instance, when the float inputs are real numbers:
  the input rows as launched (no host operation and no region writes an argument), the mask as the numbers 0 and 1 (the
  one host operation before the regions converts the boolean mask), and the normalised rows (the array the LayerNorm
  region leaves: every row of the input layer-normalised).
-/
import proofs.«128383_j11819749998990_2_alg».proof.Proof.Ideal.Run
import proofs.«128383_j11819749998990_2_alg».proof.Proof.Ideal.LnValue
import proofs.«128383_j11819749998990_2_alg».proof.Proof.KerLn

noncomputable section

namespace Cert.KernelIdeal.Entry

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The host stretch before the regions writes none of the arguments. -/
theorem W1_of_arg (b : Ref sig .tc) (hb : b ≠ main_v0) :
    Run.W1 (F := Ideal) m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact StableHlo.devRef_ne_of_ne hb))).trans rfl

/-- It leaves the mask as numbers. -/
theorem W1_mask (i : S16x2048x1.Idx) :
    (Run.W1 (F := Ideal) m ρ c (Proc.devRef .tc main_v0) : FVec Ideal S16x2048x1 .f32) i
      = FloatOps.uitofp (F := Ideal) .f32 ((m ((c : Thread nD τ).loc main_arg1) : IVec S16x2048x1 1) i) := by
  have e : (Run.W1 (F := Ideal) m ρ c (Proc.devRef .tc main_v0) : FVec Ideal S16x2048x1 .f32)
      = (uitofp (F := Ideal) .f32 (m ((c : Thread nD τ).loc main_arg1) : IVec S16x2048x1 1) : FVec Ideal S16x2048x1 .f32) := by
    show StableHlo.after hostOps0 _ (Proc.devRef .tc main_v0) = _
    after_results
  rw [e]; rfl

variable (xr : Fin 16 → Fin 2048 → Fin 256 → ℝ) (μ : Fin 16 → Fin 2048 → Bool) (gr βr : Fin 256 → ℝ)

/-- The input rows, as the attention region finds them. -/
theorem V2_x (hx : ∀ b s d, (m ((c : Thread nD τ).loc main_arg0) : FVec Ideal S16x2048x256 .f32) (ix3 b s d) = ((xr b s d : ℝ) : EReal))
    (b : Fin 16) (s : Fin 2048) (d : Fin 256) :
    (Run.V2 (F := Ideal) m ρ c main_arg0 : FVec Ideal S16x2048x256 .f32) (ix3 b s d) = ((xr b s d : ℝ) : EReal) := by
  have e : Run.V2 (F := Ideal) m ρ c main_arg0 = m ((c : Thread nD τ).loc main_arg0) :=
    ((Run.W2_arr m ρ c 0).trans (((Ln.dat (Run.V1 m ρ) c).arrAt_in 0 rfl _).trans (Ln.A_eq (Run.V1 m ρ) c 0))).trans
      (W1_of_arg m ρ c main_arg0 (by decide))
  rw [e]; exact hx b s d

/-- The mask as numbers, as the attention region finds it. -/
theorem V2_mask (hμ : ∀ b s, (m ((c : Thread nD τ).loc main_arg1) : IVec S16x2048x1 1) (ix3 b s (0 : Fin 1)) = if μ b s = true then 1#1 else 0#1)
    (b : Fin 16) (s : Fin 2048) :
    (Run.V2 (F := Ideal) m ρ c main_v0 : FVec Ideal S16x2048x1 .f32) (ix3 b s (0 : Fin 1)) = ((Cert.Spec.keep μ b s : ℝ) : EReal) := by
  have e : Run.V2 (F := Ideal) m ρ c main_v0 = Run.W1 (F := Ideal) m ρ c (Proc.devRef .tc main_v0) :=
    Run.W2_of_ne m ρ c main_v0 (by decide)
  rw [e, W1_mask, hμ]
  unfold Cert.Spec.keep
  cases μ b s <;> simp [FloatOps.uitofp]

/-- The normalised rows, as the attention region finds them. -/
theorem V2_h (hx : ∀ b s d, (m ((c : Thread nD τ).loc main_arg0) : FVec Ideal S16x2048x256 .f32) (ix3 b s d) = ((xr b s d : ℝ) : EReal))
    (hg : ∀ d, (m ((c : Thread nD τ).loc main_arg2) : FVec Ideal S256 .f32) (ix1 d) = ((gr d : ℝ) : EReal))
    (hβ : ∀ d, (m ((c : Thread nD τ).loc main_arg3) : FVec Ideal S256 .f32) (ix1 d) = ((βr d : ℝ) : EReal))
    (b : Fin 16) (s : Fin 2048) (d : Fin 256) :
    (Run.V2 (F := Ideal) m ρ c main_v1 : FVec Ideal S16x2048x256 .bf16) (ix3 b s d) = ((Cert.Spec.ln Cert.Consts.eps xr gr βr b s d : ℝ) : EReal) := by
  have e : Run.V2 (F := Ideal) m ρ c main_v1 = (Ln.dat (F := Ideal) (Run.V1 m ρ) c).arrAt 3 cfg0.N := Run.W2_arr m ρ c 3
  rw [e]
  refine LnValue.ln_array (Run.V1 m ρ) c xr gr βr (fun row d => Cert.KerLn.rowLn Cert.Consts.eps row gr βr d)
    (fun b s d => Cert.KerLn.ln_eq_rowLn _ _ _ _ b s d) ?_ ?_ ?_ (fun X Gv Bv xb hX hG hB b r d => Cert.KerLn.k0_pay1_apply X Gv Bv xb gr βr hX hG hB b r d) b s d
  · intro b s d; rw [show Run.V1 (F := Ideal) m ρ c main_arg0 = m ((c : Thread nD τ).loc main_arg0) from W1_of_arg m ρ c main_arg0 (by decide)]; exact hx b s d
  · intro d; rw [show Run.V1 (F := Ideal) m ρ c main_arg2 = m ((c : Thread nD τ).loc main_arg2) from W1_of_arg m ρ c main_arg2 (by decide)]; exact hg d
  · intro d; rw [show Run.V1 (F := Ideal) m ρ c main_arg3 = m ((c : Thread nD τ).loc main_arg3) from W1_of_arg m ρ c main_arg3 (by decide)]; exact hβ d

end Cert.KernelIdeal.Entry

end
-- ==== Proof.SpecTail.lean ====
/-
  The normalisation both programs end with, at one index: a row `s` of 256 extended reals is divided by its Euclidean
  length, `s d / √(0 + Σ_d' s d' · s d')` — the sum spelt as the host reduction spells it, its initial value the zero
  literal.  Both programs apply this same function to their row of sums, so it is never opened.
-/
import Idealize.ShloMosaic.PureOps.Ideal

noncomputable section

namespace Cert.Spec

open Idealize.ShloMosaic

/-- A row divided by its Euclidean length, at feature `d`. -/
def tailAt (row : Fin 256 → EReal) (d : Fin 256) : EReal :=
  Ideal.div (row d) (Ideal.sqrt (Ideal.ofBits .f32 0x00000000#32 + ∑ d' : Fin 256, row d' * row d'))

end Cert.Spec

end
-- ==== Proof.Ideal.Tail.lean ====
/-
  The kernel program's host tail, read at an index.  After the attention region the host adds the eight tiles' partial
  sums (the row of sums), squares them, adds the squares along each batch row, takes the square root and divides the row
  of sums by it.  `tail` is that chain as one function of the partial sums' array; at `(b, d)` it is the shared
  normalisation `Cert.Spec.tailAt` of batch row `b`'s row of sums (`tail_apply`), and the result buffer after the host
  tail is `tail` of the partial sums' array as the attention region leaves it (`W4_result`).
-/
import proofs.«128383_j11819749998990_2_alg».proof.Proof.Ideal.Run
import proofs.«128383_j11819749998990_2_alg».proof.Proof.SpecTail
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.ValueIdx
open Idealize.ShloMosaic.TcCoe Idealize.ShloMosaic.Tactic Idealize.SL.Sem

/-! ## The host tail's stages, as functions of the partial sums' array -/

/-- The tiles' partial sums added: the row of sums. -/
def sums (P : FVec Ideal S8x16x256 .f32) : FVec Ideal S16x256 .f32 :=
  Host.reduceAdd (F := Ideal) P (constant (F := Ideal) S_ .f32 0x00000000#32) reducesTo_S8x16x256_S16x256_d0 h_S_

/-- Each batch row's sum of squares. -/
def sqsum (P : FVec Ideal S8x16x256 .f32) : FVec Ideal S16 .f32 :=
  Host.reduceAdd (F := Ideal) (mulf (sums P) (sums P)) (constant (F := Ideal) S_ .f32 0x00000000#32)
    reducesTo_S16x256_S16_d1 h_S_

/-- Each batch row's Euclidean length, as a column. -/
def norm (P : FVec Ideal S8x16x256 .f32) : FVec Ideal S16x1 .f32 :=
  @Host.sqrt Ideal _ S16x1 .f32 (broadcastInDim S16x1 ![0] bcast_S16_S16x1_0 (sqsum P))

/-- The whole tail: each row of sums divided by its Euclidean length. -/
def tail (P : FVec Ideal S8x16x256 .f32) : FVec Ideal S16x256 .f32 :=
  @Host.divf Ideal _ S16x256 .f32 (sums P) (broadcastInDim S16x256 ![0, 1] bcast_S16x1_S16x256_0_1 (norm P))

/-- The row of sums at `(b, d)`: the zero literal plus the sum over the eight tiles. -/
theorem sums_apply (P : FVec Ideal S8x16x256 .f32) (b : Fin 16) (d : Fin 256) :
    sums P (ix2 b d) = Ideal.ofBits .f32 0x00000000#32 + ∑ t : Fin 8, P (ix3 t b d) := by
  unfold sums
  simp only [Host.reduceAdd, Ideal.hostReduceAdd_def]
  rw [Ideal.hostReduceAdd_single reducesTo_S8x16x256_S16x256_d0 (by decide)]
  refine congrArg₂ (· + ·) rfl (Finset.sum_congr rfl fun t _ => ?_)
  exact congrArg P (funext fun a => Fin.ext (by match a with | ⟨0, _⟩ => rfl | ⟨1, _⟩ => rfl | ⟨2, _⟩ => rfl))

/-- A batch row's sum of squares: the zero literal plus the sum over the features of the squared sums. -/
theorem sqsum_apply (P : FVec Ideal S8x16x256 .f32) (b : Fin 16) :
    sqsum P (ix1 b) = Ideal.ofBits .f32 0x00000000#32 + ∑ d : Fin 256, sums P (ix2 b d) * sums P (ix2 b d) := by
  unfold sqsum
  generalize sums P = y
  simp only [Host.reduceAdd, Ideal.hostReduceAdd_def]
  rw [Ideal.hostReduceAdd_single reducesTo_S16x256_S16_d1 (by decide)]
  refine congrArg₂ (· + ·) rfl (Finset.sum_congr rfl fun d _ => ?_)
  rw [mulf_apply]
  exact congrArg (fun i => y i * y i) (funext fun a => Fin.ext (by match a with | ⟨0, _⟩ => rfl | ⟨1, _⟩ => rfl))

/-- The length column at `(b, 0)`: the square root of the row's sum of squares. -/
theorem norm_apply (P : FVec Ideal S8x16x256 .f32) (b : Fin 16) (u : Fin 1) :
    norm P (ix2 b u) = Ideal.sqrt (sqsum P (ix1 b)) := by
  unfold norm
  generalize sqsum P = y
  show FloatOps.hostUnary .sqrt (broadcastInDim S16x1 ![0] bcast_S16_S16x1_0 y (ix2 b u)) = _
  rw [broadcastInDim_apply _ bcast_S16_S16x1_0 y (ix2 b u) (ix1 b) (fun a => match a with
    | ⟨0, _⟩ => by show b.val = if (16 : Nat) = 1 then 0 else b.val; rw [if_neg (by decide)])]
  rfl

/-- The tail at `(b, d)`: the row of sums of batch row `b` divided at `d` by its Euclidean length. -/
theorem tail_apply (P : FVec Ideal S8x16x256 .f32) (b : Fin 16) (d : Fin 256) :
    tail P (ix2 b d)
      = Cert.Spec.tailAt (fun d' => Ideal.ofBits .f32 0x00000000#32 + ∑ t : Fin 8, P (ix3 t b d')) d := by
  unfold tail
  generalize hn : norm P = n
  show FloatOps.hostDivf (sums P (ix2 b d)) (broadcastInDim S16x256 ![0, 1] bcast_S16x1_S16x256_0_1 n (ix2 b d)) = _
  rw [broadcastInDim_apply _ bcast_S16x1_S16x256_0_1 n (ix2 b d) (ix2 b (0 : Fin 1)) (fun a => match a with
    | ⟨0, _⟩ => by show b.val = if (16 : Nat) = 1 then 0 else b.val; rw [if_neg (by decide)]
    | ⟨1, _⟩ => by show 0 = if (1 : Nat) = 1 then 0 else d.val; rw [if_pos rfl])]
  subst hn
  rw [norm_apply, sqsum_apply, Ideal.hostDivf_def]
  simp only [sums_apply]
  rfl

/-! ## The result buffer after the host tail -/

variable (m : (ℓ : Loc nD τ sig) → Buf (Elt Ideal) ℓ) (ρ : Dev nD → PrngReg)

/-- The result after the host tail is the tail of the partial sums' array as the attention region leaves it. -/
theorem W4_result (c : Dev nD) :
    (Run.W4 (F := Ideal) m ρ c (Proc.devRef .tc main_v9) : FVec Ideal S16x256 .f32)
      = tail (Run.W3 (F := Ideal) m ρ c (Proc.devRef .tc main_v2) : FVec Ideal S8x16x256 .f32) := by
  show StableHlo.after hostOps2 _ (Proc.devRef .tc main_v9) = _
  after_results
  generalize Run.W3 (F := Ideal) m ρ c (Proc.devRef .tc main_v2) = P
  rfl

end Cert.KernelIdeal.Tail

end
-- ==== Proof.KerStep.lean ====
/-
  The attention kernel's arithmetic as a state machine over its payload functions, at any float instance.

  The body carries three buffers across the key tiles of a query tile: the running row maximum `m`, the running
  denominator `l` and the running weighted sum `acc`.  At the first key tile they are reset (`init`: minus infinity,
  zero, zero); every key tile advances them (`step`: the new maximum, the rescaled denominator plus this tile's weights,
  the rescaled weighted sum plus this tile's weights times its rows); after the last key tile the query tile's partial
  sum is formed from them (`fin`: weighted sum over denominator, plus the input rows, times the mask, summed over the
  tile's rows).  `runTo j` is the state after key tiles 0 … j.
-/
import proofs.«128383_j11819749998990_2_alg».proof.Proof.Gen.KernelIdeal.Skeleton

noncomputable section

namespace Cert.KerStep

open Cert.KernelIdeal Cert.KernelIdeal.Gen Idealize.ShloMosaic

variable {F : FTy → Type} [FloatOps F]

/-- The carried state: running maximum, running denominator, running weighted sum. -/
abbrev St (F : FTy → Type) : Type := Vec F S16x256x1 .f32 × Vec F S16x256x1 .f32 × Vec F S16x256x256 .f32

/-- The state the first key tile starts from. -/
def init : St F := (k1_pay5, k1_pay6, k1_pay7)

/-- One key tile: `hq`, `mq` the query tile's normalised rows and mask, `hk`, `mk` the key tile's. -/
def step (hq hk : Vec F S16x256x256 .bf16) (mq mk : Vec F S16x256x1 .f32) (s : St F) : St F :=
  (k1_pay3 (k1_pay10 hq hk mq mk s.1),
   k1_pay1 (k1_pay11 hq hk mq mk s.1) (k1_pay12 hq hk mq mk s.1 s.1) s.2.1,
   k1_pay2 (k1_pay8 hk) (k1_pay11 hq hk mq mk s.1) (k1_pay12 hq hk mq mk s.1 s.1) s.2.2)

/-- The query tile's partial sum from the final state, the input rows `xq` and the mask `mq`. -/
def fin (s : St F) (xq : Vec F S16x256x256 .f32) (mq : Vec F S16x256x1 .f32) : Vec F S1x16x256 .f32 :=
  k1_pay4 s.2.2 s.2.1 xq mq

/-- The state after key tiles 0 … j (the key tile's blocks given as functions of its number). -/
def runTo (hq : Vec F S16x256x256 .bf16) (mq : Vec F S16x256x1 .f32)
    (hk : ℕ → Vec F S16x256x256 .bf16) (mk : ℕ → Vec F S16x256x1 .f32) : ℕ → St F
  | 0 => step hq (hk 0) mq (mk 0) init
  | j + 1 => step hq (hk (j + 1)) mq (mk (j + 1)) (runTo hq mq hk mk j)

end Cert.KerStep

end
-- ==== Proof.Ideal.FlashValue.lean ====
/-
  The attention region's values, read off its frame.

  (1) Each of the body's three cases leaves, in the three carried buffers, the state machine's step on the point's
  blocks: every carried buffer's last store covers it, so what the buffer holds is that store's payload; the payload's
  loads read whole buffers (the inputs at their blocks, the carried buffers at what the point before left — at a first
  key tile at what the reset just stored). At the last key tile the output block's one store is the partial sum formed
  from the advanced state.
  (2) The output array: the output window is written back exactly at the last key tile of each query tile's sweep, and
  the block written there is row `qi` of the array, so row `qi` ends at what the output buffer held after position
  `8·qi + 7`.
-/
import proofs.«128383_j11819749998990_2_alg».proof.Proof.Ideal.FlashRegion
import proofs.«128383_j11819749998990_2_alg».proof.Proof.KerStep
import Idealize.ShloMosaic.Lib.Pipeline.Value
import Idealize.ShloMosaic.Lib.ValueIdx
import Idealize.ShloMosaic.Lib.Tactic

set_option maxRecDepth 16384

noncomputable section

namespace Cert.KernelIdeal.FlValue

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl

/-- A first key tile resets the carried state and advances it by one step on the point's blocks. -/
theorem stA_eq (c : Dev nD) (t : Fin cfg1.N) (hc0 : Fl.condFirst (grid1.coords t)) (hc1 : ¬Fl.condLast (grid1.coords t)) :
    (Fl.stA V c t hc0 hc1).2 = Cert.KerStep.step (Fl.iblk V c 0 t) (Fl.iblk V c 1 t) (Fl.iblk V c 3 t) (Fl.iblk V c 4 t) Cert.KerStep.init := by
  unfold Fl.stA Cert.KerStep.step Cert.KerStep.init
  dsimp only
  refine Prod.ext ?_ (Prod.ext ?_ ?_)
  · dsimp only
    rw [View.read_writes_eq_canon _ _ _ (Fl.covA0 _ _ _ _ _ _ _ _ _ _ _ _ _ _ _ _ _ _ _ _ _ _ _ _ _ _ _)]
    unfold Fl.runA
    dsimp only
    try sl_unfold_words
    rw [View.canon_cons_unit_zero hz3]
    simp only [View.readCov_unit_zero (S := S16x256x1) _ hz3, View.readCov_unit_zero (S := S16x256x256) _ hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covA1 _ _ _ _ _ _ _ _ _ _ _ _ _ _ _ _ _ _ _ _ _ _ _ _ _ _ _)]
    unfold Fl.runA
    dsimp only
    try sl_unfold_words
    rw [View.canon_cons_unit_zero hz3]
    simp only [View.readCov_unit_zero (S := S16x256x1) _ hz3, View.readCov_unit_zero (S := S16x256x256) _ hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covA2 _ _ _ _ _ _ _ _ _ _ _ _ _ _ _ _ _ _ _ _ _ _ _ _ _ _ _)]
    unfold Fl.runA
    dsimp only
    try sl_unfold_words
    rw [View.canon_cons_unit_zero hz3]
    simp only [View.readCov_unit_zero (S := S16x256x1) _ hz3, View.readCov_unit_zero (S := S16x256x256) _ hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]

/-- A middle key tile advances the carried state by one step on the point's blocks. -/
theorem stB_eq (c : Dev nD) (t : Fin cfg1.N) (hc0 : ¬Fl.condFirst (grid1.coords t)) (hc1 : ¬Fl.condLast (grid1.coords t)) (s : Fl.St F) :
    (Fl.stB V c t hc0 hc1 s).2 = Cert.KerStep.step (Fl.iblk V c 0 t) (Fl.iblk V c 1 t) (Fl.iblk V c 3 t) (Fl.iblk V c 4 t) s.2 := by
  unfold Fl.stB Cert.KerStep.step
  dsimp only
  refine Prod.ext ?_ (Prod.ext ?_ ?_)
  · dsimp only
    rw [View.read_writes_eq_canon _ _ _ (Fl.covB0 _ _ _ _ _ _ _ _ _ _ _ _ _ _ _ _ _ _ _ _ _ _ _ _ _ _ _ _ _ _)]
    unfold Fl.runB
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covB1 _ _ _ _ _ _ _ _ _ _ _ _ _ _ _ _ _ _ _ _ _ _ _ _ _ _ _ _ _ _)]
    unfold Fl.runB
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covB2 _ _ _ _ _ _ _ _ _ _ _ _ _ _ _ _ _ _ _ _ _ _ _ _ _ _ _ _ _ _)]
    unfold Fl.runB
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]

/-- The last key tile advances the carried state once more and stores the query tile's partial sum formed from it. -/
theorem stC_eq (c : Dev nD) (t : Fin cfg1.N) (hc0 : ¬Fl.condFirst (grid1.coords t)) (hc1 : Fl.condLast (grid1.coords t)) (s : Fl.St F) :
    (Fl.stC V c t hc0 hc1 s).2 = Cert.KerStep.step (Fl.iblk V c 0 t) (Fl.iblk V c 1 t) (Fl.iblk V c 3 t) (Fl.iblk V c 4 t) s.2
    ∧ (Fl.stC V c t hc0 hc1 s).1 = Cert.KerStep.fin (Cert.KerStep.step (Fl.iblk V c 0 t) (Fl.iblk V c 1 t) (Fl.iblk V c 3 t) (Fl.iblk V c 4 t) s.2) (Fl.iblk V c 2 t) (Fl.iblk V c 3 t) := by
  unfold Fl.stC Cert.KerStep.fin Cert.KerStep.step
  dsimp only
  refine ⟨Prod.ext ?_ (Prod.ext ?_ ?_), ?_⟩
  · dsimp only
    rw [View.read_writes_eq_canon _ _ _ (Fl.covC0 _ _ _ _ _ _ _ _ _ _ _ _ _ _ _ _ _ _ _ _ _ _ _ _ _ _ _ _ _ _)]
    unfold Fl.runC
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covC1 _ _ _ _ _ _ _ _ _ _ _ _ _ _ _ _ _ _ _ _ _ _ _ _ _ _ _ _ _ _)]
    unfold Fl.runC
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · dsimp only
    rw [View.read_writes_eq_canon _ _ _ (Fl.covC2 _ _ _ _ _ _ _ _ _ _ _ _ _ _ _ _ _ _ _ _ _ _ _ _ _ _ _ _ _ _)]
    unfold Fl.runC
    dsimp only
    try sl_unfold_words
    rw [View.canon_unit_zero hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]
  · rw [View.read_writes_eq_canon _ _ _ (Fl.covC5 _ _ _ _ _ _ _ _ _ _ _ _ _ _ _ _ _ _ _ _ _ _ _ _ _ _ _ _ _ _)]
    unfold Fl.runC
    dsimp only
    try sl_unfold_words
    rw [View.canon_unit_zero hz3, View.readCov_unit_zero (S := S16x256x256) _ hz3, View.readCov_unit_zero (S := S16x256x1) _ hz3]
    simp only [View.readAt_eq_ld, (Fl.hs0 t).read_unread, (Fl.hs1 t).read_unread, (Fl.hs2 t).read_unread, (Fl.hs3 t).read_unread, (Fl.hs4 t).read_unread,
      (Memref.isWhole_whole _).read_unread, View.ld_unit_zero (S := S16x256x256) hz3, View.ld_unit_zero (S := S16x256x1) hz3]

/-! ## From blocks to the array: the output window -/

/-- The carried recursion does not depend on how its position is written. -/
theorem outsAt_congr (c : Dev nD) {n n' : ℕ} (e : n = n') (hn : n < cfg1.N) (hn' : n' < cfg1.N) :
    Fl.outsAt V c n hn = Fl.outsAt V c n' hn' := by
  subst e; rfl

/-- The last key tile of query tile `q`'s sweep is a position of the grid. -/
theorem lastPos_lt (q : Fin 8) : q.val * 8 + 7 < cfg1.N := by
  have hN : cfg1.N = 64 := N_1
  have := q.isLt
  omega

/-- The whole output array: row `qi` is what the output buffer held after the last key tile of query tile `qi`. -/
def outArr (c : Dev nD) : FVec F S8x16x256 .f32 :=
  fun i => (Fl.outsAt V c ((i 0).val * 8 + 7) (lastPos_lt (i 0))).1 (ix3 (0 : Fin 1) (i 1) (i 2))

/-- The output window's printed index map over the grid: block index (t / 8, 0, 0). -/
theorem idx_out : ∀ t : Fin cfg1.N,
    win1_5.index t (0 : Fin 3) = t.val / 8 ∧ win1_5.index t (1 : Fin 3) = 0 ∧ win1_5.index t (2 : Fin 3) = 0 :=
  (by decide +kernel : ∀ t : Fin grid1.N, _)

/-- At a last key tile and an index of the output block: the buffer's content is the array function at the index's
    place in the array. -/
theorem point_out (c : Dev nD) (t : Fin cfg1.N) (h7 : t.val % 8 = 7) (j : S1x16x256.Idx) :
    (Fl.outsAt V c t.val t.isLt).1 j = outArr V c (((cfg1.win 5).blk t).view.emb j) := by
  obtain ⟨a, b, d, rfl⟩ : ∃ (a : Fin 1) (b : Fin 16) (d : Fin 256), j = ix3 a b d := ⟨j 0, j 1, j 2, eq_ix3 j⟩
  obtain rfl : a = 0 := Subsingleton.elim _ _
  obtain ⟨e0, e1, e2⟩ := idx_out t
  have hN : cfg1.N = 64 := N_1
  have ht := t.isLt
  have hq : t.val / 8 < 8 := by omega
  have hemb : ((cfg1.win 5).blk t).view.emb (ix3 (0 : Fin 1) b d : S1x16x256.Idx) = (ix3 (⟨t.val / 8, hq⟩ : Fin 8) b d : S8x16x256.Idx) := by
    refine funext fun a => Fin.ext ?_
    match a with
    | ⟨0, _⟩ => show win1_5.index t (0 : Fin 3) * 1 + 1 * 0 = t.val / 8; omega
    | ⟨1, _⟩ => show win1_5.index t (1 : Fin 3) * 16 + 1 * b.val = b.val; omega
    | ⟨2, _⟩ => show win1_5.index t (2 : Fin 3) * 256 + 1 * d.val = d.val; omega
  rw [hemb]
  unfold outArr
  exact congrArg (fun s : Fl.St F => s.1 (ix3 (0 : Fin 1) b d)) (outsAt_congr V c (show t.val = t.val / 8 * 8 + 7 by omega) t.isLt _)

/-- What a last key tile writes back is its block of the array function. -/
theorem flushed_out (c : Dev nD) (t : Fin cfg1.N) (hf : (cfg1.win 5).flush t = true) :
    (Fl.dat V c).flushed 5 t = ((cfg1.win 5).blk t).view.read (Elt F) (outArr V c) := by
  have h7 : t.val % 8 = 7 := (flush1_5 t).mp hf
  show (cfg1.win 5).cut (grid1.coords t) ((Fl.dat V c).after 5 t) = _
  rw [Fl.after_out]
  funext j
  exact point_out V c t h7 j

/-- An index of the array is in point `t`'s block iff each coordinate is in the block's range on its axis. -/
theorem mem_blk_out (t : Fin cfg1.N) (i : S8x16x256.Idx) :
    i ∈ ((cfg1.win 5).blk t).view.set ↔ ∀ a : Fin 3, win1_5.index t a * S1x16x256.size a ≤ (i a).val
      ∧ (i a).val < win1_5.index t a * S1x16x256.size a + S1x16x256.size a := by
  show i ∈ ((View.whole main_v2).slice (win1_5.rect t)).set ↔ _
  rw [View.set_slice_whole, Rect.mem_set_unit]
  exact Iff.rfl

/-- Every index of the array is in the block written back at the last key tile of its row's query tile. -/
theorem cover_out (i : S8x16x256.Idx) :
    ∃ t : Fin cfg1.N, (cfg1.win 5).flush t = true ∧ i ∈ ((cfg1.win 5).blk t).view.set := by
  have hN : cfg1.N = 64 := N_1
  have hi0 : (i 0).val < 8 := (i 0).isLt
  have hi1 : (i 1).val < 16 := (i 1).isLt
  have hi2 : (i 2).val < 256 := (i 2).isLt
  have ht : (i 0).val * 8 + 7 < cfg1.N := by omega
  refine ⟨⟨(i 0).val * 8 + 7, ht⟩, (flush1_5 _).mpr (by show ((i 0).val * 8 + 7) % 8 = 7; omega), ?_⟩
  rw [mem_blk_out]
  obtain ⟨e0, e1, e2⟩ := idx_out ⟨(i 0).val * 8 + 7, ht⟩
  have e0' : win1_5.index ⟨(i 0).val * 8 + 7, ht⟩ (0 : Fin 3) = ((i 0).val * 8 + 7) / 8 := e0
  intro a
  match a with
  | ⟨0, _⟩ => show win1_5.index ⟨(i 0).val * 8 + 7, ht⟩ (0 : Fin 3) * 1 ≤ (i 0).val ∧ (i 0).val < win1_5.index ⟨(i 0).val * 8 + 7, ht⟩ (0 : Fin 3) * 1 + 1; omega
  | ⟨1, _⟩ => show win1_5.index ⟨(i 0).val * 8 + 7, ht⟩ (1 : Fin 3) * 16 ≤ (i 1).val ∧ (i 1).val < win1_5.index ⟨(i 0).val * 8 + 7, ht⟩ (1 : Fin 3) * 16 + 16; omega
  | ⟨2, _⟩ => show win1_5.index ⟨(i 0).val * 8 + 7, ht⟩ (2 : Fin 3) * 256 ≤ (i 2).val ∧ (i 2).val < win1_5.index ⟨(i 0).val * 8 + 7, ht⟩ (2 : Fin 3) * 256 + 256; omega

/-- The output array after the region, as one function. -/
theorem out_array_eq (c : Dev nD) : (Fl.dat V c).arrAt 5 cfg1.N = outArr V c :=
  (Fl.dat V c).arrAt_eq_of_cover 5 (outArr V c) (flushed_out V c) cover_out

/-- The output array after the region, index by index: row `qi` holds what the output buffer held after the last key
    tile of query tile `qi`. -/
theorem out_array (c : Dev nD) (qi : Fin 8) (b : Fin 16) (d : Fin 256) :
    ((Fl.dat V c).arrAt 5 cfg1.N : FVec F S8x16x256 .f32) (ix3 qi b d)
      = (Fl.outsAt V c (qi.val * 8 + 7) (by have := qi.isLt; have : cfg1.N = 64 := N_1; omega)).1 (ix3 (0 : Fin 1) b d) := by
  rw [out_array_eq V c]
  rfl

end Cert.KernelIdeal.FlValue

end
-- ==== Proof.Ideal.FlashBlocks.lean ====
/-
  The attention region's input blocks, read at an index.

  The grid has 8 query tiles × 8 key tiles, the key tile the fast axis: position `8·qi + ki`. The query-side windows
  (the normalised rows, the input rows, the mask as a number) sit at block index (0, qi, 0) and the key-side windows
  (the normalised rows, the mask) at (0, ki, 0), each block 256 sequence positions long; so row `r` of a block is row
  `256·tile + r` of its array.
-/
import proofs.«128383_j11819749998990_2_alg».proof.Proof.Ideal.FlashRegion
import proofs.«128383_j11819749998990_2_alg».proof.Proof.Spec
import Idealize.ShloMosaic.Lib.Pipeline.Value
import Idealize.ShloMosaic.Lib.ValueIdx

set_option maxRecDepth 16384

noncomputable section

namespace Cert.KernelIdeal.FlBlocks

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- Grid position of query tile `qi`, key tile `ki` (the key tile is the fast axis). -/
def pt (qi ki : Fin 8) : Fin cfg1.N :=
  ⟨qi.val * 8 + ki.val, by have := qi.isLt; have := ki.isLt; have : cfg1.N = 64 := N_1; omega⟩

theorem pt_val (qi ki : Fin 8) : (pt qi ki).val = qi.val * 8 + ki.val := rfl

theorem pt_div_mod (qi ki : Fin 8) : (pt qi ki).val / 8 = qi.val ∧ (pt qi ki).val % 8 = ki.val := by
  have := qi.isLt; have := ki.isLt
  rw [pt_val]; omega

/-- The printed index maps over the grid: the query-side windows (normalised rows, input rows, mask) sit at block
    index (0, t / 8, 0), the key-side windows (normalised rows, mask) at (0, t % 8, 0). -/
theorem idx_facts : ∀ t : Fin cfg1.N,
    (win1_0.index t (0 : Fin 3) = 0 ∧ win1_0.index t (1 : Fin 3) = t.val / 8 ∧ win1_0.index t (2 : Fin 3) = 0) ∧ (win1_1.index t (0 : Fin 3) = 0 ∧ win1_1.index t (1 : Fin 3) = t.val % 8 ∧ win1_1.index t (2 : Fin 3) = 0) ∧ (win1_2.index t (0 : Fin 3) = 0 ∧ win1_2.index t (1 : Fin 3) = t.val / 8 ∧ win1_2.index t (2 : Fin 3) = 0) ∧ (win1_3.index t (0 : Fin 3) = 0 ∧ win1_3.index t (1 : Fin 3) = t.val / 8 ∧ win1_3.index t (2 : Fin 3) = 0) ∧ (win1_4.index t (0 : Fin 3) = 0 ∧ win1_4.index t (1 : Fin 3) = t.val % 8 ∧ win1_4.index t (2 : Fin 3) = 0) :=
  (by decide +kernel : ∀ t : Fin grid1.N, _)

/-- The query side's normalised rows at a position: rows 256·qi … of the normalised array. -/
theorem iblk_hq (c : Dev nD) (qi ki : Fin 8) (b : Fin 16) (r : Fin 256) (e : Fin 256) :
    (Fl.iblk V c 0 (pt qi ki) : Vec F S16x256x256 .bf16) (ix3 b r e)
      = (V c main_v1 : FVec F S16x2048x256 .bf16) (ix3 b (Cert.Spec.pos qi r) e) := by
  obtain ⟨hq, hk⟩ := pt_div_mod qi ki
  obtain ⟨e0, e1, e2⟩ := (idx_facts (pt qi ki)).1
  unfold Fl.iblk
  rw [View.read_apply]
  show (V c main_v1 : FVec F S16x2048x256 .bf16) (((cfg1.win 0).blk (pt qi ki)).view.emb (ix3 b r e)) = _
  refine congrArg (V c main_v1 : FVec F S16x2048x256 .bf16) (funext fun a => Fin.ext ?_)
  match a with
  | ⟨0, _⟩ => show win1_0.index (pt qi ki) (0 : Fin 3) * 16 + 1 * b.val = b.val; omega
  | ⟨1, _⟩ => show win1_0.index (pt qi ki) (1 : Fin 3) * 256 + 1 * r.val = qi.val * 256 + r.val; omega
  | ⟨2, _⟩ => show win1_0.index (pt qi ki) (2 : Fin 3) * 256 + 1 * e.val = e.val; omega

/-- The key side's normalised rows at a position: rows 256·ki … of the normalised array. -/
theorem iblk_hk (c : Dev nD) (qi ki : Fin 8) (b : Fin 16) (r : Fin 256) (e : Fin 256) :
    (Fl.iblk V c 1 (pt qi ki) : Vec F S16x256x256 .bf16) (ix3 b r e)
      = (V c main_v1 : FVec F S16x2048x256 .bf16) (ix3 b (Cert.Spec.pos ki r) e) := by
  obtain ⟨hq, hk⟩ := pt_div_mod qi ki
  obtain ⟨e0, e1, e2⟩ := (idx_facts (pt qi ki)).2.1
  unfold Fl.iblk
  rw [View.read_apply]
  show (V c main_v1 : FVec F S16x2048x256 .bf16) (((cfg1.win 1).blk (pt qi ki)).view.emb (ix3 b r e)) = _
  refine congrArg (V c main_v1 : FVec F S16x2048x256 .bf16) (funext fun a => Fin.ext ?_)
  match a with
  | ⟨0, _⟩ => show win1_1.index (pt qi ki) (0 : Fin 3) * 16 + 1 * b.val = b.val; omega
  | ⟨1, _⟩ => show win1_1.index (pt qi ki) (1 : Fin 3) * 256 + 1 * r.val = ki.val * 256 + r.val; omega
  | ⟨2, _⟩ => show win1_1.index (pt qi ki) (2 : Fin 3) * 256 + 1 * e.val = e.val; omega

/-- The query tile's input rows at a position: rows 256·qi … of the input. -/
theorem iblk_xq (c : Dev nD) (qi ki : Fin 8) (b : Fin 16) (r : Fin 256) (e : Fin 256) :
    (Fl.iblk V c 2 (pt qi ki) : Vec F S16x256x256 .f32) (ix3 b r e)
      = (V c main_arg0 : FVec F S16x2048x256 .f32) (ix3 b (Cert.Spec.pos qi r) e) := by
  obtain ⟨hq, hk⟩ := pt_div_mod qi ki
  obtain ⟨e0, e1, e2⟩ := (idx_facts (pt qi ki)).2.2.1
  unfold Fl.iblk
  rw [View.read_apply]
  show (V c main_arg0 : FVec F S16x2048x256 .f32) (((cfg1.win 2).blk (pt qi ki)).view.emb (ix3 b r e)) = _
  refine congrArg (V c main_arg0 : FVec F S16x2048x256 .f32) (funext fun a => Fin.ext ?_)
  match a with
  | ⟨0, _⟩ => show win1_2.index (pt qi ki) (0 : Fin 3) * 16 + 1 * b.val = b.val; omega
  | ⟨1, _⟩ => show win1_2.index (pt qi ki) (1 : Fin 3) * 256 + 1 * r.val = qi.val * 256 + r.val; omega
  | ⟨2, _⟩ => show win1_2.index (pt qi ki) (2 : Fin 3) * 256 + 1 * e.val = e.val; omega

/-- The query tile's mask at a position: rows 256·qi … of the mask as a number. -/
theorem iblk_mq (c : Dev nD) (qi ki : Fin 8) (b : Fin 16) (r : Fin 256) :
    (Fl.iblk V c 3 (pt qi ki) : Vec F S16x256x1 .f32) (ix3 b r (0 : Fin 1))
      = (V c main_v0 : FVec F S16x2048x1 .f32) (ix3 b (Cert.Spec.pos qi r) (0 : Fin 1)) := by
  obtain ⟨hq, hk⟩ := pt_div_mod qi ki
  obtain ⟨e0, e1, e2⟩ := (idx_facts (pt qi ki)).2.2.2.1
  unfold Fl.iblk
  rw [View.read_apply]
  show (V c main_v0 : FVec F S16x2048x1 .f32) (((cfg1.win 3).blk (pt qi ki)).view.emb (ix3 b r (0 : Fin 1))) = _
  refine congrArg (V c main_v0 : FVec F S16x2048x1 .f32) (funext fun a => Fin.ext ?_)
  match a with
  | ⟨0, _⟩ => show win1_3.index (pt qi ki) (0 : Fin 3) * 16 + 1 * b.val = b.val; omega
  | ⟨1, _⟩ => show win1_3.index (pt qi ki) (1 : Fin 3) * 256 + 1 * r.val = qi.val * 256 + r.val; omega
  | ⟨2, _⟩ => show win1_3.index (pt qi ki) (2 : Fin 3) * 1 + 1 * 0 = 0; omega

/-- The key tile's mask at a position: rows 256·ki … of the mask as a number. -/
theorem iblk_mk (c : Dev nD) (qi ki : Fin 8) (b : Fin 16) (r : Fin 256) :
    (Fl.iblk V c 4 (pt qi ki) : Vec F S16x256x1 .f32) (ix3 b r (0 : Fin 1))
      = (V c main_v0 : FVec F S16x2048x1 .f32) (ix3 b (Cert.Spec.pos ki r) (0 : Fin 1)) := by
  obtain ⟨hq, hk⟩ := pt_div_mod qi ki
  obtain ⟨e0, e1, e2⟩ := (idx_facts (pt qi ki)).2.2.2.2
  unfold Fl.iblk
  rw [View.read_apply]
  show (V c main_v0 : FVec F S16x2048x1 .f32) (((cfg1.win 4).blk (pt qi ki)).view.emb (ix3 b r (0 : Fin 1))) = _
  refine congrArg (V c main_v0 : FVec F S16x2048x1 .f32) (funext fun a => Fin.ext ?_)
  match a with
  | ⟨0, _⟩ => show win1_4.index (pt qi ki) (0 : Fin 3) * 16 + 1 * b.val = b.val; omega
  | ⟨1, _⟩ => show win1_4.index (pt qi ki) (1 : Fin 3) * 256 + 1 * r.val = ki.val * 256 + r.val; omega
  | ⟨2, _⟩ => show win1_4.index (pt qi ki) (2 : Fin 3) * 1 + 1 * 0 = 0; omega

end Cert.KernelIdeal.FlBlocks

end
-- ==== Proof.KerReads.lean ====
/-
  The attention kernel's arithmetic read at an index, at the ideal instance (part one: the score tile, the running
  maximum, the starting state).

  The payload functions are compositions of pointwise operations, layout operations (casts that add or drop a unit axis,
  broadcasts along a unit axis, the exchange of a column for a row), reductions along one axis and contractions of two
  rank-3 arrays over one axis with a shared leading axis.  Each non-pointwise operation is first read at coordinates;
  the payloads then read through.  The float literals are rewritten to the extended reals they denote: zero, one half,
  one quarter, the masked-out constant, minus infinity (the lattice's bottom).
-/
import proofs.«128383_j11819749998990_2_alg».proof.Proof.KerStep
import proofs.«128383_j11819749998990_2_alg».proof.Proof.Consts
import proofs.«128383_j11819749998990_2_alg».proof.Proof.LibRank3Layout
import proofs.«128383_j11819749998990_2_alg».proof.Proof.LibMidAxisLayout
import Idealize.ShloMosaic.Lib.Pipeline.Value
import Idealize.ShloMosaic.Lib.ValueIdx
import Idealize.ShloMosaic.Lib.ValueLayout
import Idealize.ShloMosaic.PureOps.Ideal.Laws

noncomputable section

namespace Cert.KerReads

open Cert.KernelIdeal Cert.KernelIdeal.Gen Cert.KerStep Idealize.ShloMosaic Idealize.ShloMosaic.ValueIdx

/-! ## The non-pointwise operations of the payloads, read at coordinates -/

/-- A sum along the last axis, read at `(b, r)`: the sum over the last coordinate. -/
theorem sum_last (src : FVec Ideal S16x256x256 .f32) (b : Fin 16) (r : Fin 256) :
    multiReduction (F := Ideal) .add [2] S16x256 src 0x00000000#32 reduces_S16x256x256_S16x256 (.inl rfl) rfl (ix2 b r)
      = ∑ k : Fin 256, src (ix3 b r k) := by
  refine (Ideal.multiReduction_add_single src _ reduces_S16x256x256_S16x256 (.inl rfl) rfl (ix2 b r)).trans ?_
  refine Finset.sum_congr rfl fun k _ => ?_
  exact congrArg src (funext fun a => Fin.ext (by match a with | ⟨0, _⟩ => rfl | ⟨1, _⟩ => rfl | ⟨2, _⟩ => rfl))

/-- A sum along the middle axis, read at `(b, d)`: the sum over the middle coordinate. -/
theorem sum_mid (src : FVec Ideal S16x256x256 .f32) (b : Fin 16) (d : Fin 256) :
    multiReduction (F := Ideal) .add [1] S16x256 src 0x00000000#32 reduces_S16x256x256_S16x256_2 (.inl rfl) rfl (ix2 b d)
      = ∑ r : Fin 256, src (ix3 b r d) := by
  refine (Ideal.multiReduction_add_single src _ reduces_S16x256x256_S16x256_2 (.inl rfl) rfl (ix2 b d)).trans ?_
  refine Finset.sum_congr rfl fun k _ => ?_
  exact congrArg src (funext fun a => Fin.ext (by match a with | ⟨0, _⟩ => rfl | ⟨1, _⟩ => rfl | ⟨2, _⟩ => rfl))

/-- A maximum along the last axis, read at `(b, r)`: the fold of `max` over the last coordinate. -/
theorem max_last (src : FVec Ideal S16x256x256 .f32) (b : Fin 16) (r : Fin 256) :
    multiReduction (F := Ideal) .maximumf [2] S16x256 src 0xFF800000#32 reduces_S16x256x256_S16x256 (.inl rfl) rfl (ix2 b r)
      = (Finset.univ : Finset (Fin 256)).fold max (Ideal.ofBits .f32 0xFF800000#32) (fun k => src (ix3 b r k)) := by
  refine (Ideal.multiReduction_maximumf_single src _ reduces_S16x256x256_S16x256 (.inl rfl) rfl (ix2 b r)).trans ?_
  refine congrArg (Finset.fold max _ · _) (funext fun k => ?_)
  exact congrArg src (funext fun a => Fin.ext (by match a with | ⟨0, _⟩ => rfl | ⟨1, _⟩ => rfl | ⟨2, _⟩ => rfl))

/-! ## The two contractions, read at coordinates

For each, first the operand coordinates an output index and a contraction index name, axis by axis. -/

theorem lhs_rr_0 (i : S16x256x256.Idx) (q : dot_S16x256x256_S16x256x256_S16x256x256_2_2_1_1_0_0.contr.Idx) :
    (dot_S16x256x256_S16x256x256_S16x256x256_2_2_1_1_0_0.lhsIdx i q 0).val = (i 0).val := by
  unfold DotDims.lhsIdx
  rw [dif_pos (show (0 : Fin S16x256x256.rank) ∈ dot_S16x256x256_S16x256x256_S16x256x256_2_2_1_1_0_0.lhsBatch by decide)]
  rfl
theorem lhs_rr_1 (i : S16x256x256.Idx) (q : dot_S16x256x256_S16x256x256_S16x256x256_2_2_1_1_0_0.contr.Idx) :
    (dot_S16x256x256_S16x256x256_S16x256x256_2_2_1_1_0_0.lhsIdx i q 1).val = (i 1).val := by
  unfold DotDims.lhsIdx
  rw [dif_neg (show ¬(1 : Fin S16x256x256.rank) ∈ dot_S16x256x256_S16x256x256_S16x256x256_2_2_1_1_0_0.lhsBatch by decide),
    dif_pos (show (1 : Fin S16x256x256.rank) ∈ dot_S16x256x256_S16x256x256_S16x256x256_2_2_1_1_0_0.lhsNonContracting by decide)]
  rfl
theorem lhs_rr_2 (i : S16x256x256.Idx) (q : dot_S16x256x256_S16x256x256_S16x256x256_2_2_1_1_0_0.contr.Idx) :
    (dot_S16x256x256_S16x256x256_S16x256x256_2_2_1_1_0_0.lhsIdx i q 2).val = (q ⟨0, by decide⟩).val :=
  dot_S16x256x256_S16x256x256_S16x256x256_2_2_1_1_0_0.lhsIdx_val_of_single rfl i q
theorem rhs_rr_0 (i : S16x256x256.Idx) (q : dot_S16x256x256_S16x256x256_S16x256x256_2_2_1_1_0_0.contr.Idx) :
    (dot_S16x256x256_S16x256x256_S16x256x256_2_2_1_1_0_0.rhsIdx i q 0).val = (i 0).val := by
  unfold DotDims.rhsIdx
  rw [dif_pos (show (0 : Fin S16x256x256.rank) ∈ dot_S16x256x256_S16x256x256_S16x256x256_2_2_1_1_0_0.rhsBatch by decide)]
  rfl
theorem rhs_rr_1 (i : S16x256x256.Idx) (q : dot_S16x256x256_S16x256x256_S16x256x256_2_2_1_1_0_0.contr.Idx) :
    (dot_S16x256x256_S16x256x256_S16x256x256_2_2_1_1_0_0.rhsIdx i q 1).val = (i 2).val := by
  unfold DotDims.rhsIdx
  rw [dif_neg (show ¬(1 : Fin S16x256x256.rank) ∈ dot_S16x256x256_S16x256x256_S16x256x256_2_2_1_1_0_0.rhsBatch by decide),
    dif_pos (show (1 : Fin S16x256x256.rank) ∈ dot_S16x256x256_S16x256x256_S16x256x256_2_2_1_1_0_0.rhsNonContracting by decide)]
  rfl
theorem rhs_rr_2 (i : S16x256x256.Idx) (q : dot_S16x256x256_S16x256x256_S16x256x256_2_2_1_1_0_0.contr.Idx) :
    (dot_S16x256x256_S16x256x256_S16x256x256_2_2_1_1_0_0.rhsIdx i q 2).val = (q ⟨0, by decide⟩).val :=
  dot_S16x256x256_S16x256x256_S16x256x256_2_2_1_1_0_0.rhsIdx_val_of_single rfl i q

/-- Rows against rows: the element `(b, q, e)` of the product contracted over both operands' last axis is the sum over
    `c` of the left operand at `(b, q, c)` times the right operand at `(b, e, c)`. -/
theorem matmul_rows_rows {φ₁ φ₂ : FTy} (l : FVec Ideal S16x256x256 φ₁) (r : FVec Ideal S16x256x256 φ₂)
    (b : Fin 16) (q e : Fin 256) :
    matmul (F := Ideal) dot_S16x256x256_S16x256x256_S16x256x256_2_2_1_1_0_0 none l r (constant (F := Ideal) S16x256x256 .f32 0x00000000#32) (ix3 b q e)
      = ∑ c : Fin 256, l (ix3 b q c) * r (ix3 b e c) := by
  refine (Ideal.matmul_constant_zero_apply dot_S16x256x256_S16x256x256_S16x256x256_2_2_1_1_0_0 none l r (ix3 b q e)).trans ?_
  rw [← Equiv.sum_comp (contrEquiv1 dot_S16x256x256_S16x256x256_S16x256x256_2_2_1_1_0_0 256 rfl rfl).symm]
  refine Finset.sum_congr rfl fun c _ => ?_
  have hc := contrEquiv1_symm_val dot_S16x256x256_S16x256x256_S16x256x256_2_2_1_1_0_0 256 rfl rfl c
  have el : dot_S16x256x256_S16x256x256_S16x256x256_2_2_1_1_0_0.lhsIdx (ix3 b q e) ((contrEquiv1 dot_S16x256x256_S16x256x256_S16x256x256_2_2_1_1_0_0 256 rfl rfl).symm c) = ix3 b q c := funext fun a => Fin.ext (by
    match a with
    | ⟨0, _⟩ => exact lhs_rr_0 _ _
    | ⟨1, _⟩ => exact lhs_rr_1 _ _
    | ⟨2, _⟩ => exact (lhs_rr_2 _ _).trans hc)
  have er : dot_S16x256x256_S16x256x256_S16x256x256_2_2_1_1_0_0.rhsIdx (ix3 b q e) ((contrEquiv1 dot_S16x256x256_S16x256x256_S16x256x256_2_2_1_1_0_0 256 rfl rfl).symm c) = ix3 b e c := funext fun a => Fin.ext (by
    match a with
    | ⟨0, _⟩ => exact rhs_rr_0 _ _
    | ⟨1, _⟩ => exact rhs_rr_1 _ _
    | ⟨2, _⟩ => exact (rhs_rr_2 _ _).trans hc)
  rw [el, er]

theorem lhs_rc_0 (i : S16x256x256.Idx) (q : dot_S16x256x256_S16x256x256_S16x256x256_2_1_1_2_0_0.contr.Idx) :
    (dot_S16x256x256_S16x256x256_S16x256x256_2_1_1_2_0_0.lhsIdx i q 0).val = (i 0).val := by
  unfold DotDims.lhsIdx
  rw [dif_pos (show (0 : Fin S16x256x256.rank) ∈ dot_S16x256x256_S16x256x256_S16x256x256_2_1_1_2_0_0.lhsBatch by decide)]
  rfl
theorem lhs_rc_1 (i : S16x256x256.Idx) (q : dot_S16x256x256_S16x256x256_S16x256x256_2_1_1_2_0_0.contr.Idx) :
    (dot_S16x256x256_S16x256x256_S16x256x256_2_1_1_2_0_0.lhsIdx i q 1).val = (i 1).val := by
  unfold DotDims.lhsIdx
  rw [dif_neg (show ¬(1 : Fin S16x256x256.rank) ∈ dot_S16x256x256_S16x256x256_S16x256x256_2_1_1_2_0_0.lhsBatch by decide),
    dif_pos (show (1 : Fin S16x256x256.rank) ∈ dot_S16x256x256_S16x256x256_S16x256x256_2_1_1_2_0_0.lhsNonContracting by decide)]
  rfl
theorem lhs_rc_2 (i : S16x256x256.Idx) (q : dot_S16x256x256_S16x256x256_S16x256x256_2_1_1_2_0_0.contr.Idx) :
    (dot_S16x256x256_S16x256x256_S16x256x256_2_1_1_2_0_0.lhsIdx i q 2).val = (q ⟨0, by decide⟩).val :=
  dot_S16x256x256_S16x256x256_S16x256x256_2_1_1_2_0_0.lhsIdx_val_of_single rfl i q
theorem rhs_rc_0 (i : S16x256x256.Idx) (q : dot_S16x256x256_S16x256x256_S16x256x256_2_1_1_2_0_0.contr.Idx) :
    (dot_S16x256x256_S16x256x256_S16x256x256_2_1_1_2_0_0.rhsIdx i q 0).val = (i 0).val := by
  unfold DotDims.rhsIdx
  rw [dif_pos (show (0 : Fin S16x256x256.rank) ∈ dot_S16x256x256_S16x256x256_S16x256x256_2_1_1_2_0_0.rhsBatch by decide)]
  rfl
theorem rhs_rc_1 (i : S16x256x256.Idx) (q : dot_S16x256x256_S16x256x256_S16x256x256_2_1_1_2_0_0.contr.Idx) :
    (dot_S16x256x256_S16x256x256_S16x256x256_2_1_1_2_0_0.rhsIdx i q 1).val = (q ⟨0, by decide⟩).val :=
  dot_S16x256x256_S16x256x256_S16x256x256_2_1_1_2_0_0.rhsIdx_val_of_single rfl i q
theorem rhs_rc_2 (i : S16x256x256.Idx) (q : dot_S16x256x256_S16x256x256_S16x256x256_2_1_1_2_0_0.contr.Idx) :
    (dot_S16x256x256_S16x256x256_S16x256x256_2_1_1_2_0_0.rhsIdx i q 2).val = (i 2).val := by
  unfold DotDims.rhsIdx
  rw [dif_neg (show ¬(2 : Fin S16x256x256.rank) ∈ dot_S16x256x256_S16x256x256_S16x256x256_2_1_1_2_0_0.rhsBatch by decide),
    dif_pos (show (2 : Fin S16x256x256.rank) ∈ dot_S16x256x256_S16x256x256_S16x256x256_2_1_1_2_0_0.rhsNonContracting by decide)]
  rfl

/-- Rows against columns: the element `(b, q, e)` of the product contracted over the left operand's last axis and the
    right operand's middle axis is the sum over `c` of the left operand at `(b, q, c)` times the right at `(b, c, e)`. -/
theorem matmul_rows_cols {φ₁ φ₂ : FTy} (l : FVec Ideal S16x256x256 φ₁) (r : FVec Ideal S16x256x256 φ₂)
    (b : Fin 16) (q e : Fin 256) :
    matmul (F := Ideal) dot_S16x256x256_S16x256x256_S16x256x256_2_1_1_2_0_0 none l r (constant (F := Ideal) S16x256x256 .f32 0x00000000#32) (ix3 b q e)
      = ∑ c : Fin 256, l (ix3 b q c) * r (ix3 b c e) := by
  refine (Ideal.matmul_constant_zero_apply dot_S16x256x256_S16x256x256_S16x256x256_2_1_1_2_0_0 none l r (ix3 b q e)).trans ?_
  rw [← Equiv.sum_comp (contrEquiv1 dot_S16x256x256_S16x256x256_S16x256x256_2_1_1_2_0_0 256 rfl rfl).symm]
  refine Finset.sum_congr rfl fun c _ => ?_
  have hc := contrEquiv1_symm_val dot_S16x256x256_S16x256x256_S16x256x256_2_1_1_2_0_0 256 rfl rfl c
  have el : dot_S16x256x256_S16x256x256_S16x256x256_2_1_1_2_0_0.lhsIdx (ix3 b q e) ((contrEquiv1 dot_S16x256x256_S16x256x256_S16x256x256_2_1_1_2_0_0 256 rfl rfl).symm c) = ix3 b q c := funext fun a => Fin.ext (by
    match a with
    | ⟨0, _⟩ => exact lhs_rc_0 _ _
    | ⟨1, _⟩ => exact lhs_rc_1 _ _
    | ⟨2, _⟩ => exact (lhs_rc_2 _ _).trans hc)
  have er : dot_S16x256x256_S16x256x256_S16x256x256_2_1_1_2_0_0.rhsIdx (ix3 b q e) ((contrEquiv1 dot_S16x256x256_S16x256x256_S16x256x256_2_1_1_2_0_0 256 rfl rfl).symm c) = ix3 b c e := funext fun a => Fin.ext (by
    match a with
    | ⟨0, _⟩ => exact rhs_rc_0 _ _
    | ⟨1, _⟩ => exact (rhs_rc_1 _ _).trans hc
    | ⟨2, _⟩ => exact rhs_rc_2 _ _)
  rw [el, er]

/-! ## The layout operations, read at coordinates -/

/-- A column `[16, 256, 1]` exchanged to a row `[16, 1, 256]` reads, at `(b, 0, k)`, the column at `(b, k, 0)`. -/
theorem transpose_col_row {α : Type} (v : S16x256x1.Idx → α) (b : Fin 16) (u : Fin 1) (k : Fin 256) :
    transpose S16x1x256 [0, 2, 1] v transposes_S16x256x1_p0_2_1_S16x1x256 (ix3 b u k) = v (ix3 b k u) :=
  transpose_apply [0, 2, 1] v transposes_S16x256x1_p0_2_1_S16x1x256 (ix3 b u k) (ix3 b k u) fun a => by
    match a with
    | ⟨0, _⟩ => rfl
    | ⟨1, _⟩ => rfl
    | ⟨2, _⟩ => rfl

/-- A `[16, 256]` array under a leading unit axis reads, at `(0, b, d)`, the array at `(b, d)`. -/
theorem shapeCast_lead {α : Type} (v : S16x256.Idx → α) (u : Fin 1) (b : Fin 16) (d : Fin 256) :
    shapeCast S1x16x256 v shapeCasts_S16x256_S1x16x256 (ix3 u b d) = v (ix2 b d) :=
  shapeCast_apply v shapeCasts_S16x256_S1x16x256 _ _ (by
    have hu : u.val = 0 := by omega
    rw [Shape.rowMajor_val_three, Shape.rowMajor_val_two]
    show b.val * 256 + d.val = (u.val * 16 + b.val) * 256 + d.val
    rw [hu, Nat.zero_mul, Nat.zero_add])

/-! ## The tile's masked score -/

variable (hq hk : Vec Ideal S16x256x256 .bf16) (mq mk : Vec Ideal S16x256x1 .f32)

/-- The masked score of row `r` of the query tile against row `k` of the key tile: where the product of the two mask
    numbers exceeds one half, the sum over the features of the products of the two normalised rows, times one quarter;
    elsewhere the masked-out constant. -/
def sc (b : Fin 16) (r k : Fin 256) : EReal :=
  if ((1 / 2 : ℝ) : EReal) < mq (ix3 b r (0 : Fin 1)) * mk (ix3 b k (0 : Fin 1)) then
    (∑ d : Fin 256, hq (ix3 b r d) * hk (ix3 b k d)) * ((1 / 4 : ℝ) : EReal)
  else ((Cert.Consts.negBig : ℝ) : EReal)

/-- A select on a decided comparison's bit is the `if` on the comparison. -/
theorem ite_ofBool {α : Type} (p : Prop) [Decidable p] (a c : α) :
    Scalar.select (BitVec.ofBool (decide p)) a c = if p then a else c := by
  unfold Scalar.select
  by_cases h : p <;> simp [h]

/-- The select of the kernel's score tile, read at `(b, r, k)`. -/
theorem pay9_apply (b : Fin 16) (r k : Fin 256) :
    k1_pay9 (F := Ideal) hq hk mq mk (ix3 b r k) = sc hq hk mq mk b r k := by
  unfold k1_pay9 k1_pay8
  simp only [shapeCast_self]
  rw [select_apply, cmpf_apply, mulf_apply, mulf_apply, broadcast_apply, broadcast_apply, broadcast_apply,
    Cert.LibRank3Layout.broadcastTo_ab1_abc_apply, Cert.LibMidAxisLayout.broadcastTo_a1c_abc_apply, transpose_col_row,
    matmul_rows_rows, Ideal.ofBits_def, Ideal.ofBits_def, Ideal.ofBits_def, Cert.Consts.ofBits_half,
    Cert.Consts.ofBits_quarter, Cert.Consts.ofBits_negBig, Ideal.cmpf_def]
  exact ite_ofBool _ _ _

/-! ## The running maximum -/

/-- The largest masked score of row `r` over the key tile (a fold of `max` from minus infinity). -/
def rowTop (b : Fin 16) (r : Fin 256) : EReal :=
  (Finset.univ : Finset (Fin 256)).fold max (⊥ : EReal) (fun k => sc hq hk mq mk b r k)

/-- The running maximum after the key tile: the larger of the carried one and the tile's. -/
def mNew (m : Vec Ideal S16x256x1 .f32) (b : Fin 16) (r : Fin 256) : EReal :=
  max (m (ix3 b r (0 : Fin 1))) (rowTop hq hk mq mk b r)

/-- The new maximum's payload, read at `(b, r, 0)`. -/
theorem pay10_apply (m : Vec Ideal S16x256x1 .f32) (b : Fin 16) (r : Fin 256) :
    k1_pay10 (F := Ideal) hq hk mq mk m (ix3 b r (0 : Fin 1)) = mNew hq hk mq mk m b r := by
  unfold k1_pay10
  dsimp only
  rw [maximumf_apply, Cert.LibRank3Layout.shapeCast_ab_ab1_apply, max_last]
  simp only [pay9_apply]
  rw [Cert.Consts.ofBits_negInf]
  rfl

/-- The stored maximum is the payload itself. -/
theorem pay3_eq (v : FVec Ideal S16x256x1 .f32) : k1_pay3 (F := Ideal) v = v := by
  unfold k1_pay3
  exact shapeCast_self v _

/-- THE NEW RUNNING MAXIMUM, read at `(b, r, 0)`. -/
theorem step_max (s : St Ideal) (b : Fin 16) (r : Fin 256) :
    (step (F := Ideal) hq hk mq mk s).1 (ix3 b r (0 : Fin 1)) = mNew hq hk mq mk s.1 b r := by
  show k1_pay3 (F := Ideal) (k1_pay10 hq hk mq mk s.1) (ix3 b r (0 : Fin 1)) = _
  rw [pay3_eq, pay10_apply]

/-! ## The state the first key tile starts from -/

/-- The running maximum starts at minus infinity. -/
theorem init_max (b : Fin 16) (r : Fin 256) : (init (F := Ideal)).1 (ix3 b r (0 : Fin 1)) = (⊥ : EReal) := by
  show k1_pay5 (F := Ideal) (ix3 b r (0 : Fin 1)) = _
  unfold k1_pay5
  rw [shapeCast_self, broadcast_apply]
  exact Cert.Consts.ofBits_negInf

/-- The running denominator starts at zero. -/
theorem init_den (b : Fin 16) (r : Fin 256) : (init (F := Ideal)).2.1 (ix3 b r (0 : Fin 1)) = (0 : EReal) := by
  show k1_pay6 (F := Ideal) (ix3 b r (0 : Fin 1)) = _
  unfold k1_pay6
  rw [shapeCast_self, broadcast_apply]
  exact Cert.Consts.ofBits_zero

/-- The running weighted sum starts at zero. -/
theorem init_acc (b : Fin 16) (r d : Fin 256) : (init (F := Ideal)).2.2 (ix3 b r d) = (0 : EReal) := by
  show k1_pay7 (F := Ideal) (ix3 b r d) = _
  unfold k1_pay7
  rw [shapeCast_self, broadcast_apply]
  exact Cert.Consts.ofBits_zero

end Cert.KerReads

end
-- ==== Proof.KerReadsSums.lean ====
/-
  The attention kernel's arithmetic read at an index, at the ideal instance (part two: the running denominator, the
  running weighted sum, the query tile's partial sum).

  With `M` the new running maximum of a row, the key tile's weights are `exp (score - M)` and the carried sums are
  rescaled by `exp (old maximum - M)`: the denominator gains the weights' sum, the weighted sum gains the weights times
  the key tile's rows.  After the last key tile the query tile's partial sum is, summed over its rows, the input row plus
  the weighted sum over the denominator, times the row's mask number.
-/
import proofs.«128383_j11819749998990_2_alg».proof.Proof.KerReads

noncomputable section

namespace Cert.KerReads

open Cert.KernelIdeal Cert.KernelIdeal.Gen Cert.KerStep Idealize.ShloMosaic Idealize.ShloMosaic.ValueIdx

/-- An exponential at an index is the exponential of the element. -/
theorem exp_apply {s : Shape} {φ : FTy} (v : FVec Ideal s φ) (i : s.Idx) : exp v i = Ideal.exp (v i) := rfl

variable (hq hk : Vec Ideal S16x256x256 .bf16) (mq mk : Vec Ideal S16x256x1 .f32)

/-! ## The payloads, read at coordinates -/

/-- The key tile's weights: the exponential of the score minus the new maximum. -/
theorem pay11_apply (m : Vec Ideal S16x256x1 .f32) (b : Fin 16) (r k : Fin 256) :
    k1_pay11 (F := Ideal) hq hk mq mk m (ix3 b r k)
      = Ideal.exp (sc hq hk mq mk b r k - mNew hq hk mq mk m b r) := by
  unfold k1_pay11
  rw [exp_apply, subf_apply, Cert.LibRank3Layout.broadcastTo_ab1_abc_apply, pay9_apply, pay10_apply]

/-- The rescaling factor: the exponential of a carried maximum minus the new maximum. -/
theorem pay12_apply (m m' : Vec Ideal S16x256x1 .f32) (b : Fin 16) (r : Fin 256) :
    k1_pay12 (F := Ideal) hq hk mq mk m m' (ix3 b r (0 : Fin 1))
      = Ideal.exp (m' (ix3 b r (0 : Fin 1)) - mNew hq hk mq mk m b r) := by
  unfold k1_pay12
  rw [exp_apply, subf_apply, pay10_apply]

/-- The key tile's rows as loaded. -/
theorem pay8_eq (v : Vec Ideal S16x256x256 .bf16) : k1_pay8 (F := Ideal) v = v := by
  unfold k1_pay8
  exact shapeCast_self v _

/-- The new denominator: the factor times the carried one, plus the sum of the weights. -/
theorem pay1_apply (w : FVec Ideal S16x256x256 .f32) (f : FVec Ideal S16x256x1 .f32) (l : Vec Ideal S16x256x1 .f32)
    (b : Fin 16) (r : Fin 256) :
    k1_pay1 (F := Ideal) w f l (ix3 b r (0 : Fin 1))
      = f (ix3 b r (0 : Fin 1)) * l (ix3 b r (0 : Fin 1)) + ∑ k : Fin 256, w (ix3 b r k) := by
  unfold k1_pay1
  dsimp only
  rw [shapeCast_self, addf_apply, mulf_apply, Cert.LibRank3Layout.shapeCast_ab_ab1_apply, sum_last]

/-- The new weighted sum: the factor times the carried one, plus the weights times the key tile's rows. -/
theorem pay2_apply (v : FVec Ideal S16x256x256 .bf16) (w : FVec Ideal S16x256x256 .f32) (f : FVec Ideal S16x256x1 .f32)
    (a : Vec Ideal S16x256x256 .f32) (b : Fin 16) (r d : Fin 256) :
    k1_pay2 (F := Ideal) v w f a (ix3 b r d)
      = f (ix3 b r (0 : Fin 1)) * a (ix3 b r d) + ∑ k : Fin 256, w (ix3 b r k) * v (ix3 b k d) := by
  unfold k1_pay2
  rw [shapeCast_self, addf_apply, mulf_apply, Cert.LibRank3Layout.broadcastTo_ab1_abc_apply, matmul_rows_cols]
  rfl

/-- The query tile's partial sum. -/
theorem pay4_apply (a : Vec Ideal S16x256x256 .f32) (l : Vec Ideal S16x256x1 .f32) (x : Vec Ideal S16x256x256 .f32)
    (μ : Vec Ideal S16x256x1 .f32) (b : Fin 16) (d : Fin 256) :
    k1_pay4 (F := Ideal) a l x μ (ix3 (0 : Fin 1) b d)
      = ∑ r : Fin 256, (x (ix3 b r d) + Ideal.div (a (ix3 b r d)) (l (ix3 b r (0 : Fin 1)))) * μ (ix3 b r (0 : Fin 1)) := by
  unfold k1_pay4
  dsimp only
  rw [shapeCast_lead, sum_mid]
  refine Finset.sum_congr rfl fun r _ => ?_
  rw [mulf_apply, addf_apply, divf_apply, Cert.LibRank3Layout.broadcastTo_ab1_abc_apply,
    Cert.LibRank3Layout.broadcastTo_ab1_abc_apply, shapeCast_self]

/-! ## One key tile, and the end of a query tile -/

/-- THE NEW RUNNING DENOMINATOR, read at `(b, r, 0)`. -/
theorem step_den (s : St Ideal) (b : Fin 16) (r : Fin 256) :
    (step (F := Ideal) hq hk mq mk s).2.1 (ix3 b r (0 : Fin 1))
      = Ideal.exp (s.1 (ix3 b r (0 : Fin 1)) - mNew hq hk mq mk s.1 b r) * s.2.1 (ix3 b r (0 : Fin 1))
        + ∑ k : Fin 256, Ideal.exp (sc hq hk mq mk b r k - mNew hq hk mq mk s.1 b r) := by
  show k1_pay1 (F := Ideal) (k1_pay11 hq hk mq mk s.1) (k1_pay12 hq hk mq mk s.1 s.1) s.2.1 (ix3 b r (0 : Fin 1)) = _
  rw [pay1_apply, pay12_apply]
  simp only [pay11_apply]

/-- THE NEW RUNNING WEIGHTED SUM, read at `(b, r, d)`. -/
theorem step_acc (s : St Ideal) (b : Fin 16) (r d : Fin 256) :
    (step (F := Ideal) hq hk mq mk s).2.2 (ix3 b r d)
      = Ideal.exp (s.1 (ix3 b r (0 : Fin 1)) - mNew hq hk mq mk s.1 b r) * s.2.2 (ix3 b r d)
        + ∑ k : Fin 256, Ideal.exp (sc hq hk mq mk b r k - mNew hq hk mq mk s.1 b r) * hk (ix3 b k d) := by
  show k1_pay2 (F := Ideal) (k1_pay8 hk) (k1_pay11 hq hk mq mk s.1) (k1_pay12 hq hk mq mk s.1 s.1) s.2.2 (ix3 b r d) = _
  rw [pay2_apply, pay12_apply, pay8_eq]
  simp only [pay11_apply]

/-- THE QUERY TILE'S PARTIAL SUM, read at `(0, b, d)`. -/
theorem fin_apply (s : St Ideal) (xq : Vec Ideal S16x256x256 .f32) (b : Fin 16) (d : Fin 256) :
    fin (F := Ideal) s xq mq (ix3 (0 : Fin 1) b d)
      = ∑ r : Fin 256, (xq (ix3 b r d) + Ideal.div (s.2.2 (ix3 b r d)) (s.2.1 (ix3 b r (0 : Fin 1))))
          * mq (ix3 b r (0 : Fin 1)) :=
  pay4_apply s.2.2 s.2.1 xq mq b d

end Cert.KerReads

end
-- ==== Proof.LibOnlineSoftmax.lean ====
import Idealize.ShloMosaic.PureOps.Ideal
import Mathlib.Data.Finset.Lattice.Fold
import Mathlib.Data.Finset.Fold
import Mathlib.Algebra.Order.BigOperators.Group.Finset
import Mathlib.Data.EReal.Operations

/-!
# The online softmax recurrence over the extended reals

A softmax-weighted mean `(∑ k, exp (s k - M) * v k) / (∑ k, exp (s k - M))`, with `M` the maximum
of the scores `s`, can be accumulated block by block without knowing `M` in advance: one keeps a
running maximum `m`, a running denominator `l` and a running numerator `a`; when a new block of
keys arrives, the new maximum `m'` is the larger of `m` and the block's maximum, and the old
`l` and `a` are rescaled by `exp (m - m')` before the block's own terms are added. The start state
is `(⊥, 0, 0)`, read in the extended reals, where `exp ⊥ = 0`.

This file proves, for finite REAL data coerced into `EReal`:

* the coercion facts that turn one step of the recurrence, stated with the extended-real
  operations `Ideal.exp`, `Ideal.div`, `max`, `+`, `*`, `∑`, into the same step over `ℝ`
  (`coe_sum`, `fold_max_coe`, `exp_coe_sub`, `exp_bot_sub`, `max_bot_coe`, `max_coe_coe`,
  `div_coe_coe`, `first_den`, `first_num`, `next_den`, `next_num`);
* the real identities that say a rescaled prefix sum plus a block sum is the prefix sum over the
  union (`den_rescale`, `num_rescale`, `den_step`, `num_step`, `sup'_union`);
* the combinatorics of cutting `N * n` keys into `N` consecutive blocks of `n`
  (`blockSet`, `prefixSet` and their lemmas);
* the closing step: the reference row `∑ k, (exp (s k - M) / L) * v k` is the quotient of the
  final numerator by the final denominator (`den_pos`, `ref_row`).
-/

open Idealize.ShloMosaic
open scoped BigOperators

namespace Cert.Lib.OnlineSoftmax

/-! ## Coercion of finite sums and maxima -/

/-- The coercion `ℝ → EReal` commutes with a finite sum. -/
theorem coe_sum_finset {κ : Type*} (S : Finset κ) (f : κ → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The coercion `ℝ → EReal` commutes with a sum over a finite type. -/
theorem coe_sum {κ : Type*} [Fintype κ] (f : κ → ℝ) :
    (∑ k, ((f k : ℝ) : EReal)) = ((∑ k, f k : ℝ) : EReal) :=
  coe_sum_finset Finset.univ f

/-- A `max`-fold from `⊥` over a finset is the finset's supremum. -/
theorem fold_max_eq_sup {κ : Type*} (S : Finset κ) (f : κ → EReal) :
    S.fold max (⊥ : EReal) f = S.sup f := by
  classical
  induction S using Finset.induction_on with
  | empty => simp
  | insert a S ha ih => rw [Finset.fold_insert ha, Finset.sup_insert, ih]

/-- The `max`-fold from `⊥` of coerced reals over a nonempty finset is the coerced maximum. -/
theorem fold_max_coe_finset {κ : Type*} (S : Finset κ) (hS : S.Nonempty) (s : κ → ℝ) :
    S.fold max (⊥ : EReal) (fun k => ((s k : ℝ) : EReal)) = ((S.sup' hS s : ℝ) : EReal) := by
  rw [fold_max_eq_sup, ← Finset.sup'_eq_sup hS]
  exact (Finset.comp_sup'_eq_sup'_comp hS (fun x : ℝ => (x : EReal))
    (fun x y => EReal.coe_strictMono.monotone.map_max)).symm

/-- The `max`-fold from `⊥` of coerced reals over a nonempty finite type is the coerced maximum. -/
theorem fold_max_coe {κ : Type*} [Fintype κ] [Nonempty κ] (s : κ → ℝ) :
    (Finset.univ : Finset κ).fold max (⊥ : EReal) (fun k => ((s k : ℝ) : EReal))
      = ((Finset.univ.sup' Finset.univ_nonempty s : ℝ) : EReal) :=
  fold_max_coe_finset Finset.univ Finset.univ_nonempty s

/-! ## The scalar operations on coerced reals -/

theorem exp_coe_sub (a b : ℝ) :
    Ideal.exp ((a : EReal) - (b : EReal)) = ((Real.exp (a - b) : ℝ) : EReal) := by
  rw [← EReal.coe_sub, Ideal.exp_coe]

theorem exp_bot_sub (b : ℝ) : Ideal.exp ((⊥ : EReal) - (b : EReal)) = 0 := by
  rw [EReal.bot_sub, Ideal.exp_bot]

theorem max_bot_coe (b : ℝ) : max (⊥ : EReal) (b : EReal) = b := bot_sup_eq _

theorem max_coe_coe (a b : ℝ) : max (a : EReal) (b : EReal) = ((max a b : ℝ) : EReal) :=
  EReal.coe_strictMono.monotone.map_max.symm

theorem div_coe_coe (a l : ℝ) (hl : l ≠ 0) :
    Ideal.div (a : EReal) (l : EReal) = ((a / l : ℝ) : EReal) := by
  rw [Ideal.div_coe hl, ← EReal.coe_mul, mul_one_div]

/-! ## One step of the recurrence, read over the reals -/

section Step
variable {κ : Type*} [Fintype κ] (s v : κ → ℝ)

/-- The block's denominator terms. -/
theorem block_den (M : ℝ) :
    ∑ k, Ideal.exp ((s k : EReal) - (M : EReal)) = ((∑ k, Real.exp (s k - M) : ℝ) : EReal) := by
  rw [← coe_sum]; exact Finset.sum_congr rfl (fun k _ => exp_coe_sub _ _)

/-- The block's numerator terms. -/
theorem block_num (M : ℝ) :
    ∑ k, Ideal.exp ((s k : EReal) - (M : EReal)) * ((v k : ℝ) : EReal)
      = ((∑ k, Real.exp (s k - M) * v k : ℝ) : EReal) := by
  rw [← coe_sum]
  exact Finset.sum_congr rfl (fun k _ => by rw [exp_coe_sub, EReal.coe_mul])

/-- The first step's denominator: from the start state `(⊥, 0)` the rescaled old part vanishes. -/
theorem first_den (M : ℝ) :
    Ideal.exp ((⊥ : EReal) - (M : EReal)) * 0 + ∑ k, Ideal.exp ((s k : EReal) - (M : EReal))
      = ((∑ k, Real.exp (s k - M) : ℝ) : EReal) := by
  rw [mul_zero, zero_add, block_den]

/-- The first step's numerator. -/
theorem first_num (M : ℝ) :
    Ideal.exp ((⊥ : EReal) - (M : EReal)) * 0
        + ∑ k, Ideal.exp ((s k : EReal) - (M : EReal)) * ((v k : ℝ) : EReal)
      = ((∑ k, Real.exp (s k - M) * v k : ℝ) : EReal) := by
  rw [mul_zero, zero_add, block_num]

/-- A later step's denominator, from a real state. -/
theorem next_den (m M l : ℝ) :
    Ideal.exp ((m : EReal) - (M : EReal)) * (l : EReal)
        + ∑ k, Ideal.exp ((s k : EReal) - (M : EReal))
      = ((Real.exp (m - M) * l + ∑ k, Real.exp (s k - M) : ℝ) : EReal) := by
  rw [block_den, exp_coe_sub, EReal.coe_add, EReal.coe_mul]

/-- A later step's numerator, from a real state. -/
theorem next_num (m M a : ℝ) :
    Ideal.exp ((m : EReal) - (M : EReal)) * (a : EReal)
        + ∑ k, Ideal.exp ((s k : EReal) - (M : EReal)) * ((v k : ℝ) : EReal)
      = ((Real.exp (m - M) * a + ∑ k, Real.exp (s k - M) * v k : ℝ) : EReal) := by
  rw [block_num, exp_coe_sub, EReal.coe_add, EReal.coe_mul]

end Step

/-! ## The closing step -/

section Closing
variable {ι : Type*} [Fintype ι]

/-- The reference row for any real shift `M` and nonzero real denominator `L`. -/
theorem ref_row_of (s v : ι → ℝ) (M L : ℝ) (hL : L ≠ 0) :
    ∑ k, Ideal.div (Ideal.exp ((s k : EReal) - (M : EReal))) (L : EReal) * ((v k : ℝ) : EReal)
      = (((∑ k, Real.exp (s k - M) * v k) / L : ℝ) : EReal) := by
  rw [Finset.sum_div, ← coe_sum]
  refine Finset.sum_congr rfl (fun k _ => ?_)
  rw [exp_coe_sub, div_coe_coe _ _ hL, ← EReal.coe_mul, div_mul_eq_mul_div]

variable [Nonempty ι]

/-- The softmax denominator, shifted by the maximum score, is positive. -/
theorem den_pos (s : ι → ℝ) :
    0 < ∑ k, Real.exp (s k - Finset.univ.sup' Finset.univ_nonempty s) :=
  Finset.sum_pos (fun _ _ => Real.exp_pos _) Finset.univ_nonempty

/-- The reference row: the softmax weights `exp (s k - M) / L` times the values, summed, is the
    quotient of the numerator sum by the denominator sum. -/
theorem ref_row (s v : ι → ℝ) :
    ∑ k, Ideal.div
          (Ideal.exp ((s k : EReal) - ((Finset.univ.sup' Finset.univ_nonempty s : ℝ) : EReal)))
          ((∑ k', Real.exp (s k' - Finset.univ.sup' Finset.univ_nonempty s) : ℝ) : EReal)
        * ((v k : ℝ) : EReal)
      = (((∑ k, Real.exp (s k - Finset.univ.sup' Finset.univ_nonempty s) * v k)
            / (∑ k', Real.exp (s k' - Finset.univ.sup' Finset.univ_nonempty s)) : ℝ) : EReal) :=
  ref_row_of s v _ _ (den_pos s).ne'

end Closing

/-! ## The real identities: rescaling a prefix sum and adding a block -/

section RealIdentities
variable {ι : Type*} [DecidableEq ι] (s v : ι → ℝ)

/-- Changing the shift of a sum of exponentials from `M` to `M'` is a multiplication by
    `exp (M - M')`. -/
theorem den_rescale (S : Finset ι) (M M' : ℝ) :
    Real.exp (M - M') * ∑ k ∈ S, Real.exp (s k - M) = ∑ k ∈ S, Real.exp (s k - M') := by
  rw [Finset.mul_sum]
  refine Finset.sum_congr rfl (fun k _ => ?_)
  rw [← Real.exp_add]; congr 1; ring

/-- The same for the weighted sum. -/
theorem num_rescale (S : Finset ι) (M M' : ℝ) :
    Real.exp (M - M') * ∑ k ∈ S, Real.exp (s k - M) * v k
      = ∑ k ∈ S, Real.exp (s k - M') * v k := by
  rw [Finset.mul_sum]
  refine Finset.sum_congr rfl (fun k _ => ?_)
  rw [← mul_assoc, ← Real.exp_add]; congr 2; ring

/-- One step of the denominator: the rescaled sum over `S` plus the sum over a disjoint block
    `B` is the sum over `S ∪ B`, all at the new shift. -/
theorem den_step (S B : Finset ι) (hd : Disjoint S B) (M M' : ℝ) :
    Real.exp (M - M') * (∑ k ∈ S, Real.exp (s k - M)) + ∑ k ∈ B, Real.exp (s k - M')
      = ∑ k ∈ S ∪ B, Real.exp (s k - M') := by
  rw [den_rescale, Finset.sum_union hd]

/-- One step of the numerator. -/
theorem num_step (S B : Finset ι) (hd : Disjoint S B) (M M' : ℝ) :
    Real.exp (M - M') * (∑ k ∈ S, Real.exp (s k - M) * v k)
        + ∑ k ∈ B, Real.exp (s k - M') * v k
      = ∑ k ∈ S ∪ B, Real.exp (s k - M') * v k := by
  rw [num_rescale, Finset.sum_union hd]

/-- The maximum over a union is the larger of the two maxima. -/
theorem sup'_union {S B : Finset ι} (hS : S.Nonempty) (hB : B.Nonempty) :
    max (S.sup' hS s) (B.sup' hB s) = (S ∪ B).sup' (hS.mono Finset.subset_union_left) s :=
  (Finset.sup'_union hS hB s).symm

end RealIdentities

/-! ## Cutting `N * n` keys into `N` consecutive blocks of `n` -/

section Blocks
variable (N n : ℕ)

/-- The `j`-th block: the keys `k` with `j * n ≤ k < (j + 1) * n`. -/
def blockSet (j : ℕ) : Finset (Fin (N * n)) :=
  Finset.univ.filter (fun k => j * n ≤ k.val ∧ k.val < (j + 1) * n)

/-- The first `j + 1` blocks together: the keys `k < (j + 1) * n`. -/
def prefixSet (j : ℕ) : Finset (Fin (N * n)) :=
  Finset.univ.filter (fun k => k.val < (j + 1) * n)

variable {N n}

theorem mem_blockSet {j : ℕ} {k : Fin (N * n)} :
    k ∈ blockSet N n j ↔ j * n ≤ k.val ∧ k.val < (j + 1) * n := by
  simp [blockSet]

theorem mem_prefixSet {j : ℕ} {k : Fin (N * n)} :
    k ∈ prefixSet N n j ↔ k.val < (j + 1) * n := by
  simp [prefixSet]

/-- The bound that makes `j * n + r` a key of the `j`-th block. -/
theorem block_lt {j : ℕ} (hj : j < N) (r : Fin n) : j * n + r.val < N * n := by
  have h1 : (j + 1) * n ≤ N * n := Nat.mul_le_mul_right n hj
  have h2 : (j + 1) * n = j * n + n := Nat.succ_mul j n
  have := r.isLt
  omega

theorem prefixSet_zero : prefixSet N n 0 = blockSet N n 0 := by
  ext k; simp [mem_prefixSet, mem_blockSet]

theorem prefixSet_succ (j : ℕ) :
    prefixSet N n (j + 1) = prefixSet N n j ∪ blockSet N n (j + 1) := by
  ext k
  have h : (j + 1) * n ≤ (j + 1 + 1) * n := Nat.mul_le_mul_right n (Nat.le_succ _)
  simp only [Finset.mem_union, mem_prefixSet, mem_blockSet]
  omega

theorem disjoint_prefixSet_blockSet (j : ℕ) :
    Disjoint (prefixSet N n j) (blockSet N n (j + 1)) := by
  rw [Finset.disjoint_left]
  intro k hk hk'
  have h1 := mem_prefixSet.1 hk
  have h2 := (mem_blockSet.1 hk').1
  omega

theorem prefixSet_last (hN : 0 < N) : prefixSet N n (N - 1) = Finset.univ := by
  ext k
  simp only [mem_prefixSet, Finset.mem_univ, iff_true, Nat.sub_add_cancel hN]
  exact k.isLt

theorem blockSet_nonempty (hn : 0 < n) {j : ℕ} (hj : j < N) : (blockSet N n j).Nonempty := by
  refine ⟨⟨j * n + 0, block_lt hj ⟨0, hn⟩⟩, mem_blockSet.2 ⟨?_, ?_⟩⟩
  · simp
  · have h2 : (j + 1) * n = j * n + n := Nat.succ_mul j n
    simp only [add_zero]; omega

theorem prefixSet_nonempty (hn : 0 < n) {j : ℕ} (hj : j < N) : (prefixSet N n j).Nonempty := by
  obtain ⟨k, hk⟩ := blockSet_nonempty hn hj
  exact ⟨k, mem_prefixSet.2 (mem_blockSet.1 hk).2⟩

/-- A sum over the positions `r` of a block is the sum over the block's keys. -/
theorem sum_block {α : Type*} [AddCommMonoid α] (j : ℕ)
    (h : ∀ r : Fin n, j * n + r.val < N * n) (f : Fin (N * n) → α) :
    ∑ r : Fin n, f ⟨j * n + r.val, h r⟩ = ∑ k ∈ blockSet N n j, f k := by
  have h2 : (j + 1) * n = j * n + n := Nat.succ_mul j n
  refine Finset.sum_bij (fun r _ => ⟨j * n + r.val, h r⟩) ?_ ?_ ?_ (fun _ _ => rfl)
  · intro r _
    have := r.isLt
    exact mem_blockSet.2 ⟨Nat.le_add_right _ _, by simp only; omega⟩
  · intro a _ b _ hab
    have := congrArg Fin.val hab
    simp only at this
    exact Fin.ext (by omega)
  · intro k hk
    have hk' := mem_blockSet.1 hk
    refine ⟨⟨k.val - j * n, by omega⟩, Finset.mem_univ _, Fin.ext ?_⟩
    simp only; omega

/-- A maximum over the positions `r` of a block is the maximum over the block's keys. -/
theorem sup'_block {α : Type*} [SemilatticeSup α] (j : ℕ)
    (h : ∀ r : Fin n, j * n + r.val < N * n) (s : Fin (N * n) → α)
    (h0 : (Finset.univ : Finset (Fin n)).Nonempty) (hB : (blockSet N n j).Nonempty) :
    (Finset.univ : Finset (Fin n)).sup' h0 (fun r => s ⟨j * n + r.val, h r⟩)
      = (blockSet N n j).sup' hB s := by
  have h2 : (j + 1) * n = j * n + n := Nat.succ_mul j n
  apply le_antisymm
  · refine Finset.sup'_le _ _ (fun r _ => ?_)
    have := r.isLt
    exact Finset.le_sup' s (mem_blockSet.2 ⟨Nat.le_add_right _ _, by simp only; omega⟩)
  · refine Finset.sup'_le _ _ (fun k hk => ?_)
    have hk' := mem_blockSet.1 hk
    have hr : k.val - j * n < n := by omega
    have e : k = ⟨j * n + (⟨k.val - j * n, hr⟩ : Fin n).val, h ⟨k.val - j * n, hr⟩⟩ :=
      Fin.ext (by simp only; omega)
    have e' : s k = (fun r : Fin n => s ⟨j * n + r.val, h r⟩) ⟨k.val - j * n, hr⟩ :=
      congrArg s e
    rw [e']
    exact Finset.le_sup' (fun r : Fin n => s ⟨j * n + r.val, h r⟩) (Finset.mem_univ _)

end Blocks

end Cert.Lib.OnlineSoftmax
-- ==== Proof.LibPrefixSoftmax.lean ====
import proofs.«128383_j11819749998990_2_alg».proof.Proof.LibOnlineSoftmax

/-!
# The online softmax recurrence: the invariant along consecutive blocks

The keys `Fin (N * n)` are cut into `N` consecutive blocks of `n`. After the blocks `0, …, j` have
been absorbed, the state of the online softmax recurrence is, over the reals,

* `pmax N n s j`   — the maximum of the scores `s` over the first `j + 1` blocks,
* `pden N n s j`   — `∑ exp (s k - pmax)` over those keys,
* `pnum N n s v j` — `∑ exp (s k - pmax) * v k` over those keys.

This file proves that the recurrence computes exactly these numbers: the first block gives the
state at `0` (`prefix_zero_*`); rescaling the state at `j` by `exp (pmax j - M')`, with `M'` the
larger of `pmax j` and the next block's maximum, and adding the block's terms gives the state at
`j + 1` (`prefix_succ_*`); and the state at `N - 1` is the full-row maximum, denominator and
numerator of the softmax-weighted mean (`prefix_last_*`). A block is given by its own functions
`sb vb : Fin n → ℝ` together with the statement that they are the rows' entries at the block's keys.
-/

open Idealize.ShloMosaic
open scoped BigOperators

namespace Cert.Lib.OnlineSoftmax

noncomputable section

variable (N n : ℕ)

/-- The maximum of the scores over the first `j + 1` blocks (`0` if there is no such key). -/
def pmax (s : Fin (N * n) → ℝ) (j : ℕ) : ℝ :=
  if h : (prefixSet N n j).Nonempty then (prefixSet N n j).sup' h s else 0

/-- The denominator over the first `j + 1` blocks, shifted by their maximum. -/
def pden (s : Fin (N * n) → ℝ) (j : ℕ) : ℝ :=
  ∑ k ∈ prefixSet N n j, Real.exp (s k - pmax N n s j)

/-- The numerator over the first `j + 1` blocks, shifted by their maximum. -/
def pnum (s v : Fin (N * n) → ℝ) (j : ℕ) : ℝ :=
  ∑ k ∈ prefixSet N n j, Real.exp (s k - pmax N n s j) * v k

variable {N n}
variable (s v : Fin (N * n) → ℝ)

/-! ## The three quantities over a named key set -/

theorem pmax_eq {j : ℕ} (hP : (prefixSet N n j).Nonempty) :
    pmax N n s j = (prefixSet N n j).sup' hP s := dif_pos hP

theorem pmax_of_eq {j : ℕ} {S : Finset (Fin (N * n))} (e : prefixSet N n j = S) (hS : S.Nonempty) :
    pmax N n s j = S.sup' hS s := by
  subst e; exact pmax_eq s hS

theorem pden_of_eq {j : ℕ} {S : Finset (Fin (N * n))} (e : prefixSet N n j = S) (hS : S.Nonempty) :
    pden N n s j = ∑ k ∈ S, Real.exp (s k - S.sup' hS s) := by
  rw [pden, pmax_of_eq s e hS, e]

theorem pnum_of_eq {j : ℕ} {S : Finset (Fin (N * n))} (e : prefixSet N n j = S) (hS : S.Nonempty) :
    pnum N n s v j = ∑ k ∈ S, Real.exp (s k - S.sup' hS s) * v k := by
  rw [pnum, pmax_of_eq s e hS, e]

/-- The prefix denominator is positive. -/
theorem pden_pos (hn : 0 < n) {j : ℕ} (hj : j < N) : 0 < pden N n s j :=
  Finset.sum_pos (fun _ _ => Real.exp_pos _) (prefixSet_nonempty hn hj)

/-! ## A block's own sums, as sums over the block's keys -/

section Block
variable {s v}
variable {sb vb : Fin n → ℝ} {j : ℕ} {h : ∀ r : Fin n, j * n + r.val < N * n}

theorem block_max_eq (hsb : ∀ r, sb r = s ⟨j * n + r.val, h r⟩)
    (h0 : (Finset.univ : Finset (Fin n)).Nonempty) (hB : (blockSet N n j).Nonempty) :
    Finset.univ.sup' h0 sb = (blockSet N n j).sup' hB s := by
  obtain rfl : sb = fun r => s ⟨j * n + r.val, h r⟩ := funext hsb
  exact sup'_block j h s h0 hB

theorem block_den_eq (hsb : ∀ r, sb r = s ⟨j * n + r.val, h r⟩) (M : ℝ) :
    ∑ r, Real.exp (sb r - M) = ∑ k ∈ blockSet N n j, Real.exp (s k - M) := by
  refine Eq.trans ?_ (sum_block j h (fun k => Real.exp (s k - M)))
  exact Finset.sum_congr rfl (fun r _ => by rw [hsb r])

theorem block_num_eq (hsb : ∀ r, sb r = s ⟨j * n + r.val, h r⟩)
    (hvb : ∀ r, vb r = v ⟨j * n + r.val, h r⟩) (M : ℝ) :
    ∑ r, Real.exp (sb r - M) * vb r = ∑ k ∈ blockSet N n j, Real.exp (s k - M) * v k := by
  refine Eq.trans ?_ (sum_block j h (fun k => Real.exp (s k - M) * v k))
  exact Finset.sum_congr rfl (fun r _ => by rw [hsb r, hvb r])

end Block

/-! ## The first block -/

section Zero
variable {s v}
variable {sb vb : Fin n → ℝ} {h : ∀ r : Fin n, 0 * n + r.val < N * n}

theorem prefix_zero_max (hn : 0 < n) (hN : 0 < N) (hsb : ∀ r, sb r = s ⟨0 * n + r.val, h r⟩)
    (h0 : (Finset.univ : Finset (Fin n)).Nonempty) :
    Finset.univ.sup' h0 sb = pmax N n s 0 := by
  rw [pmax_of_eq s prefixSet_zero (blockSet_nonempty hn hN)]
  exact block_max_eq hsb h0 _

theorem prefix_zero_den (hn : 0 < n) (hN : 0 < N) (hsb : ∀ r, sb r = s ⟨0 * n + r.val, h r⟩)
    (h0 : (Finset.univ : Finset (Fin n)).Nonempty) :
    ∑ r, Real.exp (sb r - Finset.univ.sup' h0 sb) = pden N n s 0 := by
  rw [prefix_zero_max hn hN hsb h0, block_den_eq hsb, pden, prefixSet_zero]

theorem prefix_zero_num (hn : 0 < n) (hN : 0 < N) (hsb : ∀ r, sb r = s ⟨0 * n + r.val, h r⟩)
    (hvb : ∀ r, vb r = v ⟨0 * n + r.val, h r⟩)
    (h0 : (Finset.univ : Finset (Fin n)).Nonempty) :
    ∑ r, Real.exp (sb r - Finset.univ.sup' h0 sb) * vb r = pnum N n s v 0 := by
  rw [prefix_zero_max hn hN hsb h0, block_num_eq hsb hvb, pnum, prefixSet_zero]

end Zero

/-! ## A later block -/

section Succ
variable {s v}
variable {sb vb : Fin n → ℝ} {j : ℕ} {h : ∀ r : Fin n, (j + 1) * n + r.val < N * n}

theorem prefix_succ_max (hn : 0 < n) (hj : j + 1 < N)
    (hsb : ∀ r, sb r = s ⟨(j + 1) * n + r.val, h r⟩)
    (h0 : (Finset.univ : Finset (Fin n)).Nonempty) :
    max (pmax N n s j) (Finset.univ.sup' h0 sb) = pmax N n s (j + 1) := by
  have hP := prefixSet_nonempty (N := N) hn (Nat.lt_of_succ_lt hj)
  have hB := blockSet_nonempty (N := N) hn hj
  rw [pmax_eq s hP, block_max_eq hsb h0 hB, sup'_union s hP hB]
  exact (pmax_of_eq s (prefixSet_succ j) _).symm

theorem prefix_succ_den (hn : 0 < n) (hj : j + 1 < N)
    (hsb : ∀ r, sb r = s ⟨(j + 1) * n + r.val, h r⟩)
    (h0 : (Finset.univ : Finset (Fin n)).Nonempty) :
    Real.exp (pmax N n s j - max (pmax N n s j) (Finset.univ.sup' h0 sb)) * pden N n s j
        + ∑ r, Real.exp (sb r - max (pmax N n s j) (Finset.univ.sup' h0 sb))
      = pden N n s (j + 1) := by
  rw [prefix_succ_max hn hj hsb h0, block_den_eq hsb, pden, pden,
    den_step s _ _ (disjoint_prefixSet_blockSet j), ← prefixSet_succ]

theorem prefix_succ_num (hn : 0 < n) (hj : j + 1 < N)
    (hsb : ∀ r, sb r = s ⟨(j + 1) * n + r.val, h r⟩)
    (hvb : ∀ r, vb r = v ⟨(j + 1) * n + r.val, h r⟩)
    (h0 : (Finset.univ : Finset (Fin n)).Nonempty) :
    Real.exp (pmax N n s j - max (pmax N n s j) (Finset.univ.sup' h0 sb)) * pnum N n s v j
        + ∑ r, Real.exp (sb r - max (pmax N n s j) (Finset.univ.sup' h0 sb)) * vb r
      = pnum N n s v (j + 1) := by
  rw [prefix_succ_max hn hj hsb h0, block_num_eq hsb hvb, pnum, pnum,
    num_step s v _ _ (disjoint_prefixSet_blockSet j), ← prefixSet_succ]

end Succ

/-! ## The last block: the whole row -/

theorem prefix_last_max (hN : 0 < N) (hU : (Finset.univ : Finset (Fin (N * n))).Nonempty) :
    pmax N n s (N - 1) = Finset.univ.sup' hU s :=
  pmax_of_eq s (prefixSet_last hN) hU

theorem prefix_last_den (hN : 0 < N) (hU : (Finset.univ : Finset (Fin (N * n))).Nonempty) :
    pden N n s (N - 1) = ∑ k, Real.exp (s k - Finset.univ.sup' hU s) :=
  pden_of_eq s (prefixSet_last hN) hU

theorem prefix_last_num (hN : 0 < N) (hU : (Finset.univ : Finset (Fin (N * n))).Nonempty) :
    pnum N n s v (N - 1) = ∑ k, Real.exp (s k - Finset.univ.sup' hU s) * v k :=
  pnum_of_eq s v (prefixSet_last hN) hU

end

end Cert.Lib.OnlineSoftmax
-- ==== Proof.KerRow.lean ====
import proofs.«128383_j11819749998990_2_alg».proof.Proof.Spec
import proofs.«128383_j11819749998990_2_alg».proof.Proof.Consts
import proofs.«128383_j11819749998990_2_alg».proof.Proof.LibOnlineSoftmax
import proofs.«128383_j11819749998990_2_alg».proof.Proof.LibPrefixSoftmax
import Idealize.ShloMosaic.Lib.ValueIdx

/-!
# One row of the attention kernel, over the reals

For one query row the kernel walks through the key tiles keeping a running maximum, a running denominator and
a running weighted sum, all as extended reals that start at `-∞`, `0`, `0`.  On real scores these are, after key
tile `j`, the prefix maximum, prefix denominator and prefix numerator of the online softmax recurrence
(`first_*`, `next_*`), and after the last tile the row's maximum and the two sums of the row-normalised attention
output (`div_last`).  A score entry as the kernel forms it — the scaled dot product where the product of the two
mask numbers exceeds one half, a large negative constant elsewhere — is the specification's masked score
(`score_entry`).
-/

noncomputable section

namespace Cert.KerRow

open Idealize.ShloMosaic Cert.Lib.OnlineSoftmax
open scoped BigOperators

/-! ## The recurrence on real data -/

section Recurrence

variable {N n : ℕ} (s v : Fin (N * n) → ℝ)

/-- The first key tile's maximum, taken from `-∞`, is the prefix maximum at `0`. -/
theorem first_max (hn : 0 < n) (hN : 0 < N) [Nonempty (Fin n)] (sb : Fin n → ℝ)
    (hsb : ∀ r : Fin n, sb r = s ⟨0 * n + r.val, block_lt hN r⟩) :
    max (⊥ : EReal) ((Finset.univ : Finset (Fin n)).fold max (⊥ : EReal) (fun k => ((sb k : ℝ) : EReal)))
      = ((pmax N n s 0 : ℝ) : EReal) := by
  rw [fold_max_coe, max_bot_coe, prefix_zero_max hn hN hsb]

/-- The first key tile's denominator. -/
theorem first_den' (hn : 0 < n) (hN : 0 < N) [Nonempty (Fin n)] (sb : Fin n → ℝ)
    (hsb : ∀ r : Fin n, sb r = s ⟨0 * n + r.val, block_lt hN r⟩) :
    Ideal.exp ((⊥ : EReal) - ((pmax N n s 0 : ℝ) : EReal)) * 0
        + ∑ k, Ideal.exp (((sb k : ℝ) : EReal) - ((pmax N n s 0 : ℝ) : EReal))
      = ((pden N n s 0 : ℝ) : EReal) := by
  rw [first_den, ← prefix_zero_max hn hN hsb Finset.univ_nonempty, prefix_zero_den hn hN hsb]

/-- The first key tile's numerator. -/
theorem first_num' (hn : 0 < n) (hN : 0 < N) [Nonempty (Fin n)] (sb vb : Fin n → ℝ)
    (hsb : ∀ r : Fin n, sb r = s ⟨0 * n + r.val, block_lt hN r⟩)
    (hvb : ∀ r : Fin n, vb r = v ⟨0 * n + r.val, block_lt hN r⟩) :
    Ideal.exp ((⊥ : EReal) - ((pmax N n s 0 : ℝ) : EReal)) * 0
        + ∑ k, Ideal.exp (((sb k : ℝ) : EReal) - ((pmax N n s 0 : ℝ) : EReal)) * ((vb k : ℝ) : EReal)
      = ((pnum N n s v 0 : ℝ) : EReal) := by
  rw [first_num, ← prefix_zero_max hn hN hsb Finset.univ_nonempty, prefix_zero_num hn hN hsb hvb]

/-- A later key tile's maximum. -/
theorem next_max (hn : 0 < n) {j : ℕ} (hj : j + 1 < N) [Nonempty (Fin n)] (sb : Fin n → ℝ)
    (hsb : ∀ r : Fin n, sb r = s ⟨(j + 1) * n + r.val, block_lt hj r⟩) :
    max ((pmax N n s j : ℝ) : EReal)
        ((Finset.univ : Finset (Fin n)).fold max (⊥ : EReal) (fun k => ((sb k : ℝ) : EReal)))
      = ((pmax N n s (j + 1) : ℝ) : EReal) := by
  rw [fold_max_coe, max_coe_coe, prefix_succ_max hn hj hsb]

/-- A later key tile's denominator. -/
theorem next_den' (hn : 0 < n) {j : ℕ} (hj : j + 1 < N) [Nonempty (Fin n)] (sb : Fin n → ℝ)
    (hsb : ∀ r : Fin n, sb r = s ⟨(j + 1) * n + r.val, block_lt hj r⟩) :
    Ideal.exp (((pmax N n s j : ℝ) : EReal) - ((pmax N n s (j + 1) : ℝ) : EReal)) * ((pden N n s j : ℝ) : EReal)
        + ∑ k, Ideal.exp (((sb k : ℝ) : EReal) - ((pmax N n s (j + 1) : ℝ) : EReal))
      = ((pden N n s (j + 1) : ℝ) : EReal) := by
  rw [next_den, ← prefix_succ_max hn hj hsb Finset.univ_nonempty, prefix_succ_den hn hj hsb]

/-- A later key tile's numerator. -/
theorem next_num' (hn : 0 < n) {j : ℕ} (hj : j + 1 < N) [Nonempty (Fin n)] (sb vb : Fin n → ℝ)
    (hsb : ∀ r : Fin n, sb r = s ⟨(j + 1) * n + r.val, block_lt hj r⟩)
    (hvb : ∀ r : Fin n, vb r = v ⟨(j + 1) * n + r.val, block_lt hj r⟩) :
    Ideal.exp (((pmax N n s j : ℝ) : EReal) - ((pmax N n s (j + 1) : ℝ) : EReal)) * ((pnum N n s v j : ℝ) : EReal)
        + ∑ k, Ideal.exp (((sb k : ℝ) : EReal) - ((pmax N n s (j + 1) : ℝ) : EReal)) * ((vb k : ℝ) : EReal)
      = ((pnum N n s v (j + 1) : ℝ) : EReal) := by
  rw [next_num, ← prefix_succ_max hn hj hsb Finset.univ_nonempty, prefix_succ_num hn hj hsb hvb]

/-- After the last key tile the weighted sum over the denominator is the softmax-weighted mean of the row. -/
theorem div_last (hn : 0 < n) (hN : 0 < N) (hU : (Finset.univ : Finset (Fin (N * n))).Nonempty) :
    Ideal.div ((pnum N n s v (N - 1) : ℝ) : EReal) ((pden N n s (N - 1) : ℝ) : EReal)
      = (((∑ k, Real.exp (s k - Finset.univ.sup' hU s) * v k)
            / (∑ k, Real.exp (s k - Finset.univ.sup' hU s)) : ℝ) : EReal) := by
  rw [div_coe_coe _ _ (pden_pos s hn (Nat.sub_lt hN Nat.one_pos)).ne', prefix_last_num s v hN hU,
    prefix_last_den s hN hU]

end Recurrence

/-! ## A score entry -/

section Entry

open Cert.Spec

variable (x : Fin 16 → Fin 2048 → Fin 256 → ℝ) (μ : Fin 16 → Fin 2048 → Bool) (g β : Fin 256 → ℝ)

/-- The product of two mask numbers is one where both positions are kept, zero elsewhere. -/
theorem keep_mul_keep (b : Fin 16) (q k : Fin 2048) :
    keep μ b q * keep μ b k = if (μ b q && μ b k) = true then 1 else 0 := by
  unfold keep
  cases μ b q <;> cases μ b k <;> simp

/-- A score entry as the kernel forms it is the specification's masked score. -/
theorem score_entry (b : Fin 16) (q k : Fin 2048) :
    (if ((1 / 2 : ℝ) : EReal) < ((keep μ b q : ℝ) : EReal) * ((keep μ b k : ℝ) : EReal)
      then (∑ d : Fin 256, ((ln Cert.Consts.eps x g β b q d : ℝ) : EReal) * ((ln Cert.Consts.eps x g β b k d : ℝ) : EReal))
          * ((1 / 4 : ℝ) : EReal)
      else ((Cert.Consts.negBig : ℝ) : EReal))
      = ((masked Cert.Consts.eps Cert.Consts.negBig x μ g β b q k : ℝ) : EReal) := by
  have h1 : ((1 / 2 : ℝ) : EReal) < ((1 : ℝ) : EReal) := by rw [EReal.coe_lt_coe_iff]; norm_num
  have h0 : ¬ ((1 / 2 : ℝ) : EReal) < ((0 : ℝ) : EReal) := by rw [EReal.coe_lt_coe_iff]; norm_num
  rw [← EReal.coe_mul, keep_mul_keep]
  unfold masked
  by_cases h : (μ b q && μ b k) = true
  · rw [if_pos h, if_pos h, if_pos h1]
    simp only [← EReal.coe_mul, coe_sum]
    unfold score
    rw [mul_one_div]
  · rw [if_neg h, if_neg h, if_neg h0]

end Entry

end Cert.KerRow

end
-- ==== Proof.KerValue.lean ====
import proofs.«128383_j11819749998990_2_alg».proof.Proof.KerStep
import proofs.«128383_j11819749998990_2_alg».proof.Proof.KerReads
import proofs.«128383_j11819749998990_2_alg».proof.Proof.KerReadsSums
import proofs.«128383_j11819749998990_2_alg».proof.Proof.KerRow

/-!
# The attention kernel's value on one query tile

On real data — the query tile's and the key tiles' normalised rows, the input rows and the mask numbers all images
of reals — the state the kernel carries through the eight key tiles of a query tile is, row by row, the online
softmax recurrence on the row's masked scores: after key tile `j` the running maximum, denominator and weighted
sum are the prefix maximum, prefix denominator and prefix numerator over the first `j + 1` key tiles
(`state_after`, by induction on `j`).  After the last key tile the weighted sum over the denominator is the
row-normalised attention output of the specification, and the query tile's partial sum — the input row plus that,
times the mask number, summed over the tile's rows — is the specification's tile sum (`tile_value`).
-/

noncomputable section

namespace Cert.KerValue

open Idealize.ShloMosaic Idealize.ShloMosaic.ValueIdx Cert.KernelIdeal Cert.KernelIdeal.Gen
open Cert.KerStep Cert.KerReads Cert.Lib.OnlineSoftmax Cert.Spec
open scoped BigOperators

section Tile

variable (t : Fin 8) (xr : Fin 16 → Fin 2048 → Fin 256 → ℝ) (μ : Fin 16 → Fin 2048 → Bool) (gr βr : Fin 256 → ℝ)

/-- The masked scores of query row `r` of tile `t` against all 2048 keys, as 8 blocks of 256. -/
def srow (b : Fin 16) (r : Fin 256) : Fin (8 * 256) → ℝ :=
  fun k => masked Cert.Consts.eps Cert.Consts.negBig xr μ gr βr b (pos t r) k

/-- Feature `d` of all 2048 normalised rows. -/
def vrow (b : Fin 16) (d : Fin 256) : Fin (8 * 256) → ℝ :=
  fun k => ln Cert.Consts.eps xr gr βr b k d

variable {t xr μ gr βr}
variable {HQ : Vec Ideal S16x256x256 .bf16} {XQ : Vec Ideal S16x256x256 .f32} {MQ : Vec Ideal S16x256x1 .f32}
  {HK : ℕ → Vec Ideal S16x256x256 .bf16} {MK : ℕ → Vec Ideal S16x256x1 .f32}

/-- A score entry of key tile `j` on real data is the row's masked score at the tile's key. -/
theorem sc_real
    (hHQ : ∀ b r d, HQ (ix3 b r d) = ((ln Cert.Consts.eps xr gr βr b (pos t r) d : ℝ) : EReal))
    (hMQ : ∀ b r, MQ (ix3 b r (0 : Fin 1)) = ((keep μ b (pos t r) : ℝ) : EReal))
    (hHK : ∀ (j : Fin 8) b r d, HK j.val (ix3 b r d) = ((ln Cert.Consts.eps xr gr βr b (pos j r) d : ℝ) : EReal))
    (hMK : ∀ (j : Fin 8) b r, MK j.val (ix3 b r (0 : Fin 1)) = ((keep μ b (pos j r) : ℝ) : EReal))
    (j : ℕ) (hj : j < 8) (b : Fin 16) (r k : Fin 256) :
    sc HQ (HK j) MQ (MK j) b r k = ((srow t xr μ gr βr b r ⟨j * 256 + k.val, block_lt hj k⟩ : ℝ) : EReal) := by
  have hHK' : ∀ d, HK j (ix3 b k d) = ((ln Cert.Consts.eps xr gr βr b (pos ⟨j, hj⟩ k) d : ℝ) : EReal) :=
    fun d => hHK ⟨j, hj⟩ b k d
  have hMK' : MK j (ix3 b k (0 : Fin 1)) = ((keep μ b (pos ⟨j, hj⟩ k) : ℝ) : EReal) := hMK ⟨j, hj⟩ b k
  unfold sc
  rw [hMQ b r, hMK']
  simp only [hHQ b r, hHK']
  exact Cert.KerRow.score_entry xr μ gr βr b (pos t r) (pos ⟨j, hj⟩ k)

/-- The state after key tiles `0 … j`, row by row: the prefix maximum, denominator and numerator. -/
theorem state_after
    (hHQ : ∀ b r d, HQ (ix3 b r d) = ((ln Cert.Consts.eps xr gr βr b (pos t r) d : ℝ) : EReal))
    (hMQ : ∀ b r, MQ (ix3 b r (0 : Fin 1)) = ((keep μ b (pos t r) : ℝ) : EReal))
    (hHK : ∀ (j : Fin 8) b r d, HK j.val (ix3 b r d) = ((ln Cert.Consts.eps xr gr βr b (pos j r) d : ℝ) : EReal))
    (hMK : ∀ (j : Fin 8) b r, MK j.val (ix3 b r (0 : Fin 1)) = ((keep μ b (pos j r) : ℝ) : EReal))
    (b : Fin 16) (r : Fin 256) :
    ∀ (j : ℕ), j < 8 →
      (runTo HQ MQ HK MK j).1 (ix3 b r (0 : Fin 1)) = ((pmax 8 256 (srow t xr μ gr βr b r) j : ℝ) : EReal)
      ∧ (runTo HQ MQ HK MK j).2.1 (ix3 b r (0 : Fin 1)) = ((pden 8 256 (srow t xr μ gr βr b r) j : ℝ) : EReal)
      ∧ ∀ d, (runTo HQ MQ HK MK j).2.2 (ix3 b r d)
          = ((pnum 8 256 (srow t xr μ gr βr b r) (vrow xr gr βr b d) j : ℝ) : EReal) := by
  intro j
  induction j with
  | zero =>
    intro hj
    have hsc := sc_real hHQ hMQ hHK hMK 0 hj b r
    have hM : mNew HQ (HK 0) MQ (MK 0) (init (F := Ideal)).1 b r
        = ((pmax 8 256 (srow t xr μ gr βr b r) 0 : ℝ) : EReal) := by
      unfold mNew rowTop
      rw [init_max]
      simp only [hsc]
      exact Cert.KerRow.first_max (srow t xr μ gr βr b r) (by norm_num) (by norm_num) _ (fun _ => rfl)
    refine ⟨?_, ?_, fun d => ?_⟩
    · show (step HQ (HK 0) MQ (MK 0) init).1 (ix3 b r (0 : Fin 1)) = _
      rw [step_max, hM]
    · show (step HQ (HK 0) MQ (MK 0) init).2.1 (ix3 b r (0 : Fin 1)) = _
      rw [step_den, hM, init_max, init_den]
      simp only [hsc]
      exact Cert.KerRow.first_den' (srow t xr μ gr βr b r) (by norm_num) (by norm_num) _ (fun _ => rfl)
    · show (step HQ (HK 0) MQ (MK 0) init).2.2 (ix3 b r d) = _
      rw [step_acc, hM, init_max, init_acc]
      simp only [hsc, fun k => hHK ⟨0, hj⟩ b k d]
      exact Cert.KerRow.first_num' (srow t xr μ gr βr b r) (vrow xr gr βr b d) (by norm_num) (by norm_num) _ _
        (fun _ => rfl) (fun _ => rfl)
  | succ j ih =>
    intro hj
    obtain ⟨hm, hl, ha⟩ := ih (Nat.lt_of_succ_lt hj)
    have hsc := sc_real hHQ hMQ hHK hMK (j + 1) hj b r
    have hM : mNew HQ (HK (j + 1)) MQ (MK (j + 1)) (runTo HQ MQ HK MK j).1 b r
        = ((pmax 8 256 (srow t xr μ gr βr b r) (j + 1) : ℝ) : EReal) := by
      unfold mNew rowTop
      rw [hm]
      simp only [hsc]
      exact Cert.KerRow.next_max (srow t xr μ gr βr b r) (by norm_num) hj _ (fun _ => rfl)
    refine ⟨?_, ?_, fun d => ?_⟩
    · show (step HQ (HK (j + 1)) MQ (MK (j + 1)) (runTo HQ MQ HK MK j)).1 (ix3 b r (0 : Fin 1)) = _
      rw [step_max, hM]
    · show (step HQ (HK (j + 1)) MQ (MK (j + 1)) (runTo HQ MQ HK MK j)).2.1 (ix3 b r (0 : Fin 1)) = _
      rw [step_den, hM, hm, hl]
      simp only [hsc]
      exact Cert.KerRow.next_den' (srow t xr μ gr βr b r) (by norm_num) hj _ (fun _ => rfl)
    · show (step HQ (HK (j + 1)) MQ (MK (j + 1)) (runTo HQ MQ HK MK j)).2.2 (ix3 b r d) = _
      rw [step_acc, hM, hm, ha d]
      simp only [hsc, fun k => hHK ⟨j + 1, hj⟩ b k d]
      exact Cert.KerRow.next_num' (srow t xr μ gr βr b r) (vrow xr gr βr b d) (by norm_num) hj _ _
        (fun _ => rfl) (fun _ => rfl)

/-- The query tile's partial sum on real data is the specification's tile sum. -/
theorem tile_value (t : Fin 8) (xr : Fin 16 → Fin 2048 → Fin 256 → ℝ) (μ : Fin 16 → Fin 2048 → Bool)
    (gr βr : Fin 256 → ℝ) (HQ : Vec Ideal S16x256x256 .bf16) (XQ : Vec Ideal S16x256x256 .f32)
    (MQ : Vec Ideal S16x256x1 .f32) (HK : ℕ → Vec Ideal S16x256x256 .bf16) (MK : ℕ → Vec Ideal S16x256x1 .f32)
    (hHQ : ∀ b r d, HQ (ix3 b r d) = ((ln Cert.Consts.eps xr gr βr b (pos t r) d : ℝ) : EReal))
    (hXQ : ∀ b r d, XQ (ix3 b r d) = ((xr b (pos t r) d : ℝ) : EReal))
    (hMQ : ∀ b r, MQ (ix3 b r (0 : Fin 1)) = ((keep μ b (pos t r) : ℝ) : EReal))
    (hHK : ∀ (j : Fin 8) b r d, HK j.val (ix3 b r d) = ((ln Cert.Consts.eps xr gr βr b (pos j r) d : ℝ) : EReal))
    (hMK : ∀ (j : Fin 8) b r, MK j.val (ix3 b r (0 : Fin 1)) = ((keep μ b (pos j r) : ℝ) : EReal))
    (b : Fin 16) (d : Fin 256) :
    fin (runTo HQ MQ HK MK 7) XQ MQ (ix3 (0 : Fin 1) b d)
      = ((tileKer Cert.Consts.eps Cert.Consts.negBig xr μ gr βr t b d : ℝ) : EReal) := by
  rw [fin_apply]
  unfold tileKer
  rw [← coe_sum]
  refine Finset.sum_congr rfl fun r _ => ?_
  obtain ⟨-, hl, ha⟩ := state_after hHQ hMQ hHK hMK b r 7 (by norm_num)
  rw [hXQ, hMQ, hl, ha d,
    (Cert.KerRow.div_last (N := 8) (n := 256) (srow t xr μ gr βr b r) (vrow xr gr βr b d) (by norm_num) (by norm_num)
      Finset.univ_nonempty :
      Ideal.div ((pnum 8 256 (srow t xr μ gr βr b r) (vrow xr gr βr b d) 7 : ℝ) : EReal)
          ((pden 8 256 (srow t xr μ gr βr b r) 7 : ℝ) : EReal) = _),
    ← EReal.coe_add, ← EReal.coe_mul]
  rfl

end Tile

end Cert.KerValue

end
-- ==== Proof.Ideal.FlashLink.lean ====
import proofs.«128383_j11819749998990_2_alg».proof.Proof.Ideal.FlashValue
import proofs.«128383_j11819749998990_2_alg».proof.Proof.Ideal.FlashBlocks
import proofs.«128383_j11819749998990_2_alg».proof.Proof.KerValue

/-!
# The attention region's output array is the specification's tile sums

Along the eight key tiles of one query tile the region's carried buffers follow the kernel's state machine: the
first key tile starts it from the reset state, every later one advances it from what the position before left, and
the query-side blocks (normalised rows, mask numbers) are the same at all eight positions.  So after key tile `ki`
the carried buffers hold the state machine's state after key tiles `0 … ki` (`sweep`).  At the last key tile the
region stores the query tile's partial sum formed from that state, and this is what the output array holds at the
query tile's place.  With the blocks read off arrays of real numbers, the kernel's value on one query tile gives the
specification's tile sum (`partial_value`).
-/

noncomputable section

namespace Cert.KernelIdeal.FlLink

open Cert.KernelIdeal Cert.KernelIdeal.Gen
open Idealize.ShloMosaic Idealize.ShloMosaic.TcCoe Idealize.ShloMosaic.ValueIdx
open Idealize.SL.Sem
open Cert.KernelIdeal.FlBlocks (pt pt_val)

variable (V : (c : Dev nD) → (b : Ref sig .tc) → Buf (Elt Ideal) ((c : Thread nD τ).loc b))

/-- The query-side block of normalised rows does not move along a sweep. -/
theorem hq_const (c : Dev nD) (qi ki : Fin 8) :
    (Fl.iblk V c 0 (pt qi ki) : Vec Ideal S16x256x256 .bf16) = Fl.iblk V c 0 (pt qi 0) := by
  funext j
  obtain ⟨b, r, e, rfl⟩ : ∃ (b : Fin 16) (r e : Fin 256), j = ix3 b r e := ⟨j 0, j 1, j 2, eq_ix3 j⟩
  rw [FlBlocks.iblk_hq, FlBlocks.iblk_hq]

/-- Neither does the query-side block of mask numbers. -/
theorem mq_const (c : Dev nD) (qi ki : Fin 8) :
    (Fl.iblk V c 3 (pt qi ki) : Vec Ideal S16x256x1 .f32) = Fl.iblk V c 3 (pt qi 0) := by
  funext j
  obtain ⟨b, r, u, rfl⟩ : ∃ (b : Fin 16) (r : Fin 256) (u : Fin 1), j = ix3 b r u := ⟨j 0, j 1, j 2, eq_ix3 j⟩
  obtain rfl : u = 0 := Subsingleton.elim _ _
  rw [FlBlocks.iblk_mq, FlBlocks.iblk_mq]

/-- The key tiles' blocks of normalised rows along the sweep of query tile `qi`, by the key tile's number. -/
def HKf (c : Dev nD) (qi : Fin 8) (j : ℕ) : Vec Ideal S16x256x256 .bf16 :=
  if h : j < 8 then Fl.iblk V c 1 (pt qi ⟨j, h⟩) else Fl.iblk V c 1 (pt qi 0)

/-- The key tiles' blocks of mask numbers along the sweep of query tile `qi`. -/
def MKf (c : Dev nD) (qi : Fin 8) (j : ℕ) : Vec Ideal S16x256x1 .f32 :=
  if h : j < 8 then Fl.iblk V c 4 (pt qi ⟨j, h⟩) else Fl.iblk V c 4 (pt qi 0)

theorem HKf_lt (c : Dev nD) (qi : Fin 8) (j : ℕ) (h : j < 8) : HKf V c qi j = Fl.iblk V c 1 (pt qi ⟨j, h⟩) := dif_pos h
theorem MKf_lt (c : Dev nD) (qi : Fin 8) (j : ℕ) (h : j < 8) : MKf V c qi j = Fl.iblk V c 4 (pt qi ⟨j, h⟩) := dif_pos h

/-- After key tile `ki` of query tile `qi` the carried buffers hold the state machine's state after key tiles
    `0 … ki`. -/
theorem sweep (c : Dev nD) (qi : Fin 8) : ∀ (ki : ℕ) (hk : ki < 8),
    (Fl.outsAt V c (pt qi ⟨ki, hk⟩).val (pt qi ⟨ki, hk⟩).isLt).2
      = Cert.KerStep.runTo (Fl.iblk V c 0 (pt qi 0)) (Fl.iblk V c 3 (pt qi 0)) (HKf V c qi) (MKf V c qi) ki := by
  intro ki
  induction ki with
  | zero =>
    intro hk
    have h0 : (pt qi ⟨0, hk⟩).val % 8 = 0 := by rw [pt_val]; show (qi.val * 8 + 0) % 8 = 0; omega
    have h1 : ¬ (pt qi ⟨0, hk⟩).val % 8 = 7 := by rw [h0]; omega
    rw [Fl.outsAt_A V c (pt qi ⟨0, hk⟩) h0 h1, FlValue.stA_eq]
    show _ = Cert.KerStep.step _ (HKf V c qi 0) _ (MKf V c qi 0) Cert.KerStep.init
    rw [HKf_lt V c qi 0 hk, MKf_lt V c qi 0 hk, hq_const V c qi ⟨0, hk⟩, mq_const V c qi ⟨0, hk⟩]
  | succ ki ih =>
    intro hk
    have hk' : ki < 8 := Nat.lt_of_succ_lt hk
    have hv : (pt qi ⟨ki + 1, hk⟩).val = qi.val * 8 + (ki + 1) := pt_val qi ⟨ki + 1, hk⟩
    have hp : (pt qi ⟨ki + 1, hk⟩).val - 1 = (pt qi ⟨ki, hk'⟩).val := by
      rw [hv, pt_val]; show qi.val * 8 + (ki + 1) - 1 = qi.val * 8 + ki; omega
    have h0 : ¬ (pt qi ⟨ki + 1, hk⟩).val % 8 = 0 := by rw [hv]; omega
    have hstep : ∀ s : Cert.KerStep.St Ideal,
        Cert.KerStep.step (Fl.iblk V c 0 (pt qi ⟨ki + 1, hk⟩)) (Fl.iblk V c 1 (pt qi ⟨ki + 1, hk⟩))
            (Fl.iblk V c 3 (pt qi ⟨ki + 1, hk⟩)) (Fl.iblk V c 4 (pt qi ⟨ki + 1, hk⟩)) s
          = Cert.KerStep.step (Fl.iblk V c 0 (pt qi 0)) (HKf V c qi (ki + 1)) (Fl.iblk V c 3 (pt qi 0))
              (MKf V c qi (ki + 1)) s := fun s => by
      rw [HKf_lt V c qi (ki + 1) hk, MKf_lt V c qi (ki + 1) hk, hq_const V c qi ⟨ki + 1, hk⟩,
        mq_const V c qi ⟨ki + 1, hk⟩]
    show _ = Cert.KerStep.step _ (HKf V c qi (ki + 1)) _ (MKf V c qi (ki + 1))
      (Cert.KerStep.runTo (Fl.iblk V c 0 (pt qi 0)) (Fl.iblk V c 3 (pt qi 0)) (HKf V c qi) (MKf V c qi) ki)
    rw [← ih hk', ← hstep]
    by_cases h7 : (pt qi ⟨ki + 1, hk⟩).val % 8 = 7
    · rw [Fl.outsAt_C V c (pt qi ⟨ki + 1, hk⟩) h0 h7, (FlValue.stC_eq V c _ _ _ _).1,
        FlValue.outsAt_congr V c hp _ (pt qi ⟨ki, hk'⟩).isLt]
    · rw [Fl.outsAt_B V c (pt qi ⟨ki + 1, hk⟩) h0 h7, FlValue.stB_eq,
        FlValue.outsAt_congr V c hp _ (pt qi ⟨ki, hk'⟩).isLt]

/-- The output array of the attention region, at query tile `qi`, is the specification's tile sum. -/
theorem partial_value (c : Dev nD) (xr : Fin 16 → Fin 2048 → Fin 256 → ℝ) (μ : Fin 16 → Fin 2048 → Bool)
    (gr βr : Fin 256 → ℝ)
    (hH : ∀ b s d, (V c main_v1 : FVec Ideal S16x2048x256 .bf16) (ix3 b s d)
      = ((Cert.Spec.ln Cert.Consts.eps xr gr βr b s d : ℝ) : EReal))
    (hX : ∀ b s d, (V c main_arg0 : FVec Ideal S16x2048x256 .f32) (ix3 b s d) = ((xr b s d : ℝ) : EReal))
    (hM : ∀ b s, (V c main_v0 : FVec Ideal S16x2048x1 .f32) (ix3 b s (0 : Fin 1))
      = ((Cert.Spec.keep μ b s : ℝ) : EReal))
    (qi : Fin 8) (b : Fin 16) (d : Fin 256) :
    ((Cert.KernelIdeal.Fl.dat (F := Ideal) V c).arrAt 5 cfg1.N : FVec Ideal S8x16x256 .f32) (ix3 qi b d)
      = ((Cert.Spec.tileKer Cert.Consts.eps Cert.Consts.negBig xr μ gr βr qi b d : ℝ) : EReal) := by
  have h7lt : (7 : ℕ) < 8 := by norm_num
  have hv : (pt qi ⟨7, h7lt⟩).val = qi.val * 8 + 7 := pt_val qi ⟨7, h7lt⟩
  have h0 : ¬ (pt qi ⟨7, h7lt⟩).val % 8 = 0 := by rw [hv]; omega
  have h7 : (pt qi ⟨7, h7lt⟩).val % 8 = 7 := by rw [hv]; omega
  have hs := sweep V c qi 7 h7lt
  have hC := Fl.outsAt_C V c (pt qi ⟨7, h7lt⟩) h0 h7
  have hfin : (Fl.outsAt V c (pt qi ⟨7, h7lt⟩).val (pt qi ⟨7, h7lt⟩).isLt).1
      = Cert.KerStep.fin
          (Cert.KerStep.runTo (Fl.iblk V c 0 (pt qi 0)) (Fl.iblk V c 3 (pt qi 0)) (HKf V c qi) (MKf V c qi) 7)
          (Fl.iblk V c 2 (pt qi ⟨7, h7lt⟩)) (Fl.iblk V c 3 (pt qi 0)) := by
    rw [← hs, hC, (FlValue.stC_eq V c _ _ _ _).2, (FlValue.stC_eq V c _ _ _ _).1, mq_const V c qi ⟨7, h7lt⟩]
  rw [FlValue.out_array V c qi b d,
    FlValue.outsAt_congr V c hv.symm _ (pt qi ⟨7, h7lt⟩).isLt, hfin]
  exact Cert.KerValue.tile_value qi xr μ gr βr _ _ _ _ _
    (fun b r e => (FlBlocks.iblk_hq V c qi 0 b r e).trans (hH b _ e))
    (fun b r e => (FlBlocks.iblk_xq V c qi ⟨7, h7lt⟩ b r e).trans (hX b _ e))
    (fun b r => (FlBlocks.iblk_mq V c qi 0 b r).trans (hM b _))
    (fun j b r e => by
      rw [HKf_lt V c qi j.val j.isLt]
      exact (FlBlocks.iblk_hk V c qi ⟨j.val, j.isLt⟩ b r e).trans (hH b _ e))
    (fun j b r => by
      rw [MKf_lt V c qi j.val j.isLt]
      exact (FlBlocks.iblk_mk V c qi ⟨j.val, j.isLt⟩ b r).trans (hM b _))
    b d

end Cert.KernelIdeal.FlLink

end
-- ==== Proof.RefScores.lean ====
/-
  The reference's first half, read at an index against the specification: for inputs that are (coerced) real numbers,
  the layer normalisation is `Cert.Spec.ln` and the masked score is `Cert.Spec.masked`.

  The stages are taken in groups: the mean (a sum over the features divided by 256), the centred feature, the variance
  (the mean of the squares), the standard deviation (the square root of the variance plus the offset, which is positive
  because a mean of squares is not negative), the quotient, scale and shift; then the contraction of the normalised
  rows over the features divided by 4, the mask as the numbers 0 and 1, the product of two positions' mask numbers (a
  contraction over an axis of length one), its comparison with one half, and the select between the score and the
  masked-out constant.
-/
import proofs.«128383_j11819749998990_2_alg».proof.Proof.RefReadP
import proofs.«128383_j11819749998990_2_alg».proof.Proof.Spec
import proofs.«128383_j11819749998990_2_alg».proof.Proof.Consts
import proofs.«128383_j11819749998990_2_alg».proof.Proof.LibOnlineSoftmax

noncomputable section

namespace Cert.RefScores

open Cert.ReferenceIdeal Cert.ReferenceIdeal.ReadP Idealize.ShloMosaic Idealize.ShloMosaic.ValueIdx
open Cert.Lib.OnlineSoftmax (coe_sum div_coe_coe)

/-! ## The composed index maps of the broadcasts, reductions and contractions, at coordinates -/

/-- The elements a position's first sum runs over. -/
theorem idx_row (b : Fin 16) (s : Fin 2048) (z : Fin 1) (k : Fin 256) :
    idx_main_v0 (idx_main_v1 (ix3 b s z)) k = ix3 b s k :=
  funext fun a => Fin.ext (by match a with | ⟨0, _⟩ => rfl | ⟨1, _⟩ => rfl | ⟨2, _⟩ => rfl)

/-- The elements a position's second sum runs over. -/
theorem idx_row' (b : Fin 16) (s : Fin 2048) (z : Fin 1) (k : Fin 256) :
    idx_main_v7 (idx_main_v8 (ix3 b s z)) k = ix3 b s k :=
  funext fun a => Fin.ext (by match a with | ⟨0, _⟩ => rfl | ⟨1, _⟩ => rfl | ⟨2, _⟩ => rfl)

/-- A per-position value spread over the features (the mean, first use). -/
theorem idx_col (b : Fin 16) (s : Fin 2048) (d : Fin 256) :
    idx_main_v4 (ix3 b s d) = ix3 b s (0 : Fin 1) :=
  funext fun a => Fin.ext (by match a with | ⟨0, _⟩ => rfl | ⟨1, _⟩ => rfl | ⟨2, _⟩ => rfl)

/-- A per-position value spread over the features (the mean, second use). -/
theorem idx_col' (b : Fin 16) (s : Fin 2048) (d : Fin 256) :
    idx_main_v11 (ix3 b s d) = ix3 b s (0 : Fin 1) :=
  funext fun a => Fin.ext (by match a with | ⟨0, _⟩ => rfl | ⟨1, _⟩ => rfl | ⟨2, _⟩ => rfl)

/-- A per-position value spread over the features (the standard deviation). -/
theorem idx_col'' (b : Fin 16) (s : Fin 2048) (d : Fin 256) :
    idx_main_v16 (ix3 b s d) = ix3 b s (0 : Fin 1) :=
  funext fun a => Fin.ext (by match a with | ⟨0, _⟩ => rfl | ⟨1, _⟩ => rfl | ⟨2, _⟩ => rfl)

/-- A per-feature value spread over the positions (the scale). -/
theorem idx_feat (b : Fin 16) (s : Fin 2048) (d : Fin 256) :
    idx_main_v18 (idx_main_v19 (ix3 b s d)) = ix1 d :=
  funext fun a => Fin.ext (by match a with | ⟨0, _⟩ => rfl)

/-- A per-feature value spread over the positions (the shift). -/
theorem idx_feat' (b : Fin 16) (s : Fin 2048) (d : Fin 256) :
    idx_main_v21 (idx_main_v22 (ix3 b s d)) = ix1 d :=
  funext fun a => Fin.ext (by match a with | ⟨0, _⟩ => rfl)

/-- The score contraction's left operand is the query's row. -/
theorem idx_lhs (b : Fin 16) (q k : Fin 2048) (d : Fin 256) :
    lidx_main_v24 (ix3 b q k) d = ix3 b q d :=
  funext fun a => Fin.ext (by match a with | ⟨0, _⟩ => rfl | ⟨1, _⟩ => rfl | ⟨2, _⟩ => rfl)

/-- The score contraction's right operand is the key's row. -/
theorem idx_rhs (b : Fin 16) (q k : Fin 2048) (d : Fin 256) :
    ridx_main_v24 (ix3 b q k) d = ix3 b k d :=
  funext fun a => Fin.ext (by match a with | ⟨0, _⟩ => rfl | ⟨1, _⟩ => rfl | ⟨2, _⟩ => rfl)

/-- The mask contraction's left operand is the query's mask number. -/
theorem idx_lhs_mask (b : Fin 16) (q k : Fin 2048) (z : Fin 1) :
    lidx_main_v28 (ix3 b q k) z = ix3 b q z :=
  funext fun a => Fin.ext (by match a with | ⟨0, _⟩ => rfl | ⟨1, _⟩ => rfl | ⟨2, _⟩ => rfl)

/-- The mask contraction's right operand is the key's mask number. -/
theorem idx_rhs_mask (b : Fin 16) (q k : Fin 2048) (z : Fin 1) :
    ridx_main_v28 (ix3 b q k) z = ix3 b k z :=
  funext fun a => Fin.ext (by match a with | ⟨0, _⟩ => rfl | ⟨1, _⟩ => rfl | ⟨2, _⟩ => rfl)

/-! ## Words -/

/-- A one-bit word read as a number. -/
theorem uitofp_bit (w : BitVec 1) : FloatOps.uitofp (F := Ideal) .f32 w = (((w.toNat : ℕ) : ℝ) : EReal) := rfl

/-- The comparison "greater than" of two extended reals, as a one-bit word. -/
theorem cmp_ogt (x y : EReal) : Ideal.cmp .ogt x y = BitVec.ofBool (decide (y < x)) := rfl

/-- The select on "the product of the two mask numbers exceeds one half": the first value where both positions are
    kept, the second elsewhere. -/
theorem gate (a c : ℝ) (u v : Bool) :
    (if BitVec.ofBool (decide (((1 / 2 : ℝ) : EReal)
          < (((if u = true then (1 : ℝ) else 0) * (if v = true then (1 : ℝ) else 0) : ℝ) : EReal))) = 1
      then (a : EReal) else (c : EReal))
      = ((if (u && v) = true then a else c : ℝ) : EReal) := by
  have h0 : ¬ (((1 / 2 : ℝ) : EReal) < ((0 : ℝ) : EReal)) := by rw [EReal.coe_lt_coe_iff]; norm_num
  have h1 : ((1 / 2 : ℝ) : EReal) < ((1 : ℝ) : EReal) := by rw [EReal.coe_lt_coe_iff]; norm_num
  have e0 : ¬ ((0 : BitVec 1) = 1) := by decide
  cases u <;> cases v <;>
    simp only [Bool.false_eq_true, if_false, if_true, mul_zero, zero_mul, mul_one, h0, h1, decide_false, decide_true,
      BitVec.ofBool_false, BitVec.ofBool_true, e0, Bool.and_false, Bool.and_true, Bool.and_self, Bool.false_and]

/-! ## The stages -/

variable (X : (⟨S16x2048x256, .f32⟩ : BufTy).Contents (Elt Ideal)) (Mk : (⟨S16x2048x1, .i1⟩ : BufTy).Contents (Elt Ideal))
  (G B : (⟨S256, .f32⟩ : BufTy).Contents (Elt Ideal))
  (xr : Fin 16 → Fin 2048 → Fin 256 → ℝ) (μ : Fin 16 → Fin 2048 → Bool) (gr βr : Fin 256 → ℝ)
  (hX : ∀ b s d, X (ix3 b s d) = ((xr b s d : ℝ) : EReal)) (hG : ∀ d, G (ix1 d) = ((gr d : ℝ) : EReal))
  (hB : ∀ d, B (ix1 d) = ((βr d : ℝ) : EReal))
  (hM : ∀ b s, Mk (ix3 b s (0 : Fin 1)) = if μ b s = true then 1#1 else 0#1)

include hX in
/-- The mean of a position's features. -/
theorem ref_mean (b : Fin 16) (s : Fin 2048) (z : Fin 1) :
    val_main_v3 (F := Ideal) X (ix3 b s z) = ((Cert.Spec.mean xr b s : ℝ) : EReal) := by
  rw [val_main_v3_apply, val_main_v1_apply, val_main_v0_apply, val_main_v2_apply, val_main_cst_0_apply,
    val_main_cst_apply]
  simp only [idx_row, hX, Ideal.hostDivf_def, Ideal.ofBits_def, Cert.Consts.ofBits_256, Cert.Consts.ofBits_zero,
    zero_add, coe_sum]
  rw [div_coe_coe _ _ (by norm_num)]
  rfl

include hX in
/-- A feature minus its position's mean (the operand of the square). -/
theorem ref_centred (b : Fin 16) (s : Fin 2048) (d : Fin 256) :
    val_main_v5 (F := Ideal) X (ix3 b s d) = ((xr b s d - Cert.Spec.mean xr b s : ℝ) : EReal) := by
  rw [val_main_v5_apply, val_main_v4_apply, idx_col, ref_mean X xr hX, hX, Ideal.subf_def, EReal.coe_sub]

include hX in
/-- The same difference, as the program computes it a second time (the operand of the quotient). -/
theorem ref_centred' (b : Fin 16) (s : Fin 2048) (d : Fin 256) :
    val_main_v12 (F := Ideal) X (ix3 b s d) = ((xr b s d - Cert.Spec.mean xr b s : ℝ) : EReal) := by
  rw [val_main_v12_apply, val_main_v11_apply, idx_col', ref_mean X xr hX, hX, Ideal.subf_def, EReal.coe_sub]

include hX in
/-- The variance of a position's features. -/
theorem ref_var (b : Fin 16) (s : Fin 2048) (z : Fin 1) :
    val_main_v10 (F := Ideal) X (ix3 b s z) = ((Cert.Spec.var xr b s : ℝ) : EReal) := by
  rw [val_main_v10_apply, val_main_v8_apply, val_main_v7_apply, val_main_v9_apply, val_main_cst_2_apply,
    val_main_cst_1_apply]
  simp only [idx_row', val_main_v6_apply, ref_centred X xr hX, Ideal.mulf_def, Ideal.hostDivf_def, Ideal.ofBits_def,
    Cert.Consts.ofBits_256, Cert.Consts.ofBits_zero, zero_add, ← EReal.coe_mul, coe_sum]
  rw [div_coe_coe _ _ (by norm_num)]
  rfl

/-- The variance is not negative. -/
theorem var_nonneg (b : Fin 16) (s : Fin 2048) : 0 ≤ Cert.Spec.var xr b s := by
  unfold Cert.Spec.var
  exact div_nonneg (Finset.sum_nonneg fun d _ => mul_self_nonneg _) (by norm_num)

/-- The variance plus the offset is positive. -/
theorem var_eps_pos (b : Fin 16) (s : Fin 2048) : 0 < Cert.Spec.var xr b s + Cert.Consts.eps :=
  add_pos_of_nonneg_of_pos (var_nonneg xr b s) Cert.Consts.eps_pos

include hX in
/-- The standard deviation: the square root of the variance plus the offset. -/
theorem ref_std (b : Fin 16) (s : Fin 2048) (z : Fin 1) :
    val_main_v15 (F := Ideal) X (ix3 b s z)
      = ((Real.sqrt (Cert.Spec.var xr b s + Cert.Consts.eps) : ℝ) : EReal) := by
  rw [val_main_v15_apply, val_main_v14_apply, ref_var X xr hX, val_main_v13_apply, val_main_cst_3_apply,
    Ideal.ofBits_def, Cert.Consts.ofBits_eps, Ideal.addf_def, ← EReal.coe_add, Ideal.hostUnary_sqrt_def,
    Ideal.sqrt_coe, if_neg (not_lt.mpr (var_eps_pos xr b s).le)]

include hX in
/-- The normalised feature, before scale and shift. -/
theorem ref_norm (b : Fin 16) (s : Fin 2048) (d : Fin 256) :
    val_main_v17 (F := Ideal) X (ix3 b s d)
      = (((xr b s d - Cert.Spec.mean xr b s) / Real.sqrt (Cert.Spec.var xr b s + Cert.Consts.eps) : ℝ) : EReal) := by
  rw [val_main_v17_apply, val_main_v16_apply, idx_col'', ref_std X xr hX, ref_centred' X xr hX, Ideal.hostDivf_def,
    div_coe_coe _ _ (Real.sqrt_pos.mpr (var_eps_pos xr b s)).ne']

include hX hG hB in
/-- The layer normalisation, read at an index. -/
theorem ref_ln (b : Fin 16) (s : Fin 2048) (d : Fin 256) :
    val_main_v23 (F := Ideal) X G B (ix3 b s d)
      = ((Cert.Spec.ln Cert.Consts.eps xr gr βr b s d : ℝ) : EReal) := by
  rw [val_main_v23_apply, val_main_v20_apply, val_main_v19_apply, val_main_v18_apply, idx_feat, val_main_v22_apply,
    val_main_v21_apply, idx_feat', ref_norm X xr hX, hG, hB, Ideal.mulf_def, Ideal.addf_def, ← EReal.coe_mul,
    ← EReal.coe_add]
  rfl

include hX hG hB in
/-- The scaled dot product of two normalised rows. -/
theorem ref_score (b : Fin 16) (q k : Fin 2048) :
    val_main_v26 (F := Ideal) X G B (ix3 b q k)
      = ((Cert.Spec.score Cert.Consts.eps xr gr βr b q k : ℝ) : EReal) := by
  rw [val_main_v26_apply, val_main_v24_apply, val_main_v25_apply, val_main_cst_4_apply]
  simp only [idx_lhs, idx_rhs, ref_ln X G B xr gr βr hX hG hB, Ideal.hostDivf_def, Ideal.ofBits_def,
    Cert.Consts.ofBits_four, ← EReal.coe_mul, coe_sum]
  rw [div_coe_coe _ _ (by norm_num)]
  rfl

include hM in
/-- The mask as a number: one where the position is kept, zero elsewhere. -/
theorem ref_keep (b : Fin 16) (s : Fin 2048) (z : Fin 1) :
    val_main_v27 (F := Ideal) Mk (ix3 b s z) = ((Cert.Spec.keep μ b s : ℝ) : EReal) := by
  obtain rfl : z = 0 := Subsingleton.elim _ _
  rw [val_main_v27_apply, hM, uitofp_bit]
  unfold Cert.Spec.keep
  cases μ b s <;> simp

include hM in
/-- The product of two positions' mask numbers (a contraction over an axis of length one). -/
theorem ref_both (b : Fin 16) (q k : Fin 2048) :
    val_main_v28 (F := Ideal) Mk (ix3 b q k)
      = ((Cert.Spec.keep μ b q * Cert.Spec.keep μ b k : ℝ) : EReal) := by
  rw [val_main_v28_apply, Fin.sum_univ_one, idx_lhs_mask, idx_rhs_mask, ref_keep Mk μ hM, ref_keep Mk μ hM,
    ← EReal.coe_mul]

include hX hG hB hM in
/-- The masked score, read at an index. -/
theorem ref_masked (b : Fin 16) (q k : Fin 2048) :
    val_main_v31 (F := Ideal) X Mk G B (ix3 b q k)
      = ((Cert.Spec.masked Cert.Consts.eps Cert.Consts.negBig xr μ gr βr b q k : ℝ) : EReal) := by
  rw [val_main_v31_apply, val_main_v30_apply, ref_both Mk μ hM, val_main_v29_apply, val_main_cst_5_apply,
    ref_score X G B xr gr βr hX hG hB, val_main_call0_v1_apply, val_main_call0_v0_apply, val_main_cst_6_apply,
    Ideal.ofBits_def, Ideal.ofBits_def, Cert.Consts.ofBits_half, Cert.Consts.ofBits_negBig, Ideal.cmpf_def, cmp_ogt]
  unfold Cert.Spec.masked Cert.Spec.keep Scalar.select
  exact gate _ _ (μ b q) (μ b k)

end Cert.RefScores

end
-- ==== Proof.RefSum.lean ====
/-
  The reference's second half, read at an index against the real-valued specification.

  Given the normalised rows `ln` and the masked scores `masked` as real numbers at every index, each later stage of the
  reference is the coercion of its real formula: the column maximum (a maximum over the queries taken from minus
  infinity, so the maximum with minus infinity that follows is the identity), the exponential of a score less its
  column's maximum, the column's sum of those exponentials (positive, being a sum of exponentials), their quotient, the
  contraction of the quotients with the normalised rows over the queries (`attnRef`), the input added, the positions
  the mask drops replaced by zero, and the sum over the sequence (`sumRef`).
-/
import proofs.«128383_j11819749998990_2_alg».proof.Proof.RefReadP
import proofs.«128383_j11819749998990_2_alg».proof.Proof.Spec
import proofs.«128383_j11819749998990_2_alg».proof.Proof.Consts
import proofs.«128383_j11819749998990_2_alg».proof.Proof.LibOnlineSoftmax

noncomputable section

namespace Cert.RefSum

open Cert.ReferenceIdeal Cert.ReferenceIdeal.Gen Cert.ReferenceIdeal.ReadP Idealize.ShloMosaic Idealize.ShloMosaic.ValueIdx
open Cert.Lib.OnlineSoftmax
open scoped BigOperators

variable (X : (⟨S16x2048x256, .f32⟩ : BufTy).Contents (Elt Ideal)) (Mk : (⟨S16x2048x1, .i1⟩ : BufTy).Contents (Elt Ideal))
  (G B : (⟨S256, .f32⟩ : BufTy).Contents (Elt Ideal))
  (xr : Fin 16 → Fin 2048 → Fin 256 → ℝ) (μ : Fin 16 → Fin 2048 → Bool) (gr βr : Fin 256 → ℝ)

/-! ## The column maximum -/

/-- The reduced index (b, k) with query q put back on axis 1 is (b, q, k). -/
theorem lift_q (h : S16x2048x2048.Reduces [1] S16x2048) (b : Fin 16) (k : Fin 2048) (q : Fin (S16x2048x2048.size 1)) :
    h.lift (ix2 b k) q = ix3 b (⟨q.val, q.isLt⟩ : Fin 2048) k := by
  funext c; apply Fin.ext
  fin_cases c <;> rfl

/-- The maximum over the queries, taken from minus infinity, of the masked scores of a column. -/
theorem v32_at (h31 : ∀ b q k, val_main_v31 (F := Ideal) X Mk G B (ix3 b q k) = ((Cert.Spec.masked Cert.Consts.eps Cert.Consts.negBig xr μ gr βr b q k : ℝ) : EReal))
    (b : Fin 16) (k : Fin 2048) :
    val_main_v32 (F := Ideal) X Mk G B (ix2 b k) = ((Cert.Spec.colMax Cert.Consts.eps Cert.Consts.negBig xr μ gr βr b k : ℝ) : EReal) := by
  unfold val_main_v32
  generalize hy : val_main_v31 (F := Ideal) X Mk G B = y at h31
  have hR : S16x2048x2048.Reduces [1] S16x2048 := by decide
  refine (Host.reduce_eq_fold_single (FloatOps.maximumf (F := Ideal) (φ := .f32)) y (val_main_cst_7 (F := Ideal)) reducesTo_S16x2048x2048_S16x2048_d1 hR h_S_ (ix2 b k)).trans ?_
  have hinit : (val_main_cst_7 (F := Ideal)) (Shape.Idx.first h_S_) = (⊥ : EReal) := Cert.Consts.ofBits_negInf
  have hf : (y ∘ hR.lift (ix2 b k)) = fun q : Fin 2048 => ((Cert.Spec.masked Cert.Consts.eps Cert.Consts.negBig xr μ gr βr b q k : ℝ) : EReal) :=
    funext fun q => (congrArg y (lift_q hR b k q)).trans (h31 b _ k)
  have e := fold_max_coe (fun q : Fin 2048 => Cert.Spec.masked Cert.Consts.eps Cert.Consts.negBig xr μ gr βr b q k)
  exact (congrArg₂ (fun i f => Finset.fold max i f (Finset.univ : Finset (Fin 2048))) hinit hf).trans e

/-! ## Index functions of the stages, at coordinates -/

theorem idx35 (b : Fin 16) (k : Fin 2048) : idx_main_v35 (ix3 b (0 : Fin 1) k) = ix2 b k :=
  funext fun a => Fin.ext (by match a with | ⟨0, _⟩ => rfl | ⟨1, _⟩ => rfl)
theorem idx36 (b : Fin 16) (q k : Fin 2048) : idx_main_v36 (ix3 b q k) = ix3 b (0 : Fin 1) k :=
  funext fun a => Fin.ext (by match a with | ⟨0, _⟩ => rfl | ⟨1, _⟩ => rfl | ⟨2, _⟩ => rfl)
theorem idx39 (b : Fin 16) (k q : Fin 2048) : idx_main_v39 (ix2 b k) q = ix3 b q k :=
  funext fun a => Fin.ext (by match a with | ⟨0, _⟩ => rfl | ⟨1, _⟩ => rfl | ⟨2, _⟩ => rfl)
theorem idx40 (b : Fin 16) (k : Fin 2048) : idx_main_v40 (ix3 b (0 : Fin 1) k) = ix2 b k :=
  funext fun a => Fin.ext (by match a with | ⟨0, _⟩ => rfl | ⟨1, _⟩ => rfl)
theorem idx41 (b : Fin 16) (q k : Fin 2048) : idx_main_v41 (ix3 b q k) = ix3 b (0 : Fin 1) k :=
  funext fun a => Fin.ext (by match a with | ⟨0, _⟩ => rfl | ⟨1, _⟩ => rfl | ⟨2, _⟩ => rfl)
theorem lidx43 (b : Fin 16) (k : Fin 2048) (d : Fin 256) (q : Fin 2048) : lidx_main_v43 (ix3 b k d) q = ix3 b q k :=
  funext fun a => Fin.ext (by match a with | ⟨0, _⟩ => rfl | ⟨1, _⟩ => rfl | ⟨2, _⟩ => rfl)
theorem ridx43 (b : Fin 16) (k : Fin 2048) (d : Fin 256) (q : Fin 2048) : ridx_main_v43 (ix3 b k d) q = ix3 b q d :=
  funext fun a => Fin.ext (by match a with | ⟨0, _⟩ => rfl | ⟨1, _⟩ => rfl | ⟨2, _⟩ => rfl)
theorem idxc1 (b : Fin 16) (s : Fin 2048) (d : Fin 256) : idx_main_call1_v1 (ix3 b s d) = ix3 b s (0 : Fin 1) :=
  funext fun a => Fin.ext (by match a with | ⟨0, _⟩ => rfl | ⟨1, _⟩ => rfl | ⟨2, _⟩ => rfl)
theorem idx46 (b : Fin 16) (d : Fin 256) (s : Fin 2048) : idx_main_v46 (ix2 b d) s = ix3 b s d :=
  funext fun a => Fin.ext (by match a with | ⟨0, _⟩ => rfl | ⟨1, _⟩ => rfl | ⟨2, _⟩ => rfl)

/-! ## The column maximum broadcast back along the queries -/

theorem v34_at (h31 : ∀ b q k, val_main_v31 (F := Ideal) X Mk G B (ix3 b q k) = ((Cert.Spec.masked Cert.Consts.eps Cert.Consts.negBig xr μ gr βr b q k : ℝ) : EReal)) (b : Fin 16) (k : Fin 2048) :
    val_main_v34 (F := Ideal) X Mk G B (ix2 b k) = ((Cert.Spec.colMax Cert.Consts.eps Cert.Consts.negBig xr μ gr βr b k : ℝ) : EReal) := by
  rw [val_main_v34_apply, val_main_v33_apply, val_main_cst_8_apply, v32_at X Mk G B xr μ gr βr h31]
  simp only [Ideal.maximumf_def, Ideal.ofBits_def, Cert.Consts.ofBits_negInf]
  exact max_bot_coe _

theorem v36_at (h31 : ∀ b q k, val_main_v31 (F := Ideal) X Mk G B (ix3 b q k) = ((Cert.Spec.masked Cert.Consts.eps Cert.Consts.negBig xr μ gr βr b q k : ℝ) : EReal)) (b : Fin 16) (q k : Fin 2048) :
    val_main_v36 (F := Ideal) X Mk G B (ix3 b q k) = ((Cert.Spec.colMax Cert.Consts.eps Cert.Consts.negBig xr μ gr βr b k : ℝ) : EReal) :=
  (val_main_v36_apply X Mk G B _).trans <| (congrArg (val_main_v35 (F := Ideal) X Mk G B) (idx36 b q k)).trans <|
    (val_main_v35_apply X Mk G B _).trans <| (congrArg (val_main_v34 (F := Ideal) X Mk G B) (idx35 b k)).trans
      (v34_at X Mk G B xr μ gr βr h31 b k)

/-- The exponential of a masked score less its column's maximum. -/
theorem v38_at (h31 : ∀ b q k, val_main_v31 (F := Ideal) X Mk G B (ix3 b q k) = ((Cert.Spec.masked Cert.Consts.eps Cert.Consts.negBig xr μ gr βr b q k : ℝ) : EReal)) (b : Fin 16) (q k : Fin 2048) :
    val_main_v38 (F := Ideal) X Mk G B (ix3 b q k) = ((Real.exp (Cert.Spec.masked Cert.Consts.eps Cert.Consts.negBig xr μ gr βr b q k - Cert.Spec.colMax Cert.Consts.eps Cert.Consts.negBig xr μ gr βr b k) : ℝ) : EReal) := by
  rw [val_main_v38_apply, val_main_v37_apply, h31, v36_at X Mk G B xr μ gr βr h31]
  simp only [Ideal.hostUnary_exp_def, Ideal.subf_def]
  exact exp_coe_sub _ _

/-! ## The column's sum of exponentials, broadcast back, and the softmax weight -/

theorem v39_at (h31 : ∀ b q k, val_main_v31 (F := Ideal) X Mk G B (ix3 b q k) = ((Cert.Spec.masked Cert.Consts.eps Cert.Consts.negBig xr μ gr βr b q k : ℝ) : EReal)) (b : Fin 16) (k : Fin 2048) :
    val_main_v39 (F := Ideal) X Mk G B (ix2 b k) = (((∑ q' : Fin 2048, Real.exp (Cert.Spec.masked Cert.Consts.eps Cert.Consts.negBig xr μ gr βr b q' k - Cert.Spec.colMax Cert.Consts.eps Cert.Consts.negBig xr μ gr βr b k)) : ℝ) : EReal) := by
  rw [val_main_v39_apply, val_main_cst_9_apply]
  simp only [Ideal.ofBits_def, Cert.Consts.ofBits_zero, zero_add]
  rw [← coe_sum]
  refine Finset.sum_congr rfl fun q _ => ?_
  exact (congrArg (val_main_v38 (F := Ideal) X Mk G B) (idx39 b k q)).trans (v38_at X Mk G B xr μ gr βr h31 b q k)

theorem v41_at (h31 : ∀ b q k, val_main_v31 (F := Ideal) X Mk G B (ix3 b q k) = ((Cert.Spec.masked Cert.Consts.eps Cert.Consts.negBig xr μ gr βr b q k : ℝ) : EReal)) (b : Fin 16) (q k : Fin 2048) :
    val_main_v41 (F := Ideal) X Mk G B (ix3 b q k) = (((∑ q' : Fin 2048, Real.exp (Cert.Spec.masked Cert.Consts.eps Cert.Consts.negBig xr μ gr βr b q' k - Cert.Spec.colMax Cert.Consts.eps Cert.Consts.negBig xr μ gr βr b k)) : ℝ) : EReal) :=
  (val_main_v41_apply X Mk G B _).trans <| (congrArg (val_main_v40 (F := Ideal) X Mk G B) (idx41 b q k)).trans <|
    (val_main_v40_apply X Mk G B _).trans <| (congrArg (val_main_v39 (F := Ideal) X Mk G B) (idx40 b k)).trans
      (v39_at X Mk G B xr μ gr βr h31 b k)

theorem den_ne (b : Fin 16) (k : Fin 2048) : (∑ q' : Fin 2048, Real.exp (Cert.Spec.masked Cert.Consts.eps Cert.Consts.negBig xr μ gr βr b q' k - Cert.Spec.colMax Cert.Consts.eps Cert.Consts.negBig xr μ gr βr b k)) ≠ 0 :=
  (Finset.sum_pos (fun _ _ => Real.exp_pos _) Finset.univ_nonempty).ne'

theorem v42_at (h31 : ∀ b q k, val_main_v31 (F := Ideal) X Mk G B (ix3 b q k) = ((Cert.Spec.masked Cert.Consts.eps Cert.Consts.negBig xr μ gr βr b q k : ℝ) : EReal)) (b : Fin 16) (q k : Fin 2048) :
    val_main_v42 (F := Ideal) X Mk G B (ix3 b q k)
      = ((Real.exp (Cert.Spec.masked Cert.Consts.eps Cert.Consts.negBig xr μ gr βr b q k - Cert.Spec.colMax Cert.Consts.eps Cert.Consts.negBig xr μ gr βr b k) / (∑ q' : Fin 2048, Real.exp (Cert.Spec.masked Cert.Consts.eps Cert.Consts.negBig xr μ gr βr b q' k - Cert.Spec.colMax Cert.Consts.eps Cert.Consts.negBig xr μ gr βr b k)) : ℝ) : EReal) := by
  rw [val_main_v42_apply, v38_at X Mk G B xr μ gr βr h31, v41_at X Mk G B xr μ gr βr h31]
  simp only [Ideal.hostDivf_def]
  exact div_coe_coe _ _ (den_ne xr μ gr βr b k)

/-! ## The weighted sum of the normalised rows, the residual, the mask, the sum over the sequence -/

theorem v43_at (h23 : ∀ b s d, val_main_v23 (F := Ideal) X G B (ix3 b s d) = ((Cert.Spec.ln Cert.Consts.eps xr gr βr b s d : ℝ) : EReal)) (h31 : ∀ b q k, val_main_v31 (F := Ideal) X Mk G B (ix3 b q k) = ((Cert.Spec.masked Cert.Consts.eps Cert.Consts.negBig xr μ gr βr b q k : ℝ) : EReal)) (b : Fin 16) (k : Fin 2048) (d : Fin 256) :
    val_main_v43 (F := Ideal) X Mk G B (ix3 b k d) = ((Cert.Spec.attnRef Cert.Consts.eps Cert.Consts.negBig xr μ gr βr b k d : ℝ) : EReal) := by
  rw [val_main_v43_apply]
  unfold Cert.Spec.attnRef
  rw [← coe_sum]
  refine Finset.sum_congr rfl fun q _ => ?_
  rw [lidx43, ridx43, v42_at X Mk G B xr μ gr βr h31, h23, ← EReal.coe_mul]

variable (hX : ∀ b s d, X (ix3 b s d) = ((xr b s d : ℝ) : EReal)) (hM : ∀ b s, Mk (ix3 b s (0 : Fin 1)) = if μ b s = true then 1#1 else 0#1) (h23 : ∀ b s d, val_main_v23 (F := Ideal) X G B (ix3 b s d) = ((Cert.Spec.ln Cert.Consts.eps xr gr βr b s d : ℝ) : EReal)) (h31 : ∀ b q k, val_main_v31 (F := Ideal) X Mk G B (ix3 b q k) = ((Cert.Spec.masked Cert.Consts.eps Cert.Consts.negBig xr μ gr βr b q k : ℝ) : EReal))

theorem v44_at (hX : ∀ b s d, X (ix3 b s d) = ((xr b s d : ℝ) : EReal)) (h23 : ∀ b s d, val_main_v23 (F := Ideal) X G B (ix3 b s d) = ((Cert.Spec.ln Cert.Consts.eps xr gr βr b s d : ℝ) : EReal)) (h31 : ∀ b q k, val_main_v31 (F := Ideal) X Mk G B (ix3 b q k) = ((Cert.Spec.masked Cert.Consts.eps Cert.Consts.negBig xr μ gr βr b q k : ℝ) : EReal)) (b : Fin 16) (k : Fin 2048) (d : Fin 256) :
    val_main_v44 (F := Ideal) X Mk G B (ix3 b k d) = ((xr b k d + Cert.Spec.attnRef Cert.Consts.eps Cert.Consts.negBig xr μ gr βr b k d : ℝ) : EReal) := by
  rw [val_main_v44_apply, hX, v43_at X Mk G B xr μ gr βr h23 h31]
  simp only [Ideal.addf_def]
  exact (EReal.coe_add _ _).symm

theorem v45_at (hX : ∀ b s d, X (ix3 b s d) = ((xr b s d : ℝ) : EReal)) (hM : ∀ b s, Mk (ix3 b s (0 : Fin 1)) = if μ b s = true then 1#1 else 0#1) (h23 : ∀ b s d, val_main_v23 (F := Ideal) X G B (ix3 b s d) = ((Cert.Spec.ln Cert.Consts.eps xr gr βr b s d : ℝ) : EReal)) (h31 : ∀ b q k, val_main_v31 (F := Ideal) X Mk G B (ix3 b q k) = ((Cert.Spec.masked Cert.Consts.eps Cert.Consts.negBig xr μ gr βr b q k : ℝ) : EReal)) (b : Fin 16) (s : Fin 2048) (d : Fin 256) :
    val_main_v45 (F := Ideal) X Mk G B (ix3 b s d)
      = (((if μ b s = true then xr b s d + Cert.Spec.attnRef Cert.Consts.eps Cert.Consts.negBig xr μ gr βr b s d else 0) : ℝ) : EReal) := by
  rw [val_main_v45_apply, val_main_call1_v1_apply, idxc1, hM, v44_at X Mk G B xr μ gr βr hX h23 h31,
    val_main_call1_v2_apply, val_main_call1_v0_apply, val_main_cst_10_apply]
  simp only [Ideal.ofBits_def, Cert.Consts.ofBits_zero]
  by_cases hμ : μ b s = true
  · rw [if_pos hμ, if_pos hμ]; exact select_one _ _
  · rw [if_neg hμ, if_neg hμ]; exact (select_zero _ _).trans EReal.coe_zero.symm

include hX hM h23 h31 in
/-- The reference's sum over the sequence, read at an index, is the specification's. -/
theorem ref_sum (b : Fin 16) (d : Fin 256) :
    val_main_v46 (F := Ideal) X Mk G B (ix2 b d) = ((Cert.Spec.sumRef Cert.Consts.eps Cert.Consts.negBig xr μ gr βr b d : ℝ) : EReal) := by
  rw [val_main_v46_apply, val_main_cst_11_apply]
  simp only [Ideal.ofBits_def, Cert.Consts.ofBits_zero, zero_add]
  unfold Cert.Spec.sumRef
  rw [← coe_sum]
  refine Finset.sum_congr rfl fun s _ => ?_
  exact (congrArg (val_main_v45 (F := Ideal) X Mk G B) (idx46 b d s)).trans (v45_at X Mk G B xr μ gr βr hX hM h23 h31 b s d)

end Cert.RefSum

end
-- ==== Proof.RefTail.lean ====
/-
  The reference's closing normalisation, read at an index: the result at (b, d) is the row of sums of batch row `b`
  divided at `d` by the square root of zero plus the sum of the row's squares — the shared function `tailAt` of that
  row. The row of sums itself is not opened.
-/
import proofs.«128383_j11819749998990_2_alg».proof.Proof.RefReadP
import proofs.«128383_j11819749998990_2_alg».proof.Proof.SpecTail

noncomputable section

namespace Cert.RefSum

open Cert.ReferenceIdeal Cert.ReferenceIdeal.Gen Cert.ReferenceIdeal.ReadP Idealize.ShloMosaic Idealize.ShloMosaic.ValueIdx
open scoped BigOperators

variable (X : (⟨S16x2048x256, .f32⟩ : BufTy).Contents (Elt Ideal)) (Mk : (⟨S16x2048x1, .i1⟩ : BufTy).Contents (Elt Ideal))
  (G B : (⟨S256, .f32⟩ : BufTy).Contents (Elt Ideal))

/-! ## The closing normalisation -/

theorem idx48 (b : Fin 16) (d : Fin 256) : idx_main_v48 (ix2 b d) = ix2 b (0 : Fin 1) :=
  funext fun a => Fin.ext (by match a with | ⟨0, _⟩ => rfl | ⟨1, _⟩ => rfl)
theorem idxn2 (b : Fin 16) : idx_main_call2_v2 (ix2 b (0 : Fin 1)) = ix1 b :=
  funext fun a => Fin.ext (by match a with | ⟨0, _⟩ => rfl)
theorem idxn1 (b : Fin 16) (k : Fin 256) : idx_main_call2_v1 (ix1 b) k = ix2 b k :=
  funext fun a => Fin.ext (by match a with | ⟨0, _⟩ => rfl | ⟨1, _⟩ => rfl)

/-- The reference's result at an index: its row of sums divided by the row's Euclidean length. -/
theorem ref_tail (b : Fin 16) (d : Fin 256) :
    val_main_v49 (F := Ideal) X Mk G B (ix2 b d)
      = Cert.Spec.tailAt (fun d' => val_main_v46 (F := Ideal) X Mk G B (ix2 b d')) d := by
  rw [val_main_v49_apply, val_main_v48_apply, idx48, val_main_v47_apply, val_main_call2_v2_apply, idxn2,
    val_main_call2_v1_apply, val_main_call2_cst_apply]
  unfold Cert.Spec.tailAt
  simp only [Ideal.hostDivf_def, Ideal.hostUnary_sqrt_def, Ideal.ofBits_def]
  refine congrArg (fun s => Ideal.div _ (Ideal.sqrt (_ + s))) (Finset.sum_congr rfl fun k _ => ?_)
  rw [idxn1, val_main_call2_v0_apply]
  rfl

end Cert.RefSum

end
-- ==== Proof.Bridge.lean ====
import proofs.«128383_j11819749998990_2_alg».proof.Proof.Spec
import Mathlib.Algebra.BigOperators.Fin
import Mathlib.Algebra.BigOperators.Ring.Finset
import Mathlib.Logic.Equiv.Fin.Basic

/-!
# The two programs' sums agree over the reals

The score matrix is symmetric: the dot product of two normalised rows does not depend on their order, and
neither does the conjunction of their two mask bits.  So the largest score of a row is the largest score of
the column of the same index, a row's exponentials are that column's, and the row-normalised attention
output at a position (a quotient of two sums) is the column-normalised one (a sum of quotients): over the reals
`(∑ k, e k * v k) / L = ∑ k, e k / L * v k` for every `L`.  The eight tiles of 256 consecutive positions are the
2048 positions, and multiplying by the mask as a 0/1 number is keeping or zeroing the term.
-/

open scoped BigOperators

namespace Cert.Bridge

open Cert.Spec

variable (ε NEG : ℝ) (x : Fin 16 → Fin 2048 → Fin 256 → ℝ) (μ : Fin 16 → Fin 2048 → Bool) (g β : Fin 256 → ℝ)

/-- The score of a pair of positions does not depend on their order. -/
theorem score_symm (b : Fin 16) (q k : Fin 2048) : score ε x g β b q k = score ε x g β b k q := by
  unfold score
  exact congrArg (· / 4) (Finset.sum_congr rfl fun d _ => mul_comm _ _)

/-- Neither does the masked score. -/
theorem masked_symm (b : Fin 16) (q k : Fin 2048) :
    masked ε NEG x μ g β b q k = masked ε NEG x μ g β b k q := by
  unfold masked
  rw [Bool.and_comm, score_symm]

/-- The largest score of a row is the largest score of the column of the same index. -/
theorem rowMax_eq_colMax (b : Fin 16) (q : Fin 2048) :
    rowMax ε NEG x μ g β b q = colMax ε NEG x μ g β b q := by
  unfold rowMax colMax
  exact congrArg (Finset.univ.sup' Finset.univ_nonempty) (funext fun k => masked_symm ε NEG x μ g β b q k)

/-- The row-normalised attention output is the column-normalised one. -/
theorem attnKer_eq_attnRef (b : Fin 16) (q : Fin 2048) (d : Fin 256) :
    attnKer ε NEG x μ g β b q d = attnRef ε NEG x μ g β b q d := by
  unfold attnKer attnRef
  rw [rowMax_eq_colMax, Finset.sum_div]
  have hden : (∑ k : Fin 2048, Real.exp (masked ε NEG x μ g β b q k - colMax ε NEG x μ g β b q))
      = ∑ q' : Fin 2048, Real.exp (masked ε NEG x μ g β b q' q - colMax ε NEG x μ g β b q) :=
    Finset.sum_congr rfl fun k _ => by rw [masked_symm ε NEG x μ g β b q k]
  rw [hden]
  refine Finset.sum_congr rfl fun k _ => ?_
  rw [masked_symm ε NEG x μ g β b q k, div_mul_eq_mul_div]

/-- Position `r` of tile `t` is the image of the pair `(t, r)` under the standard bijection. -/
theorem pos_eq (t : Fin 8) (r : Fin 256) :
    pos t r = (finProdFinEquiv : Fin 8 × Fin 256 ≃ Fin (8 * 256)) (t, r) := by
  apply Fin.ext
  simp only [pos, finProdFinEquiv, Equiv.coe_fn_mk]
  omega

/-- The eight tiles of 256 positions are the 2048 positions. -/
theorem sum_tiles (F : Fin 2048 → ℝ) : ∑ t : Fin 8, ∑ r : Fin 256, F (pos t r) = ∑ s : Fin 2048, F s :=
  (Fintype.sum_prod_type' fun (t : Fin 8) (r : Fin 256) => F (pos t r)).symm.trans
    (Fintype.sum_equiv (finProdFinEquiv : Fin 8 × Fin 256 ≃ Fin (8 * 256))
      (fun p => F (pos p.1 p.2)) F fun p => congrArg F (pos_eq p.1 p.2))

/-- Multiplying by the mask as a number keeps or zeroes the term. -/
theorem mul_keep (a : ℝ) (b : Fin 16) (s : Fin 2048) : a * keep μ b s = if μ b s = true then a else 0 := by
  unfold keep
  split_ifs <;> simp

/-- The kernel's sum is the reference's. -/
theorem sumKer_eq_sumRef (b : Fin 16) (d : Fin 256) :
    Cert.Spec.sumKer ε NEG x μ g β b d = Cert.Spec.sumRef ε NEG x μ g β b d := by
  unfold sumKer sumRef tileKer
  rw [sum_tiles fun s => (x b s d + attnKer ε NEG x μ g β b s d) * keep μ b s]
  refine Finset.sum_congr rfl fun s _ => ?_
  rw [mul_keep, attnKer_eq_attnRef]

end Cert.Bridge
-- ==== Proof.Finite.lean ====
import proofs.«128383_j11819749998990_2_alg».proof.Defs
import Idealize.ShloMosaic.Lib.ReduceAll
import Idealize.ShloMosaic.Lib.ValueIdx

/-!
# The precondition gives real inputs

The precondition says, of each of the three float arguments, that every entry's absolute value is below `+∞`
(three `all`s, and-ed).  An extended real whose absolute value `max v (-v)` is below `+∞` is neither `+∞` nor
`-∞` (the absolute value of either is `+∞`), hence a real number.  So each float argument is, entry by entry,
the image of a real array.
-/

noncomputable section

namespace Cert.Finite

open Idealize.ShloMosaic Idealize.SL.Sem

/-- The scalar shape has one index. -/
instance : Subsingleton Cert.Pre_finite_inputs.S_.Idx := ⟨fun a b => funext fun d => d.elim0⟩

/-- The pattern `0x7F800000` denotes `+∞`. -/
theorem ofBits_posInf : Ideal.ofBits .f32 0x7F800000#32 = (⊤ : EReal) := by
  simp [Ideal.ofBits, Ideal.ieee]

/-- An extended real whose absolute value is below `+∞` is a real number. -/
theorem real_of_abs_lt_top (v : EReal)
    (h : Ideal.cmp .olt (max v (-v)) (Ideal.ofBits .f32 0x7F800000#32) = 1#1) : ∃ r : ℝ, v = ((r : ℝ) : EReal) := by
  rw [ofBits_posInf] at h
  induction v using EReal.rec with
  | bot => simp [Ideal.cmp] at h
  | coe r => exact ⟨r, rfl⟩
  | top => simp [Ideal.cmp] at h

/-- Under the precondition every entry of the three float arguments is the image of a real number. -/
theorem reals_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∃ xr : Fin 16 → Fin 2048 → Fin 256 → ℝ, ∀ b s d,
        (m ((c.tc : Thread Cert.KernelIdeal.nD Cert.KernelIdeal.τ).loc Cert.KernelIdeal.main_arg0)
          : FVec Ideal Cert.KernelIdeal.S16x2048x256 .f32) (ValueIdx.ix3 b s d) = ((xr b s d : ℝ) : EReal))
    ∧ (∃ gr : Fin 256 → ℝ, ∀ d,
        (m ((c.tc : Thread Cert.KernelIdeal.nD Cert.KernelIdeal.τ).loc Cert.KernelIdeal.main_arg2)
          : FVec Ideal Cert.KernelIdeal.S256 .f32) (ValueIdx.ix1 d) = ((gr d : ℝ) : EReal))
    ∧ (∃ βr : Fin 256 → ℝ, ∀ d,
        (m ((c.tc : Thread Cert.KernelIdeal.nD Cert.KernelIdeal.τ).loc Cert.KernelIdeal.main_arg3)
          : FVec Ideal Cert.KernelIdeal.S256 .f32) (ValueIdx.ix1 d) = ((βr d : ℝ) : EReal)) := by
  have e := congrFun (h c) ValueIdx.ix0
  dsimp only [Cert.Pre_finite_inputs.fn] at e
  simp only [andi, IntOp.andi_eq_one] at e
  obtain ⟨⟨h0, h2⟩, h3⟩ := e
  refine ⟨?_, ?_, ?_⟩
  · have hx : ∀ b s d, ∃ r : ℝ,
        (m ((c.tc : Thread Cert.KernelIdeal.nD Cert.KernelIdeal.τ).loc Cert.KernelIdeal.main_arg0)
          : FVec Ideal Cert.KernelIdeal.S16x2048x256 .f32) (ValueIdx.ix3 b s d) = ((r : ℝ) : EReal) :=
      fun b s d => real_of_abs_lt_top _ (Host.reduce_andi_all _ _ _ _ _ h0 (ValueIdx.ix3 b s d))
    choose xr hxr using hx
    exact ⟨xr, hxr⟩
  · have hx : ∀ d, ∃ r : ℝ,
        (m ((c.tc : Thread Cert.KernelIdeal.nD Cert.KernelIdeal.τ).loc Cert.KernelIdeal.main_arg2)
          : FVec Ideal Cert.KernelIdeal.S256 .f32) (ValueIdx.ix1 d) = ((r : ℝ) : EReal) :=
      fun d => real_of_abs_lt_top _ (Host.reduce_andi_all _ _ _ _ _ h2 (ValueIdx.ix1 d))
    choose gr hgr using hx
    exact ⟨gr, hgr⟩
  · have hx : ∀ d, ∃ r : ℝ,
        (m ((c.tc : Thread Cert.KernelIdeal.nD Cert.KernelIdeal.τ).loc Cert.KernelIdeal.main_arg3)
          : FVec Ideal Cert.KernelIdeal.S256 .f32) (ValueIdx.ix1 d) = ((r : ℝ) : EReal) :=
      fun d => real_of_abs_lt_top _ (Host.reduce_andi_all _ _ _ _ _ h3 (ValueIdx.ix1 d))
    choose βr hβr using hx
    exact ⟨βr, hβr⟩

end Cert.Finite

end
-- ==== Proof.Algebraic.lean ====
/-
  The algebraic claim: at the ideal instance, from memories agreeing on the arguments and under the finiteness
  precondition, the idealized kernel and the idealized reference end with equal results.

  Kernel side: the result is the shared normalisation `tailAt` of the row of tile sums (the host tail), each tile sum is
  the specification's `tileKer` (the attention region, fed with the normalised rows the LayerNorm region left, the input
  rows and the mask as numbers), and the tiles add up to `sumKer`.  Reference side: the result is `tailAt` of the row of
  `sumRef`.  Over the reals `sumKer = sumRef` — the score matrix is symmetric, so a softmax down its columns weighted by
  rows is the softmax along its rows —, and `tailAt` is the same function on both sides.
-/
import proofs.«128383_j11819749998990_2_alg».proof.Defs
import proofs.«128383_j11819749998990_2_alg».proof.Proof.Ideal.Run
import proofs.«128383_j11819749998990_2_alg».proof.Proof.Ideal.Entry
import proofs.«128383_j11819749998990_2_alg».proof.Proof.Ideal.Tail
import proofs.«128383_j11819749998990_2_alg».proof.Proof.Ideal.FlashLink
import proofs.«128383_j11819749998990_2_alg».proof.Proof.RefReadP
import proofs.«128383_j11819749998990_2_alg».proof.Proof.RefScores
import proofs.«128383_j11819749998990_2_alg».proof.Proof.RefSum
import proofs.«128383_j11819749998990_2_alg».proof.Proof.RefTail
import proofs.«128383_j11819749998990_2_alg».proof.Proof.Bridge
import proofs.«128383_j11819749998990_2_alg».proof.Proof.Finite
import proofs.«128383_j11819749998990_2_alg».proof.Proof.LibOnlineSoftmax

noncomputable section

namespace Cert.Proof.Algebraic

open Idealize.ShloMosaic Idealize.ShloMosaic.TcCoe Idealize.ShloMosaic.ValueIdx Idealize.SL.Sem

section Kernel
open Cert.KernelIdeal Cert.KernelIdeal.Gen

variable (m : (ℓ : Loc nD τ sig) → Buf (Elt Ideal) ℓ) (ρ : Dev nD → PrngReg) (c : Dev nD)
  (xr : Fin 16 → Fin 2048 → Fin 256 → ℝ) (μ : Fin 16 → Fin 2048 → Bool) (gr βr : Fin 256 → ℝ)

/-- The idealized kernel's result, index by index: the normalisation of the row of the specification's sums. -/
theorem kernel_value
    (hx : ∀ b s d, (m ((c : Thread nD τ).loc main_arg0) : FVec Ideal S16x2048x256 .f32) (ix3 b s d) = ((xr b s d : ℝ) : EReal))
    (hg : ∀ d, (m ((c : Thread nD τ).loc main_arg2) : FVec Ideal S256 .f32) (ix1 d) = ((gr d : ℝ) : EReal))
    (hβ : ∀ d, (m ((c : Thread nD τ).loc main_arg3) : FVec Ideal S256 .f32) (ix1 d) = ((βr d : ℝ) : EReal))
    (hμ : ∀ b s, (m ((c : Thread nD τ).loc main_arg1) : IVec S16x2048x1 1) (ix3 b s (0 : Fin 1)) = if μ b s = true then 1#1 else 0#1)
    (b : Fin 16) (d : Fin 256) :
    (Run.W4 (F := Ideal) m ρ c (Proc.devRef .tc main_v9) : FVec Ideal S16x256 .f32) (ix2 b d)
      = Cert.Spec.tailAt (fun d' => ((Cert.Spec.sumKer Cert.Consts.eps Cert.Consts.negBig xr μ gr βr b d' : ℝ) : EReal)) d := by
  have ht : ∀ (t : Fin 8) (d' : Fin 256), (Run.W3 (F := Ideal) m ρ c (Proc.devRef .tc main_v2) : FVec Ideal S8x16x256 .f32) (ix3 t b d')
      = ((Cert.Spec.tileKer Cert.Consts.eps Cert.Consts.negBig xr μ gr βr t b d' : ℝ) : EReal) := fun t d' => by
    rw [Run.W3_out]
    exact FlLink.partial_value (Run.V2 m ρ) c xr μ gr βr (Entry.V2_h m ρ c xr gr βr hx hg hβ) (Entry.V2_x m ρ c xr hx)
      (Entry.V2_mask m ρ c μ hμ) t b d'
  refine (congrFun (Tail.W4_result m ρ c) (ix2 b d)).trans ?_
  generalize (Run.W3 (F := Ideal) m ρ c (Proc.devRef .tc main_v2) : FVec Ideal S8x16x256 .f32) = P at ht ⊢
  rw [Tail.tail_apply]
  refine congrArg (fun row => Cert.Spec.tailAt row d) (funext fun d' => ?_)
  simp only [ht]
  rw [Cert.Consts.ofBits_zero, zero_add, Cert.Lib.OnlineSoftmax.coe_sum]
  rfl

end Kernel

variable [hKernelIdeal : Cert.KernelIdeal.Facts] [hReferenceIdeal : Cert.ReferenceIdeal.Facts]
  [hPre_finite_inputs : Cert.Pre_finite_inputs.Facts]

theorem algebraic : Cert.algebraic_KernelIdeal_ReferenceIdeal := by
  intro m ρ m' ρ' hpre hagree
  refine ⟨fun c => Cert.KernelIdeal.Run.W4 (F := Ideal) m ρ c (Proc.devRef .tc Cert.KernelIdeal.main_v9),
    Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨⟨xr, hx⟩, ⟨gr, hg⟩, ⟨βr, hβ⟩⟩ := Cert.Finite.reals_of_pre m hpre c
  have hμ : ∀ b s, (m ((c.tc : Thread Cert.KernelIdeal.nD Cert.KernelIdeal.τ).loc Cert.KernelIdeal.main_arg1) : IVec Cert.KernelIdeal.S16x2048x1 1) (ix3 b s (0 : Fin 1))
      = if (decide ((m ((c.tc : Thread Cert.KernelIdeal.nD Cert.KernelIdeal.τ).loc Cert.KernelIdeal.main_arg1) : IVec Cert.KernelIdeal.S16x2048x1 1) (ix3 b s (0 : Fin 1)) = 1#1)) = true then 1#1 else 0#1 := fun b s => by
    rcases BitVec.eq_zero_or_eq_one ((m ((c.tc : Thread Cert.KernelIdeal.nD Cert.KernelIdeal.τ).loc Cert.KernelIdeal.main_arg1) : IVec Cert.KernelIdeal.S16x2048x1 1) (ix3 b s (0 : Fin 1))) with h | h <;> rw [h] <;> first | rfl | simp
  rw [Cert.ReferenceIdeal.ReadP.val_main_v49_eq, (hagree c).1, (hagree c).2.1, (hagree c).2.2.1, (hagree c).2.2.2]
  funext i
  obtain ⟨b, d, rfl⟩ : ∃ (b : Fin 16) (d : Fin 256), i = ix2 b d := ⟨i 0, i 1, eq_ix2 i⟩
  rw [Cert.RefSum.ref_tail]
  refine (congrArg (fun row => Cert.Spec.tailAt row d) (funext fun d' => ?_)).trans
    (kernel_value m ρ c xr (fun b s => decide ((m ((c.tc : Thread Cert.KernelIdeal.nD Cert.KernelIdeal.τ).loc Cert.KernelIdeal.main_arg1) : IVec Cert.KernelIdeal.S16x2048x1 1) (ix3 b s (0 : Fin 1)) = 1#1)) gr βr hx hg hβ hμ b d).symm
  rw [Cert.RefSum.ref_sum _ _ _ _ xr _ gr βr hx hμ
      (Cert.RefScores.ref_ln _ _ _ xr gr βr hx hg hβ) (Cert.RefScores.ref_masked _ _ _ _ xr _ gr βr hx hg hβ hμ) b d',
    Cert.Bridge.sumKer_eq_sumRef]

end Cert.Proof.Algebraic

end
-- ==== Proof.lean ====
/-
  A single-head self-attention block against its reference, as two kernel regions and a host tail: every position of
  the [16, 2048, 256] input is layer-normalised; scaled dot-product scores of the normalised rows are masked pairwise and
  normalised by a softmax; the weighted rows are added to the input, masked, summed over the sequence, and each batch
  row of the sum is divided by its Euclidean length.  The reference takes the softmax along the QUERY axis of the score
  matrix; the kernel takes the ordinary softmax along the key axis, tile by tile with a running maximum, denominator and
  weighted sum.  The two agree because the masked score matrix is symmetric (`Bridge`).

  The five claims: the three programs' frames (`Frames`: each kernel program's run through both regions with every
  buffer's contents named at each boundary; the reference's generated run), the idealization claim (nothing was
  rewritten), and the equality of the two idealized programs' results under the finiteness precondition (`Algebraic`).
-/
import proofs.«128383_j11819749998990_2_alg».proof.Defs
import proofs.«128383_j11819749998990_2_alg».proof.Proof.Gen.Kernel
import proofs.«128383_j11819749998990_2_alg».proof.Proof.Gen.KernelIdeal
import proofs.«128383_j11819749998990_2_alg».proof.Proof.Gen.ReferenceIdeal
import proofs.«128383_j11819749998990_2_alg».proof.Proof.Gen.Pre_finite_inputs
import proofs.«128383_j11819749998990_2_alg».proof.Proof.Frames
import proofs.«128383_j11819749998990_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves, Algebraic.algebraic⟩

end Cert.Proof

end
